-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x64 : Shape := ⟨2, ![2048, 64]⟩
abbrev S6144x2048 : Shape := ⟨2, ![6144, 2048]⟩
abbrev S2048x2048 : Shape := ⟨2, ![2048, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2x2048x2048 .f32) (main_arg1 : FVec F S2048x64 .f32) (main_arg2 : FVec F S6144x2048 .f32) (main_arg3 : FVec F S2048x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S6144x2048 .f32 := Host.absf main_arg2
  let main_cst_2 : FVec F S_ .f32 := constant S_ .f32 0x7F800000#32
  let main_v10 : FVec F S6144x2048 .f32 := broadcastInDim S6144x2048 ![] bcast_S_S6144x2048 main_cst_2
  let main_v11 : IVec S6144x2048 1 := cmpf .olt main_v9 main_v10
  let main_c_3 : IVec S_ 1 := constantI S_ 1 1#1
  let main_v12 : IVec S_ 1 := (fun x v => Host.reduce IntOp.andi x v reducesTo_S6144x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2x2048x2048 : Shape := ⟨3, ![2, 2048, 2048]⟩
abbrev S2048x64 : Shape := ⟨2, ![2048, 64]⟩
abbrev S6144x2048 : Shape := ⟨2, ![6144, 2048]⟩
abbrev S2048x2048 : Shape := ⟨2, ![2048, 2048]⟩
abbrev S4096x2048 : Shape := ⟨2, ![4096, 2048]⟩
abbrev S4096x6144 : Shape := ⟨2, ![4096, 6144]⟩
abbrev S512x2048 : Shape := ⟨2, ![512, 2048]⟩
abbrev S1024x2048 : Shape := ⟨2, ![1024, 2048]⟩
abbrev S512x1024 : Shape := ⟨2, ![512, 1024]⟩
abbrev S2x2048x6144 : Shape := ⟨3, ![2, 2048, 6144]⟩
abbrev S1x512x128 : Shape := ⟨3, ![1, 512, 128]⟩
abbrev S1x2048x128 : Shape := ⟨3, ![1, 2048, 128]⟩
abbrev S2048x128 : Shape := ⟨2, ![2048, 128]⟩
abbrev S2048x32 : Shape := ⟨2, ![2048, 32]⟩
abbrev S512x128 : Shape := ⟨2, ![512, 128]⟩
abbrev S512x64 : Shape := ⟨2, ![512, 64]⟩
abbrev S512x32 : Shape := ⟨2, ![512, 32]⟩
abbrev S512 : Shape := ⟨1, ![512]⟩
abbrev S512x1 : Shape := ⟨2, ![512, 1]⟩

abbrev nBuf : Space → Nat
  | .hbm => 17
  | .vmem => 23
  | .smem => 0
  | _ => 0

abbrev bufTy : (tb : Table) → Fin (tcTables nBuf tb) → BufTy
  | .hbm, ⟨0, _⟩ => ⟨S2x2048x2048, .f32⟩
  | .hbm, ⟨1, _⟩ => ⟨S2048x64, .f32⟩
  | .hbm, ⟨2, _⟩ => ⟨S6144x2048, .f32⟩
  | .hbm, ⟨3, _⟩ => ⟨S2048x2048, .f32⟩
  | .hbm, ⟨4, _⟩ => ⟨S2048x64, .f32⟩
  | .hbm, ⟨5, _⟩ => ⟨S2048x64, .f32⟩
  | .hbm, ⟨6, _⟩ => ⟨S2x2048x2048, .bf16⟩
  | .hbm, ⟨7, _⟩ => ⟨S6144x2048, .bf16⟩
  | .hbm, ⟨8, _⟩ => ⟨S2048x2048, .bf16⟩
  | .hbm, ⟨9, _⟩ => ⟨S4096x2048, .bf16⟩
  | .hbm, ⟨10, _⟩ => ⟨S4096x6144, .f32⟩
  | .hbm, ⟨11, _⟩ => ⟨S2x2048x6144, .f32⟩
  | .hbm, ⟨12, _⟩ => ⟨S2x2048x2048, .f32⟩
  | .hbm, ⟨13, _⟩ => ⟨S2x2048x2048, .bf16⟩
  | .hbm, ⟨14, _⟩ => ⟨S4096x2048, .bf16⟩
  | .hbm, ⟨15, _⟩ => ⟨S4096x2048, .f32⟩
  | .hbm, ⟨16, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S1x512x128, .f32⟩
  | .local _ .vmem, ⟨7, _⟩ => ⟨S1x512x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S2048x64, .f32⟩
  | .local _ .vmem, ⟨13, _⟩ => ⟨S2048x64, .f32⟩
  | .local _ .vmem, ⟨14, _⟩ => ⟨S1x512x128, .f32⟩
  | .local _ .vmem, ⟨15, _⟩ => ⟨S1x512x128, .f32⟩
  | .local _ .vmem, ⟨16, _⟩ => ⟨S2048x128, .bf16⟩
  | .local _ .vmem, ⟨17, _⟩ => ⟨S512x2048, .bf16⟩
  | .local _ .vmem, ⟨18, _⟩ => ⟨S512x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x1024, .f32⟩
  | .local _ .vmem, ⟨22, _⟩ => ⟨S512x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 16, 4], ![false, false, false]⟩

def k1_mult1 (i : grid1.Coords) : BitVec 32 :=
  let arg2 : BitVec 32 := BitVec.ofNat 32 (i 2).val
  let c512_i32 : BitVec 32 := 512#32
  let v3 : BitVec 32 := Scalar.muli arg2 c512_i32
  v3
def k1_off1 (i : grid1.Coords) : Fin 2 → Nat :=
  let arg2 : BitVec 32 := BitVec.ofNat 32 (i 2).val
  let c512_i32 : BitVec 32 := 512#32
  let v3 : BitVec 32 := Scalar.muli arg2 c512_i32
  let v4 : BitVec 32 := v3
  let v7 : Index := Scalar.indexCast v4
  let c0_3 : Index := 0#32
  ![v7.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S2048x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S2048x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x1024_S512x1024_0_0 : ∀ a, (![0, 0] : Fin 2 → Nat) a + S512x1024.size a ≤ S512x1024.size a
  h_S512x1024 : 0 < S512x1024.numel
  shapeCasts_S4096x6144_S2x2048x6144 : S4096x6144.ShapeCasts S2x2048x6144
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S2048x128_o0_0_S2048x64 : S2048x128.Slices ![0, 0] S2048x64
  slices_S2048x64_o0_0_S2048x32 : S2048x64.Slices ![0, 0] S2048x32
  slices_S2048x64_o0_32_S2048x32 : S2048x64.Slices ![0, 32] S2048x32
  concatenates_S2048x32_S2048x32_S2048x64_d1 : Shape.Concatenates [S2048x32, S2048x32] S2048x64 1
  slices_S2048x128_o0_64_S2048x64 : S2048x128.Slices ![0, 64] S2048x64
  concatenates_S2048x64_S2048x64_S2048x128_d1 : Shape.Concatenates [S2048x64, S2048x64] S2048x128 1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  h_S512x64 : 0 < S512x64.numel
  shapeCasts_S512x64_S512x64 : S512x64.ShapeCasts S512x64
  slices_S512x128_o0_0_S512x64 : S512x128.Slices ![0, 0] S512x64
  slices_S512x64_o0_0_S512x32 : S512x64.Slices ![0, 0] S512x32
  slices_S512x64_o0_32_S512x32 : S512x64.Slices ![0, 32] S512x32
  concatenates_S512x32_S512x32_S512x64_d1 : Shape.Concatenates [S512x32, S512x32] S512x64 1
  slices_S512x128_o0_64_S512x64 : S512x128.Slices ![0, 64] S512x64
  concatenates_S512x64_S512x64_S512x128_d1 : Shape.Concatenates [S512x64, S512x64] S512x128 1
  reduces_S512x2048_S512 : S512x2048.Reduces [1] S512
  shapeCasts_S512_S512x1 : S512.ShapeCasts S512x1
  broadcasts_S512x1_S512x2048 : S512x1.Broadcasts S512x2048
  shapeCasts_S512x128_S1x512x128 : S512x128.ShapeCasts S1x512x128
  shapeCasts_S4096x2048_S2x2048x2048 : S4096x2048.ShapeCasts S2x2048x2048
  dot_S512x2048_S1024x2048_S512x1024_1_1_0_0_n_n_wf : DotDims.WF S512x2048 S1024x2048 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S6144x2048.size a
  hwx0_1 : ∀ i : grid0.Coords, EltTy.bits .bf16 = 32 ∨ (Rect.block (s := S6144x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x6144.size a
  hwx0_2 : ∀ i : grid0.Coords, EltTy.bits .f32 = 32 ∨ (Rect.block (s := S4096x6144) S512x1024.size (cc0_transform_2 i) (hinb0_2 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x64.size a ≤ S2048x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x6144.size a
  hwx1_0 : ∀ i : grid1.Coords, EltTy.bits .f32 = 32 ∨ (Rect.block (s := S2x2048x6144) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x6144.size a
  hwx1_1 : ∀ i : grid1.Coords, EltTy.bits .f32 = 32 ∨ (Rect.block (s := S2x2048x6144) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x6144.size a
  hwx1_2 : ∀ i : grid1.Coords, EltTy.bits .f32 = 32 ∨ (Rect.block (s := S2x2048x6144) S1x2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S2048x64.size a
  hwx1_3 : ∀ i : grid1.Coords, EltTy.bits .f32 = 32 ∨ (Rect.block (s := S2048x64) S2048x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S2048x64.size a
  hwx1_4 : ∀ i : grid1.Coords, EltTy.bits .f32 = 32 ∨ (Rect.block (s := S2048x64) S2048x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x128.size a ≤ S2x2048x2048.size a
  hwx1_5 : ∀ i : grid1.Coords, EltTy.bits .f32 = 32 ∨ (Rect.block (s := S2x2048x2048) S1x512x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S2048x2048.size a
  hwx2_1 : ∀ i : grid2.Coords, EltTy.bits .bf16 = 32 ∨ (Rect.block (s := S2048x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x2048.size a
  hwx2_2 : ∀ i : grid2.Coords, EltTy.bits .f32 = 32 ∨ (Rect.block (s := S4096x2048) S512x1024.size (cc2_transform_2 i) (hinb2_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v5) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2048x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S2048x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v10) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x2048 : Shape := ⟨3, ![2, 2048, 2048]⟩
abbrev S2048x64 : Shape := ⟨2, ![2048, 64]⟩
abbrev S6144x2048 : Shape := ⟨2, ![6144, 2048]⟩
abbrev S2048x2048 : Shape := ⟨2, ![2048, 2048]⟩
abbrev S2x2048x6144 : Shape := ⟨3, ![2, 2048, 6144]⟩
abbrev S2x2048x32x64 : Shape := ⟨4, ![2, 2048, 32, 64]⟩
abbrev S2x32x2048x64 : Shape := ⟨4, ![2, 32, 2048, 64]⟩
abbrev S2x32x2048x0 : Shape := ⟨4, ![2, 32, 2048, 0]⟩
abbrev S1x1x2048x64 : Shape := ⟨4, ![1, 1, 2048, 64]⟩
abbrev S_ : Shape := ⟨0, ![]⟩
abbrev S2x32x2048x32 : Shape := ⟨4, ![2, 32, 2048, 32]⟩
abbrev S2x32x2048x2048 : Shape := ⟨4, ![2, 32, 2048, 2048]⟩
abbrev S2x32x2048 : Shape := ⟨3, ![2, 32, 2048]⟩
abbrev S2x32x2048x1 : Shape := ⟨4, ![2, 32, 2048, 1]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x64, .f32⟩
  | .hbm, ⟨2, _⟩ => ⟨S6144x2048, .f32⟩
  | .hbm, ⟨3, _⟩ => ⟨S2048x2048, .f32⟩
  | .hbm, ⟨4, _⟩ => ⟨S2x2048x6144, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x32x64, .f32⟩
  | .hbm, ⟨9, _⟩ => ⟨S2x32x2048x64, .f32⟩
  | .hbm, ⟨10, _⟩ => ⟨S2x2048x32x64, .f32⟩
  | .hbm, ⟨11, _⟩ => ⟨S2x32x2048x64, .f32⟩
  | .hbm, ⟨12, _⟩ => ⟨S2x2048x32x64, .f32⟩
  | .hbm, ⟨13, _⟩ => ⟨S2x32x2048x64, .f32⟩
  | .hbm, ⟨14, _⟩ => ⟨S2x32x2048x0, .f32⟩
  | .hbm, ⟨15, _⟩ => ⟨S2048x64, .f32⟩
  | .hbm, ⟨16, _⟩ => ⟨S1x1x2048x64, .f32⟩
  | .hbm, ⟨17, _⟩ => ⟨S2x32x2048x64, .f32⟩
  | .hbm, ⟨18, _⟩ => ⟨S2x32x2048x64, .f32⟩
  | .hbm, ⟨19, _⟩ => ⟨S_, .f32⟩
  | .hbm, ⟨20, _⟩ => ⟨S2x32x2048x64, .f32⟩
  | .hbm, ⟨21, _⟩ => ⟨S2x32x2048x64, .f32⟩
  | .hbm, ⟨22, _⟩ => ⟨S2x32x2048x32, .f32⟩
  | .hbm, ⟨23, _⟩ => ⟨S2x32x2048x32, .f32⟩
  | .hbm, ⟨24, _⟩ => ⟨S2x32x2048x32, .f32⟩
  | .hbm, ⟨25, _⟩ => ⟨S2x32x2048x64, .f32⟩
  | .hbm, ⟨26, _⟩ => ⟨S2048x64, .f32⟩
  | .hbm, ⟨27, _⟩ => ⟨S1x1x2048x64, .f32⟩
  | .hbm, ⟨28, _⟩ => ⟨S2x32x2048x64, .f32⟩
  | .hbm, ⟨29, _⟩ => ⟨S2x32x2048x64, .f32⟩
  | .hbm, ⟨30, _⟩ => ⟨S_, .f32⟩
  | .hbm, ⟨31, _⟩ => ⟨S2x32x2048x64, .f32⟩
  | .hbm, ⟨32, _⟩ => ⟨S2x32x2048x64, .f32⟩
  | .hbm, ⟨33, _⟩ => ⟨S2x32x2048x64, .f32⟩
  | .hbm, ⟨34, _⟩ => ⟨S2x32x2048x64, .f32⟩
  | .hbm, ⟨35, _⟩ => ⟨S2x32x2048x0, .f32⟩
  | .hbm, ⟨36, _⟩ => ⟨S2048x64, .f32⟩
  | .hbm, ⟨37, _⟩ => ⟨S1x1x2048x64, .f32⟩
  | .hbm, ⟨38, _⟩ => ⟨S2x32x2048x64, .f32⟩
  | .hbm, ⟨39, _⟩ => ⟨S2x32x2048x64, .f32⟩
  | .hbm, ⟨40, _⟩ => ⟨S_, .f32⟩
  | .hbm, ⟨41, _⟩ => ⟨S2x32x2048x64, .f32⟩
  | .hbm, ⟨42, _⟩ => ⟨S2x32x2048x64, .f32⟩
  | .hbm, ⟨43, _⟩ => ⟨S2x32x2048x32, .f32⟩
  | .hbm, ⟨44, _⟩ => ⟨S2x32x2048x32, .f32⟩
  | .hbm, ⟨45, _⟩ => ⟨S2x32x2048x32, .f32⟩
  | .hbm, ⟨46, _⟩ => ⟨S2x32x2048x64, .f32⟩
  | .hbm, ⟨47, _⟩ => ⟨S2048x64, .f32⟩
  | .hbm, ⟨48, _⟩ => ⟨S1x1x2048x64, .f32⟩
  | .hbm, ⟨49, _⟩ => ⟨S2x32x2048x64, .f32⟩
  | .hbm, ⟨50, _⟩ => ⟨S2x32x2048x64, .f32⟩
  | .hbm, ⟨51, _⟩ => ⟨S_, .f32⟩
  | .hbm, ⟨52, _⟩ => ⟨S2x32x2048x64, .f32⟩
  | .hbm, ⟨53, _⟩ => ⟨S2x32x2048x64, .f32⟩
  | .hbm, ⟨54, _⟩ => ⟨S2x32x2048x64, .f32⟩
  | .hbm, ⟨55, _⟩ => ⟨S2x32x2048x64, .f32⟩
  | .hbm, ⟨56, _⟩ => ⟨S2x32x2048x2048, .f32⟩
  | .hbm, ⟨57, _⟩ => ⟨S_, .f32⟩
  | .hbm, ⟨58, _⟩ => ⟨S2x32x2048x2048, .f32⟩
  | .hbm, ⟨59, _⟩ => ⟨S2x32x2048x2048, .f32⟩
  | .hbm, ⟨60, _⟩ => ⟨S_, .f32⟩
  | .hbm, ⟨61, _⟩ => ⟨S2x32x2048, .f32⟩
  | .hbm, ⟨62, _⟩ => ⟨S_, .f32⟩
  | .hbm, ⟨63, _⟩ => ⟨S2x32x2048, .f32⟩
  | .hbm, ⟨64, _⟩ => ⟨S2x32x2048, .f32⟩
  | .hbm, ⟨65, _⟩ => ⟨S2x32x2048x1, .f32⟩
  | .hbm, ⟨66, _⟩ => ⟨S2x32x2048x2048, .f32⟩
  | .hbm, ⟨67, _⟩ => ⟨S2x32x2048x2048, .f32⟩
  | .hbm, ⟨68, _⟩ => ⟨S2x32x2048x2048, .f32⟩
  | .hbm, ⟨69, _⟩ => ⟨S_, .f32⟩
  | .hbm, ⟨70, _⟩ => ⟨S2x32x2048, .f32⟩
  | .hbm, ⟨71, _⟩ => ⟨S2x32x2048x1, .f32⟩
  | .hbm, ⟨72, _⟩ => ⟨S2x32x2048x2048, .f32⟩
  | .hbm, ⟨73, _⟩ => ⟨S2x32x2048x2048, .f32⟩
  | .hbm, ⟨74, _⟩ => ⟨S2x32x2048x64, .f32⟩
  | .hbm, ⟨75, _⟩ => ⟨S2x2048x32x64, .f32⟩
  | .hbm, ⟨76, _⟩ => ⟨S2x2048x2048, .f32⟩
  | .hbm, ⟨77, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_2 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_3 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]

class Facts₀ : Prop where
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x32x64 : S2x2048x2048.ShapeCasts S2x2048x32x64
  transposes_S2x2048x32x64_S2x32x2048x64_0_2_1_3 : S2x2048x32x64.Transposes [0, 2, 1, 3] S2x32x2048x64
  slices_S2x32x2048x64_S2x32x2048x0_0_0_0_64 : S2x32x2048x64.Slices ![0, 0, 0, 64] S2x32x2048x0
  bcast_S2048x64_S1x1x2048x64_2_3 : S2048x64.BroadcastsInDim S1x1x2048x64 (![2, 3] : Fin 2 → Fin S1x1x2048x64.rank)
  bcast_S1x1x2048x64_S2x32x2048x64_0_1_2_3 : S1x1x2048x64.BroadcastsInDim S2x32x2048x64 (![0, 1, 2, 3] : Fin 4 → Fin S2x32x2048x64.rank)
  bcast_S_S2x32x2048x64 : S_.BroadcastsInDim S2x32x2048x64 (![] : Fin 0 → Fin S2x32x2048x64.rank)
  slices_S2x32x2048x64_S2x32x2048x32_0_0_0_0 : S2x32x2048x64.Slices ![0, 0, 0, 0] S2x32x2048x32
  slices_S2x32x2048x64_S2x32x2048x32_0_0_0_32 : S2x32x2048x64.Slices ![0, 0, 0, 32] S2x32x2048x32
  concatenates_S2x32x2048x32_S2x32x2048x32_S2x32x2048x64_d3 : Shape.Concatenates [S2x32x2048x32, S2x32x2048x32] S2x32x2048x64 3
  concatenates_S2x32x2048x64_S2x32x2048x0_S2x32x2048x64_d3 : Shape.Concatenates [S2x32x2048x64, S2x32x2048x0] S2x32x2048x64 3
  bcast_S_S2x32x2048x2048 : S_.BroadcastsInDim S2x32x2048x2048 (![] : Fin 0 → Fin S2x32x2048x2048.rank)
  reducesTo_S2x32x2048x2048_S2x32x2048_d3 : S2x32x2048x2048.ReducesTo [3] S2x32x2048
  h_S_ : 0 < S_.numel
  bcast_S_S2x32x2048 : S_.BroadcastsInDim S2x32x2048 (![] : Fin 0 → Fin S2x32x2048.rank)
  bcast_S2x32x2048_S2x32x2048x1_0_1_2 : S2x32x2048.BroadcastsInDim S2x32x2048x1 (![0, 1, 2] : Fin 3 → Fin S2x32x2048x1.rank)
  bcast_S2x32x2048x1_S2x32x2048x2048_0_1_2_3 : S2x32x2048x1.BroadcastsInDim S2x32x2048x2048 (![0, 1, 2, 3] : Fin 4 → Fin S2x32x2048x2048.rank)
  transposes_S2x32x2048x64_S2x2048x32x64_0_2_1_3 : S2x32x2048x64.Transposes [0, 2, 1, 3] S2x2048x32x64
  shapeCasts_S2x2048x32x64_S2x2048x2048 : S2x2048x32x64.ShapeCasts S2x2048x2048
  dot_S2x2048x2048_S6144x2048_S2x2048x6144_2_1_01_0_n_n_wf : DotDims.WF S2x2048x2048 S6144x2048 S2x2048x6144 [2] [1] [0, 1] [0] [] []
  dot_S2x32x2048x64_S2x32x2048x64_S2x32x2048x2048_3_3_2_2_01_01_wf : DotDims.WF S2x32x2048x64 S2x32x2048x64 S2x32x2048x2048 [3] [3] [2] [2] [0, 1] [0, 1]
  dot_S2x32x2048x2048_S2x32x2048x64_S2x32x2048x64_3_2_2_3_01_01_wf : DotDims.WF S2x32x2048x2048 S2x32x2048x64 S2x32x2048x64 [3] [2] [2] [3] [0, 1] [0, 1]
  dot_S2x2048x2048_S2048x2048_S2x2048x2048_2_1_01_0_n_n_wf : DotDims.WF S2x2048x2048 S2048x2048 S2x2048x2048 [2] [1] [0, 1] [0] [] []

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x32x2048x64_S2x32x2048x64_S2x32x2048x2048_3_3_2_2_01_01 : DotDims S2x32x2048x64 S2x32x2048x64 S2x32x2048x2048 where
  lhsContracting := [3]
  rhsContracting := [3]
  lhsNonContracting := [2]
  rhsNonContracting := [2]
  lhsBatch := [0, 1]
  rhsBatch := [0, 1]
  wf := dot_S2x32x2048x64_S2x32x2048x64_S2x32x2048x2048_3_3_2_2_01_01_wf
def dot_S2x32x2048x2048_S2x32x2048x64_S2x32x2048x64_3_2_2_3_01_01 : DotDims S2x32x2048x2048 S2x32x2048x64 S2x32x2048x64 where
  lhsContracting := [3]
  rhsContracting := [2]
  lhsNonContracting := [2]
  rhsNonContracting := [3]
  lhsBatch := [0, 1]
  rhsBatch := [0, 1]
  wf := dot_S2x32x2048x2048_S2x32x2048x64_S2x32x2048x64_3_2_2_3_01_01_wf
def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf

class Facts : Prop extends Facts₀ where

variable [Facts]
-- ==== Proof.KRegion0.lean ====
/- The region of custom_call 0 (a tiled matrix product): what each staging buffer holds around the kernel
   body at every grid point, the body's Hoare triple, and the per-point body obligation, all
   stated for an arbitrary float instance and at arbitrary region-entry contents of the core's buffers. -/
import proofs.«150253_j62079457296484_2_alg».proof.Proof.Gen.Kernel.Launch
import proofs.«150253_j62079457296484_2_alg».proof.Proof.Gen.Kernel.Skeleton
import proofs.«150253_j62079457296484_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of the TensorCore's buffers when the region is entered. -/
variable (V : (c : Dev nD) → (b : Ref sig .tc) → Buf (Elt F) ((c : Thread nD τ).loc b))

/-! ## Blocks of the windows' arrays -/

/-- The block of window `w`'s array that grid point `t` addresses, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left operand's row block). Whether or not the point fetches it, its current staging
    buffer holds the block the point addresses: a fetch puts the block there, and without a fetch the block index
    is the previous point's, whose body left the block untouched. Holds for any proof data reading the entry
    contents whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right operand's row block), fetched only when its block index changes, i.e. at the points
    divisible by 8: the same statement by the same argument — between two fetches the index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer whole -/

abbrev r0_a : Rect S512x2048 := Rect.unit (s := S512x2048) ![0, 0] S512x2048.size inb_S512x2048_S512x2048_0_0
abbrev r0_b : Rect S1024x2048 := Rect.unit (s := S1024x2048) ![0, 0] S1024x2048.size inb_S1024x2048_S1024x2048_0_0
abbrev r0_o : Rect S512x1024 := Rect.unit (s := S512x1024) ![0, 0] S512x1024.size inb_S512x1024_S512x1024_0_0

/-! ## The output buffer after the body -/

/-- What the output window's staging buffer holds after the body, as a function of the two input blocks: the
    body's one store, of the product of the two loaded blocks, over the whole buffer. -/
def out0_2 (x0 : Vec F S512x2048 .bf16) (x1 : Vec F S1024x2048 .bf16) : Vec F S512x1024 .f32 :=
  View.canon [⟨r0_o, k0_pay1 (View.ld x0 r0_a) (View.ld x1 r0_b)⟩]

/-- The single store covers every index of the buffer: its rectangle is the buffer. -/
theorem cover0_2 (p0 : Vec F S512x1024 .f32) (y : S512x1024.Idx) :
    ∃ pc ∈ ([⟨r0_o, p0⟩] : List (View.Piece (Elt F) S512x1024 .f32)), y ∈ pc.1.set :=
  View.cover_of_tiled [⟨r0_o, p0⟩] S512x1024.size (by rfl) y

/-! ## The body's triple -/

set_option maxHeartbeats 1000000 in
/-- The kernel body run on three whole staging memrefs — the inputs holding `x0`, `x1`, the output holding
    anything — reaches its continuation with the inputs unchanged and the output at `out0_2 x0 x1`. The body
    reads both inputs, reads the output buffer (a value it never uses) and overwrites it whole. -/
theorem sound_kernel0 (c : Dev nD) (E : Set ℕ) (i : grid0.Coords)
    (arg2 : Memref sig .tc .vmem S512x2048 .bf16) (harg2 : arg2.IsWhole)
    (arg3 : Memref sig .tc .vmem S1024x2048 .bf16) (harg3 : arg3.IsWhole)
    (arg4 : Memref sig .tc .vmem S512x1024 .f32) (harg4 : arg4.IsWhole)
    (x0 : Vec F S512x2048 .bf16) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- Per core: the arrays as the region finds them; after the body at point `t` each input buffer holds its
    block and the output buffer the product of the two blocks; the invariant is the class's (everything the body
    does not name, untouched); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Both inputs' current staging buffers hold their blocks at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the output's holds something, so the triple
    applies; the invariant and the core's dues are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/- The region of custom_call 1 (fused rotary attention over one batch entry and one pair of heads per
   group of four grid points): the kernel body's Hoare triples — one for the first point of a group, which
   rotates the keys into the scratch buffer, one for the later points, which read them back —, the contents
   of every staging buffer around the body at every grid point, and the body obligation of the pipeline
   library; for an arbitrary float instance and arbitrary region-entry contents of the core's buffers. -/
import proofs.«150253_j62079457296484_2_alg».proof.Proof.Gen.Kernel.Launch
import proofs.«150253_j62079457296484_2_alg».proof.Proof.Gen.Kernel.Skeleton
import proofs.«150253_j62079457296484_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch -/

/-- The body's one branch is taken when the innermost grid coordinate (the query tile's number) is zero. -/
abbrev cond1 (i : grid1.Coords) : Prop := (Scalar.cmpi .ne (Scalar.extui (Scalar.cmpi .eq (BitVec.ofNat 32 (i 2).val) 0#32)) 0#32) = 1#1

/-- That is at the points divisible by four: the first point of each group. -/
theorem hcond1 : ∀ t : Fin cfg1.N, cond1 (grid1.coords t) ↔ t.val % 4 = 0 :=
  (by decide +kernel : ∀ t : Fin grid1.N, cond1 (grid1.coords t) ↔ t.val % 4 = 0)

/-- The whole-buffer rectangles the body loads and stores through. -/
abbrev rQ : Rect S1x512x128 := Rect.unit (s := S1x512x128) ![0, 0, 0] S1x512x128.size inb_S1x512x128_S1x512x128_0_0_0
abbrev rK : Rect S1x2048x128 := Rect.unit (s := S1x2048x128) ![0, 0, 0] S1x2048x128.size inb_S1x2048x128_S1x2048x128_0_0_0
abbrev rT : Rect S2048x64 := Rect.unit (s := S2048x64) ![0, 0] S2048x64.size inb_S2048x64_S2048x64_0_0
abbrev rS : Rect S2048x128 := Rect.unit (s := S2048x128) ![0, 0] S2048x128.size inb_S2048x128_S2048x128_0_0
/-- The 512 rows of the cos / sin tables that belong to the query tile of the point. -/
abbrev rC (i : grid1.Coords) : Rect S2048x64 := Rect.unit (s := S2048x64) (k1_off1 i) S512x64.size (k1_off1_inb i)

/-- The rotated keys of a head pair, as the body stores them into its scratch buffer. -/
def kRope (x1 : Vec F S1x2048x128 .f32) (x3 x4 : Vec F S2048x64 .f32) : Vec F S2048x128 .bf16 :=
  View.canon [⟨rS, k1_pay2 (View.ld x1 rK) (View.ld x3 rT) (View.ld x4 rT)⟩]

/-- The attention output tile of a point, from the query tile, the scratch's rotated keys, the values and the tables. -/
def attnOut (i : grid1.Coords) (x0 : Vec F S1x512x128 .f32) (x2 : Vec F S1x2048x128 .f32) (x3 x4 : Vec F S2048x64 .f32) (s : Vec F S2048x128 .bf16) : Vec F S1x512x128 .f32 :=
  View.canon [⟨rQ, k1_pay1 (k1_pay4 (View.ld x0 rQ) (View.ld x3 (rC i)) (View.ld x4 (rC i))) (k1_pay5 (View.ld x0 rQ) (View.ld x3 (rC i)) (View.ld x4 (rC i)))
    (k1_pay6 (View.ld s rS)) (k1_pay7 (View.ld s rS)) (k1_pay8 (View.ld x2 rK))⟩]

/-- One whole-buffer store covers the buffer. -/
theorem coverQ (p0 : Vec F S1x512x128 .f32) (y : S1x512x128.Idx) :
    ∃ pc ∈ ([⟨rQ, p0⟩] : List (View.Piece (Elt F) S1x512x128 .f32)), y ∈ pc.1.set :=
  View.cover_of_tiled [⟨rQ, p0⟩] S1x512x128.size (by rfl) y
theorem coverS (p0 : Vec F S2048x128 .bf16) (y : S2048x128.Idx) :
    ∃ pc ∈ ([⟨rS, p0⟩] : List (View.Piece (Elt F) S2048x128 .bf16)), y ∈ pc.1.set :=
  View.cover_of_tiled [⟨rS, p0⟩] S2048x128.size (by rfl) y

/-! ## The body's triples -/

set_option maxHeartbeats 2000000 in
/-- At a point that is not the first of its group the body, run on whole memrefs — the five inputs at
    `x0 … x4`, the output at anything, the scratch at `xs` —, leaves the inputs and the scratch as they were
    and the output at `attnOut` of them. -/
theorem sound_attn_later (c : Dev nD) (E : Set ℕ) (i : grid1.Coords)
    (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S1x512x128 .f32) (harg8 : arg8.IsWhole) (arg9 : Memref sig .tc .vmem S2048x128 .bf16) (harg9 : arg9.IsWhole)
    (hc : ¬ cond1 i)
    (x0 : Vec F S1x512x128 .f32) (x1 : Vec F S1x2048x128 .f32) (x2 : Vec F S1x2048x128 .f32) (x3 : Vec F S2048x64 .f32) (x4 : Vec F S2048x64 .f32) (xs : Vec F S2048x128 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (attnOut i x0 x2 x3 x4 xs) ∗ owns (c : Thread nD τ) arg9 fullShare xs) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hfs
  sl_exec (disch := exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    refine (View.read_writes_eq_canon _ _ _ (coverQ _)).trans ?_
    unfold attnOut
    simp only [View.readAt_eq_ld, harg3.read_unread, harg5.read_unread, harg6.read_unread, harg7.read_unread, harg9.read_unread]
  iexists _; isplitr; · ipureintro; exact harg9.read_unread _
  iexact HS

set_option maxHeartbeats 2000000 in
/-- At the first point of a group the body first stores the rotated keys `kRope x1 x3 x4` into the scratch,
    whatever it held, and then proceeds as at the later points with the scratch at that value. -/
theorem sound_attn_first (c : Dev nD) (E : Set ℕ) (i : grid1.Coords)
    (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S1x512x128 .f32) (harg8 : arg8.IsWhole) (arg9 : Memref sig .tc .vmem S2048x128 .bf16) (harg9 : arg9.IsWhole)
    (hc : cond1 i)
    (x0 : Vec F S1x512x128 .f32) (x1 : Vec F S1x2048x128 .f32) (x2 : Vec F S1x2048x128 .f32) (x3 : Vec F S2048x64 .f32) (x4 : Vec F S2048x64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (attnOut i x0 x2 x3 x4 (kRope x1 x3 x4)) ∗ owns (c : Thread nD τ) arg9 fullShare (kRope x1 x3 x4)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg3.eq_unread hf0; obtain rfl := harg4.eq_unread hf1; obtain rfl := harg5.eq_unread hf2
  obtain rfl := harg6.eq_unread hf3; obtain rfl := harg7.eq_unread hf4
  sl_exec (disch := exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    refine (View.read_writes_eq_canon _ _ _ (coverQ _)).trans ?_
    unfold attnOut kRope
    simp only [View.readAt_eq_ld, harg3.read_unread, harg4.read_unread, harg5.read_unread, harg6.read_unread, harg7.read_unread,
      View.readCov_eq_canon_ld _ _ _ (coverS _)]
  iexists _; isplitr
  swap; · iexact HS
  ipureintro
  sl_unfold_run_names
  refine (View.read_writes_eq_canon _ _ _ (coverS _)).trans ?_
  unfold kRope
  simp only [View.readAt_eq_ld, harg4.read_unread, harg6.read_unread, harg7.read_unread]

/-! ## The scoped buffers the body does not stage, with the scratch apart -/

/-- The scratch buffer of the kernel, as the memref the body is called with. -/
abbrev scM : Memref sig .tc .vmem S2048x128 .bf16 := Memref.whole cc1_scratch0

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The other pallas_calls' staging buffers, each at some contents: what the region never touches. -/
def restNoScr (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc2_stg0_0 ∗ anyAt (F := F) c cc2_stg0_1 ∗ anyAt (F := F) c cc2_stg1_0 ∗ anyAt (F := F) c cc2_stg1_1 ∗ anyAt (F := F) c cc2_stg2_0 ∗ anyAt (F := F) c cc2_stg2_1)

/-- The class invariant with the scratch at `S` pulled to the front. -/
theorem scoped_to (c : Dev nD) (S : sProp 𝕄) :
    iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ S ∗ anyAt (F := F) c cc2_stg0_0 ∗ anyAt (F := F) c cc2_stg0_1 ∗ anyAt (F := F) c cc2_stg1_0 ∗ anyAt (F := F) c cc2_stg1_1 ∗ anyAt (F := F) c cc2_stg2_0 ∗ anyAt (F := F) c cc2_stg2_1) ⊢ iprop(S ∗ restNoScr (F := F) c) := by
  unfold restNoScr
  iintro ⟨H0, H1, H2, H3, H4, H5, HS, H7, H8, H9, H10, H11, H12⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  iexact H12

theorem scoped_from (c : Dev nD) (S : sProp 𝕄) :
    iprop(S ∗ restNoScr (F := F) c) ⊢ iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ S ∗ anyAt (F := F) c cc2_stg0_0 ∗ anyAt (F := F) c cc2_stg0_1 ∗ anyAt (F := F) c cc2_stg1_0 ∗ anyAt (F := F) c cc2_stg1_1 ∗ anyAt (F := F) c cc2_stg2_0 ∗ anyAt (F := F) c cc2_stg2_1) := by
  unfold restNoScr
  iintro ⟨HS, H0, H1, H2, H3, H4, H5, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [H7]; · iexact H7
  isplitl [H8]; · iexact H8
  isplitl [H9]; · iexact H9
  isplitl [H10]; · iexact H10
  isplitl [H11]; · iexact H11
  iexact H12

/-- The class invariant is: the scratch at some contents, the other scoped buffers, the generator register. -/
theorem PhiA1_to (c : Dev nD) :
    (Pipeline.ΦA spec1 c : sProp 𝕄) ⊢ iprop(((∃ d, owns (c : Thread nD τ) scM fullShare d) ∗ restNoScr (F := F) c) ∗ ∃ r, prngReg c r) := by
  unfold Pipeline.ΦA; rw [scopedRest1_eq]
  simp only [scM, owns_whole]
  exact sep_mono (scoped_to c _) .rfl

theorem PhiA1_from (c : Dev nD) :
    iprop(((∃ d, owns (c : Thread nD τ) scM fullShare d) ∗ restNoScr (F := F) c) ∗ ∃ r, prngReg c r) ⊢ (Pipeline.ΦA spec1 c : sProp 𝕄) := by
  unfold Pipeline.ΦA; rw [scopedRest1_eq]
  simp only [scM, owns_whole]
  exact sep_mono (scoped_from c _) .rfl

section Region1

/- The contents of the TensorCore's buffers when the region is entered. -/
variable (V : (c : Dev nD) → (b : Ref sig .tc) → Buf (Elt F) ((c : Thread nD τ).loc b))

/-! ## Blocks of the windows' arrays -/

/-- The block of window `w`'s array that grid point `t` addresses, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- Input window 0 (the query tile), fetched at every point: its current staging buffer holds the block the point
    addresses, for any proof data reading the entry contents whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the keys of the head pair), fetched at the first point of each group only: between two fetches
    its block index does not move, so the same holds. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the values of the head pair): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the cosine table), fetched once: its block is the whole table at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the sine table): as window 3. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The scratch between points -/

/-- The first point of group `g` (one batch entry and one head pair: four consecutive points). -/
def grp (g : ℕ) (hg : g < 32) : Fin cfg1.N := ⟨4 * g, by have hN : cfg1.N = 128 := N_1; omega⟩

/-- What the scratch holds during group `g` once its first point has run: the keys of the group's head pair, rotated. -/
def scrG (c : Dev nD) (g : ℕ) (hg : g < 32) : Vec F S2048x128 .bf16 :=
  kRope (iblk1 V c 1 (grp g hg)) (iblk1 V c 3 (grp g hg)) (iblk1 V c 4 (grp g hg))

theorem scrG_congr (c : Dev nD) {g g' : ℕ} (h : g = g') (hg : g < 32) (hg' : g' < 32) : scrG V c g hg = scrG V c g' hg' := by
  subst h; rfl

theorem grp_lt (t : Fin cfg1.N) : t.val / 4 < 32 := by have hN : cfg1.N = 128 := N_1; have := t.isLt; omega

/-- At the first point of a group the group's first point is the point itself. -/
theorem scrG_first (c : Dev nD) (t : Fin cfg1.N) (h0 : t.val % 4 = 0) :
    scrG V c (t.val / 4) (grp_lt t) = kRope (iblk1 V c 1 t) (iblk1 V c 3 t) (iblk1 V c 4 t) := by
  have hg : grp (t.val / 4) (grp_lt t) = t := Fin.ext (by show 4 * (t.val / 4) = t.val; omega)
  unfold scrG; rw [hg]

/-- The region invariant before position `n`: at the start of a group the class's (the scratch at anything); inside a
    group the scratch at the group's rotated keys, beside the other scoped buffers and the generator register. -/
def PhiS (c : Dev nD) (n : ℕ) (hn : n ≤ cfg1.N) : sProp 𝕄 :=
  if h : n % 4 = 0 then Pipeline.ΦA spec1 c
  else iprop((owns (c : Thread nD τ) scM fullShare (scrG V c (n / 4) (by have hN : cfg1.N = 128 := N_1; omega)) ∗ restNoScr (F := F) c) ∗ ∃ r, prngReg c r)

theorem PhiS_zero (c : Dev nD) (n : ℕ) (hn : n ≤ cfg1.N) (h : n % 4 = 0) : PhiS V c n hn = Pipeline.ΦA spec1 c := dif_pos h

theorem PhiS_pos (c : Dev nD) (n : ℕ) (hn : n ≤ cfg1.N) (h : ¬ n % 4 = 0) :
    PhiS V c n hn = iprop((owns (c : Thread nD τ) scM fullShare (scrG V c (n / 4) (by have hN : cfg1.N = 128 := N_1; omega)) ∗ restNoScr (F := F) c) ∗ ∃ r, prngReg c r) := dif_neg h

/-! ## The proof data of the pipeline -/

/-- Per core: the arrays as the region finds them; after the body at point `t` each input buffer holds its block and
    the output buffer the attention tile computed from the point's blocks and the group's rotated keys; the invariant
    `PhiS`; the one array three windows read is held a third by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => attnOut (grid1.coords t) (iblk1 V c 0 t) (iblk1 V c 2 t) (iblk1 V c 3 t) (iblk1 V c 4 t) (scrG V c (t.val / 4) (grp_lt t))
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem Phi_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = attnOut (grid1.coords t) (iblk1 V c 0 t) (iblk1 V c 2 t) (iblk1 V c 3 t) (iblk1 V c 4 t) (scrG V c (t.val / 4) (grp_lt t)) := by
  dsimp only [dat1]

/-- Every input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point. At the first point of a group the invariant hands over the scratch at anything and takes it
    back at the group's rotated keys; at a later point it hands the scratch over at those keys and takes it back
    unchanged — forgetting its contents when the next point starts a new group. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5, Phi_castSucc V c t,
    show (dat1 V c).Φ t.succ = PhiS V c (t.val + 1) t.isLt from rfl]
  by_cases h0 : t.val % 4 = 0
  · have h1 : ¬ (t.val + 1) % 4 = 0 := by omega
    rw [PhiS_zero V c _ _ h0, PhiS_pos V c _ _ h1,
      scrG_congr V c (show (t.val + 1) / 4 = t.val / 4 by omega) _ (grp_lt t), scrG_first V c t h0]
    iintro ⟨HΦ, Ho, ⟨%d0, H0⟩, ⟨%d1, H1⟩, ⟨%d2, H2⟩, ⟨%d3, H3⟩, ⟨%d4, H4⟩, ⟨%d5, H5⟩⟩
    ihave HΦ' := (PhiA1_to (F := F) c) $$ HΦ
    icases HΦ' with ⟨⟨HS, HR⟩, Hg⟩
    iapply (sound_attn_first c Set.univ (grid1.coords t) _ _ _ _ _ _ _ _ _ _ _ _ _ _ ((hcond1 t).mpr h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c _ _ h0]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_attn_later c Set.univ (grid1.coords t) _ _ _ _ _ _ _ _ _ _ _ _ _ _ (fun h => h0 ((hcond1 t).mp h))
      (iblk1 V c 0 t) (iblk1 V c 1 t) (iblk1 V c 2 t) (iblk1 V c 3 t) (iblk1 V c 4 t) (scrG V c (t.val / 4) (grp_lt t)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · by_cases h1 : (t.val + 1) % 4 = 0
      · rw [PhiS_zero V c _ _ h1]
        iapply (PhiA1_from (F := F) c)
        isplitl [HS HR]
        · isplitl [HS]; · iexists _; iexact HS
          iexact HR
        iexact Hg
      · rw [PhiS_pos V c _ _ h1, scrG_congr V c (show (t.val + 1) / 4 = t.val / 4 by omega) _ (grp_lt t)]
        isplitl [HS HR]
        · isplitl [HS]; · iexact HS
          iexact HR
        iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- The class invariant is the region's before its first point, -/
theorem hin1 (c : Dev nD) : Pipeline.ΦA spec1 c ⊢ (dat1 V c).Φ 0 := by
  rw [show (dat1 V c).Φ 0 = PhiS V c 0 (Nat.zero_le _) from rfl, PhiS_zero V c 0 _ rfl]

/-- and after its last point: the grid's size is a multiple of four. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl,
    PhiS_zero V c _ _ (by have hN : cfg1.N = 128 := N_1; omega)]

end Region1

end Cert.Kernel.Hand

end
-- ==== Proof.KRegion2.lean ====
/- The region of custom_call 2 (a tiled matrix product): what each staging buffer holds around the kernel
   body at every grid point, the body's Hoare triple, and the per-point body obligation, all
   stated for an arbitrary float instance and at arbitrary region-entry contents of the core's buffers. -/
import proofs.«150253_j62079457296484_2_alg».proof.Proof.Gen.Kernel.Launch
import proofs.«150253_j62079457296484_2_alg».proof.Proof.Gen.Kernel.Skeleton
import proofs.«150253_j62079457296484_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

/- The contents of the TensorCore's buffers when the region is entered. -/
variable (V : (c : Dev nD) → (b : Ref sig .tc) → Buf (Elt F) ((c : Thread nD τ).loc b))

/-! ## Blocks of the windows' arrays -/

/-- The block of window `w`'s array that grid point `t` addresses, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left operand's row block). Whether or not the point fetches it, its current staging
    buffer holds the block the point addresses: a fetch puts the block there, and without a fetch the block index
    is the previous point's, whose body left the block untouched. Holds for any proof data reading the entry
    contents whose body keeps the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the right operand's row block), fetched only when its block index changes, i.e. at the points
    divisible by 8: the same statement by the same argument — between two fetches the index does not move. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer whole -/

abbrev r2_a : Rect S512x2048 := Rect.unit (s := S512x2048) ![0, 0] S512x2048.size inb_S512x2048_S512x2048_0_0
abbrev r2_b : Rect S1024x2048 := Rect.unit (s := S1024x2048) ![0, 0] S1024x2048.size inb_S1024x2048_S1024x2048_0_0
abbrev r2_o : Rect S512x1024 := Rect.unit (s := S512x1024) ![0, 0] S512x1024.size inb_S512x1024_S512x1024_0_0

/-! ## The output buffer after the body -/

/-- What the output window's staging buffer holds after the body, as a function of the two input blocks: the
    body's one store, of the product of the two loaded blocks, over the whole buffer. -/
def out2_2 (x0 : Vec F S512x2048 .bf16) (x1 : Vec F S1024x2048 .bf16) : Vec F S512x1024 .f32 :=
  View.canon [⟨r2_o, k2_pay1 (View.ld x0 r2_a) (View.ld x1 r2_b)⟩]

/-- The single store covers every index of the buffer: its rectangle is the buffer. -/
theorem cover2_2 (p0 : Vec F S512x1024 .f32) (y : S512x1024.Idx) :
    ∃ pc ∈ ([⟨r2_o, p0⟩] : List (View.Piece (Elt F) S512x1024 .f32)), y ∈ pc.1.set :=
  View.cover_of_tiled [⟨r2_o, p0⟩] S512x1024.size (by rfl) y

/-! ## The body's triple -/

set_option maxHeartbeats 1000000 in
/-- The kernel body run on three whole staging memrefs — the inputs holding `x0`, `x1`, the output holding
    anything — reaches its continuation with the inputs unchanged and the output at `out2_2 x0 x1`. The body
    reads both inputs, reads the output buffer (a value it never uses) and overwrites it whole. -/
theorem sound_kernel2 (c : Dev nD) (E : Set ℕ) (i : grid2.Coords)
    (arg2 : Memref sig .tc .vmem S512x2048 .bf16) (harg2 : arg2.IsWhole)
    (arg3 : Memref sig .tc .vmem S1024x2048 .bf16) (harg3 : arg3.IsWhole)
    (arg4 : Memref sig .tc .vmem S512x1024 .f32) (harg4 : arg4.IsWhole)
    (x0 : Vec F S512x2048 .bf16) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- Per core: the arrays as the region finds them; after the body at point `t` each input buffer holds its
    block and the output buffer the product of the two blocks; the invariant is the class's (everything the body
    does not name, untouched); full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- Both inputs' current staging buffers hold their blocks at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic point -/

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it expects back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, the output's holds something, so the triple
    applies; the invariant and the core's dues are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KAssemble.lean ====
import proofs.«150253_j62079457296484_2_alg».proof.Proof.KRegion0
import proofs.«150253_j62079457296484_2_alg».proof.Proof.KRegion1
import proofs.«150253_j62079457296484_2_alg».proof.Proof.KRegion2
import proofs.«150253_j62079457296484_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: host stretches and the three kernel regions in order

    The contents of the core's unscoped buffers at every boundary between two items of the program are a fold
    from the launch memory: a host stretch applies its operations; a region replaces its output array by what
    its write-backs leave. Every region is entered from the thread state "every unscoped buffer at the boundary's
    contents, the generator register at some state, nothing owed" and left at the same state one boundary on. -/

section Shared

variable (V : (c : Dev nD) → (b : Ref sig .tc) → Buf (Elt F) ((c : Thread nD τ).loc b))

/-- The distinct buffers behind the attention region's six windows: the fused projection (read through three
    windows), the two tables, the output. -/
theorem arrBufs1_eq (c : Dev nD) (T : (b : Ref sig .tc) → Buf (Elt F) ((c : Thread nD τ).loc b)) :
    (Pipeline.arrBufs (Ix := Unit) (Name := ℕ) (U := UR sig nD τ) (Lvl := ℕ) spec1 c T : sProp 𝕄)
      = iprop((((c : Thread nD τ).loc main_v7) ↦{fullShare} T main_v7) ∗ (((c : Thread nD τ).loc main_v0) ↦{fullShare} T main_v0)
          ∗ (((c : Thread nD τ).loc main_v1) ↦{fullShare} T main_v1) ∗ (((c : Thread nD τ).loc main_v8) ↦{fullShare} T main_v8)) := by
  unfold Pipeline.arrBufs
  exact bigSep_eq_bigSepL_of_eq [main_v7, main_v0, main_v1, main_v8] (by decide) (by decide) _

/-- The attention region's arrays, window by window: the fused projection a third to each of its three windows. -/
theorem arrays1_eq (c : Dev nD) (G : (w : Fin cfg1.W) → Buf (Elt F) ((cfg1.win w).arr.view.loc (c : Thread nD τ))) :
    (dat1 V c).arrays G
      = iprop((((c : Thread nD τ).loc main_v7) ↦{fullShare.left} G 0) ∗ (((c : Thread nD τ).loc main_v7) ↦{fullShare.right.left} G 1)
          ∗ (((c : Thread nD τ).loc main_v7) ↦{fullShare.right.right} G 2)
          ∗ (((c : Thread nD τ).loc main_v0) ↦{fullShare} G 3)
          ∗ (((c : Thread nD τ).loc main_v1) ↦{fullShare} G 4) ∗ (((c : Thread nD τ).loc main_v8) ↦{fullShare} G 5)) := by
  unfold Dat.arrays
  rw [bigSep_W1, (arr_whole1 0).set_eq_univ, (arr_whole1 3).set_eq_univ,
    (arr_whole1 4).set_eq_univ, (arr_whole1 5).set_eq_univ]
  rfl

/-- ENTRY of the attention region: the buffers behind its arrays, whole at contents `T`, dealt to the windows —
    the fused projection's full share split in three. -/
theorem arrays1_of_bufs (c : Dev nD) (T : (b : Ref sig .tc) → Buf (Elt F) ((c : Thread nD τ).loc b))
    (G : (w : Fin cfg1.W) → Buf (Elt F) ((cfg1.win w).arr.view.loc (c : Thread nD τ)))
    (h0 : G 0 = T main_v7) (h1 : G 1 = T main_v7) (h2 : G 2 = T main_v7) (h3 : G 3 = T main_v0) (h4 : G 4 = T main_v1) (h5 : G 5 = T main_v8) :
    (Pipeline.arrBufs (Ix := Unit) (Name := ℕ) (U := UR sig nD τ) (Lvl := ℕ) spec1 c T : sProp 𝕄) ⊢ (dat1 V c).arrays G := by
  rw [arrBufs1_eq, arrays1_eq, h0, h1, h2, h3, h4, h5]
  iintro ⟨H7, H0, H1, H8⟩
  ihave H7' := (pointsTo_share (PosShare.mem_left_op_right fullShare)).1 $$ H7
  icases H7' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [H0]; · iexact H0
  isplitl [H1]; · iexact H1
  iexact H8

/-- EXIT of the attention region: the windows' shares of the fused projection, all at the same contents, joined. -/
theorem bufs_of_arrays1 (c : Dev nD) (T : (b : Ref sig .tc) → Buf (Elt F) ((c : Thread nD τ).loc b))
    (G : (w : Fin cfg1.W) → Buf (Elt F) ((cfg1.win w).arr.view.loc (c : Thread nD τ)))
    (h0 : G 0 = T main_v7) (h1 : G 1 = T main_v7) (h2 : G 2 = T main_v7) (h3 : G 3 = T main_v0) (h4 : G 4 = T main_v1) (h5 : G 5 = T main_v8) :
    (dat1 V c).arrays G ⊢ (Pipeline.arrBufs (Ix := Unit) (Name := ℕ) (U := UR sig nD τ) (Lvl := ℕ) spec1 c T : sProp 𝕄) := by
  rw [arrBufs1_eq, arrays1_eq, h0, h1, h2, h3, h4, h5]
  iintro ⟨Hl, Hrl, Hrr, H0, H1, H8⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  isplitl [H0]; · iexact H0
  isplitl [H1]; · iexact H1
  iexact H8

end Shared

section Run

variable (m : (ℓ : Loc nD τ sig) → Buf (Elt F) ℓ) (ρ : Dev nD → PrngReg)

/-! ## The buffers' contents at every boundary -/

/-- At launch. -/
abbrev W0 (c : Dev nD) : Valuation τ sig (Elt F) := fun b => m (c, b)
/-- After the first host stretch (the tables, the casts, the flattening of the activations): region 0's entry. -/
abbrev W1 (c : Dev nD) : Valuation τ sig (Elt F) := StableHlo.after hostOps0 (W0 m c)
abbrev T1 (c : Dev nD) (b : Ref sig .tc) : Buf (Elt F) ((c : Thread nD τ).loc b) := W1 m c b
/-- After region 0: the fused projection's buffer at what the write-backs leave. -/
def W2 (c : Dev nD) : Valuation τ sig (Elt F) :=
  Function.update (W1 m c) main_v6 (((dat0 (T1 m) c).arrAt 2 cfg0.N : Buf (Elt F) ((c : Thread nD τ).loc main_v6)))
abbrev T2 (c : Dev nD) (b : Ref sig .tc) : Buf (Elt F) ((c : Thread nD τ).loc b) := W2 m c b
/-- After the reshape to [batch, position, column]: the attention region's entry. -/
abbrev W3 (c : Dev nD) : Valuation τ sig (Elt F) := StableHlo.after hostOps1 (W2 m c)
abbrev T3 (c : Dev nD) (b : Ref sig .tc) : Buf (Elt F) ((c : Thread nD τ).loc b) := W3 m c b
/-- After the attention region: its output buffer at what the write-backs leave. -/
def W4 (c : Dev nD) : Valuation τ sig (Elt F) :=
  Function.update (W3 m c) main_v8 (((dat1 (T3 m) c).arrAt 5 cfg1.N : Buf (Elt F) ((c : Thread nD τ).loc main_v8)))
abbrev T4 (c : Dev nD) (b : Ref sig .tc) : Buf (Elt F) ((c : Thread nD τ).loc b) := W4 m c b
/-- After the cast and flattening of the attention output: region 2's entry. -/
abbrev W5 (c : Dev nD) : Valuation τ sig (Elt F) := StableHlo.after hostOps2 (W4 m c)
abbrev T5 (c : Dev nD) (b : Ref sig .tc) : Buf (Elt F) ((c : Thread nD τ).loc b) := W5 m c b
/-- After region 2. -/
def W6 (c : Dev nD) : Valuation τ sig (Elt F) :=
  Function.update (W5 m c) main_v11 (((dat2 (T5 m) c).arrAt 2 cfg2.N : Buf (Elt F) ((c : Thread nD τ).loc main_v11)))
abbrev T6 (c : Dev nD) (b : Ref sig .tc) : Buf (Elt F) ((c : Thread nD τ).loc b) := W6 m c b
/-- After the last reshape: the end. -/
abbrev W7 (c : Dev nD) : Valuation τ sig (Elt F) := StableHlo.after hostOps3 (W6 m c)

theorem W2_self (c : Dev nD) : W2 m c main_v6 = (dat0 (T1 m) c).arrAt 2 cfg0.N := by unfold W2; exact Function.update_self ..
theorem W2_ne (c : Dev nD) (b : Ref sig .tc) (h : b ≠ main_v6) : W2 m c b = W1 m c b := by
  unfold W2; exact Function.update_of_ne (StableHlo.devRef_ne_of_ne h) ..
theorem W4_self (c : Dev nD) : W4 m c main_v8 = (dat1 (T3 m) c).arrAt 5 cfg1.N := by unfold W4; exact Function.update_self ..
theorem W4_ne (c : Dev nD) (b : Ref sig .tc) (h : b ≠ main_v8) : W4 m c b = W3 m c b := by
  unfold W4; exact Function.update_of_ne (StableHlo.devRef_ne_of_ne h) ..
theorem W6_self (c : Dev nD) : W6 m c main_v11 = (dat2 (T5 m) c).arrAt 2 cfg2.N := by unfold W6; exact Function.update_self ..
theorem W6_ne (c : Dev nD) (b : Ref sig .tc) (h : b ≠ main_v11) : W6 m c b = W5 m c b := by
  unfold W6; exact Function.update_of_ne (StableHlo.devRef_ne_of_ne h) ..

/-- A buffer that no host operation writes and no region changes holds its launch contents at the end. -/
theorem W7_kept (c : Dev nD) (r : Ref sig .tc) (h0 : r ∉ hostOps0_W) (h1 : r ∉ hostOps1_W) (h2 : r ∉ hostOps2_W) (h3 : r ∉ hostOps3_W)
    (h6 : r ≠ main_v6) (h8 : r ≠ main_v8) (h11 : r ≠ main_v11) : W7 m c r = m ((c : Thread nD τ).loc r) :=
  (StableHlo.after_of_writes_sub hostOps3 _ hostOps3_writes h3).trans <| (W6_ne m c r h11).trans <|
  (StableHlo.after_of_writes_sub hostOps2 _ hostOps2_writes h2).trans <| (W4_ne m c r h8).trans <|
  (StableHlo.after_of_writes_sub hostOps1 _ hostOps1_writes h1).trans <| (W2_ne m c r h6).trans <|
  (StableHlo.after_of_writes_sub hostOps0 _ hostOps0_writes h0).trans rfl

/-! ## Each region's arrays at its exit -/

theorem hF0 (c : Dev nD) (w : Fin cfg0.W) : (dat0 (T1 m) c).arrAt w cfg0.N = T2 m c (Pipeline.arrRef spec0 w) :=
  match w with
  | ⟨0, _⟩ => (((dat0 (T1 m) c).arrAt_in 0 rfl _).trans (A_eq0 (T1 m) c 0)).trans (W2_ne m c main_v5 (by decide)).symm
  | ⟨1, _⟩ => (((dat0 (T1 m) c).arrAt_in 1 rfl _).trans (A_eq0 (T1 m) c 1)).trans (W2_ne m c main_v3 (by decide)).symm
  | ⟨2, _⟩ => (W2_self m c).symm
theorem hrest0 (c : Dev nD) : ∀ b, b ∉ Finset.univ.image (Pipeline.arrRef spec0) → T2 m c b = T1 m c b :=
  fun b hb => W2_ne m c b fun e => hb (Finset.mem_image.mpr ⟨2, Finset.mem_univ _, e.symm⟩)

theorem hF2 (c : Dev nD) (w : Fin cfg2.W) : (dat2 (T5 m) c).arrAt w cfg2.N = T6 m c (Pipeline.arrRef spec2 w) :=
  match w with
  | ⟨0, _⟩ => (((dat2 (T5 m) c).arrAt_in 0 rfl _).trans (A_eq2 (T5 m) c 0)).trans (W6_ne m c main_v10 (by decide)).symm
  | ⟨1, _⟩ => (((dat2 (T5 m) c).arrAt_in 1 rfl _).trans (A_eq2 (T5 m) c 1)).trans (W6_ne m c main_v4 (by decide)).symm
  | ⟨2, _⟩ => (W6_self m c).symm
theorem hrest2 (c : Dev nD) : ∀ b, b ∉ Finset.univ.image (Pipeline.arrRef spec2) → T6 m c b = T5 m c b :=
  fun b hb => W6_ne m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- Region 0 over the thread state: its arrays split out of the unscoped buffers at entry and put back at the
    exit contents; the generator register into the class invariant and out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: its arrays split out of the unscoped buffers at entry and put back at the
    exit contents; the generator register into the class invariant and out; nothing owed; no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run

section Run1

variable (m : (ℓ : Loc nD τ sig) → Buf (Elt F) ℓ) (ρ : Dev nD → PrngReg)

theorem hrest1 (c : Dev nD) : ∀ b, b ∉ Finset.univ.image (Pipeline.arrRef spec1) → T4 m c b = T3 m c b :=
  fun b hb => W4_ne m c b fun e => hb (Finset.mem_image.mpr ⟨5, Finset.mem_univ _, e.symm⟩)

/-- EXIT of the attention region, the arrays' part: the windows' arrays at their final contents and the unscoped rest
    are the core's unscoped buffers at the exit contents — the three input windows' thirds of the fused projection,
    unchanged, joined; the output at what the write-backs leave. -/
theorem hjoin1 (c : Dev nD) :
    iprop((dat1 (T3 m) c).arrays ((dat1 (T3 m) c).arrAt · cfg1.N)
        ∗ Pipeline.unscopedRest (Ix := Unit) (Name := ℕ) (U := UR sig nD τ) (Lvl := ℕ) spec1 c (T3 m c))
      ⊢ (StableHlo.held (c : Thread nD τ) (Pipeline.ucRefs τ sig) (W4 m c) : sProp 𝕄) := by
  have hsplit : (unscopedBufs c (T4 m c) : sProp 𝕄)
      = iprop(Pipeline.arrBufs spec1 c (T4 m c) ∗ Pipeline.unscopedRest spec1 c (T4 m c)) :=
    Pipeline.unscopedBufs_split₀ cfgs 1 winFacts₀1.arr_unscoped c (T4 m c)
  rw [Pipeline.unscopedBufs_held] at hsplit
  have hrestEq : (Pipeline.unscopedRest (Ix := Unit) (Name := ℕ) (U := UR sig nD τ) (Lvl := ℕ) spec1 c (T4 m c) : sProp 𝕄)
      = Pipeline.unscopedRest spec1 c (T3 m c) := by
    unfold Pipeline.unscopedRest
    exact bigSep_congr fun b hb => by rw [hrest1 m c b (Finset.mem_sdiff.mp hb).2]
  rw [hsplit, hrestEq]
  refine sep_mono (bufs_of_arrays1 (T3 m) c (T4 m c) _ ?_ ?_ ?_ ?_ ?_ ?_) .rfl
  · exact (((dat1 (T3 m) c).arrAt_in 0 rfl _).trans (A_eq1 (T3 m) c 0)).trans (W4_ne m c main_v7 (by decide)).symm
  · exact (((dat1 (T3 m) c).arrAt_in 1 rfl _).trans (A_eq1 (T3 m) c 1)).trans (W4_ne m c main_v7 (by decide)).symm
  · exact (((dat1 (T3 m) c).arrAt_in 2 rfl _).trans (A_eq1 (T3 m) c 2)).trans (W4_ne m c main_v7 (by decide)).symm
  · exact (((dat1 (T3 m) c).arrAt_in 3 rfl _).trans (A_eq1 (T3 m) c 3)).trans (W4_ne m c main_v0 (by decide)).symm
  · exact (((dat1 (T3 m) c).arrAt_in 4 rfl _).trans (A_eq1 (T3 m) c 4)).trans (W4_ne m c main_v1 (by decide)).symm
  · exact (W4_self m c).symm

/-- ENTRY of the attention region, the arrays' part. -/
theorem hsplit1 (c : Dev nD) :
    (StableHlo.held (c : Thread nD τ) (Pipeline.ucRefs τ sig) (W3 m c) : sProp 𝕄)
      ⊢ iprop((dat1 (T3 m) c).arrays ((dat1 (T3 m) c).arrAt · 0)
        ∗ Pipeline.unscopedRest (Ix := Unit) (Name := ℕ) (U := UR sig nD τ) (Lvl := ℕ) spec1 c (T3 m c)) := by
  have hsplit : (unscopedBufs c (T3 m c) : sProp 𝕄)
      = iprop(Pipeline.arrBufs spec1 c (T3 m c) ∗ Pipeline.unscopedRest spec1 c (T3 m c)) :=
    Pipeline.unscopedBufs_split₀ cfgs 1 winFacts₀1.arr_unscoped c (T3 m c)
  rw [Pipeline.unscopedBufs_held] at hsplit
  rw [hsplit]
  exact sep_mono (arrays1_of_bufs (T3 m) c (T3 m c) _ (A_eq1 (T3 m) c 0) (A_eq1 (T3 m) c 1) (A_eq1 (T3 m) c 2)
    (A_eq1 (T3 m) c 3) (A_eq1 (T3 m) c 4) (A_eq1 (T3 m) c 5)) .rfl

set_option backward.isDefEq.respectTransparency.types false in
/-- Region 1 (attention) over the thread state. Its windows share an array, so the entry deals that array's share
    among them and the exit joins it; the generator register and the scratch go into the region's invariant and
    come back; nothing owed; no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hs : (StableHlo.held (c : Thread nD τ) (Pipeline.ucRefs τ sig) (W3 m c) : sProp 𝕄)
        ⊢ iprop((pdats m 1 c).arrays ((pdats m 1 c).arrAt · 0)
          ∗ Pipeline.unscopedRest (Ix := Unit) (Name := ℕ) (U := UR sig nD τ) (Lvl := ℕ) spec1 c (T3 m c)) := hsplit1 m c
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (T3 m) c)
    unfold Pipeline.ΦA
    iintro ⟨Hp, -, Hr⟩
    isplitl [Hr]; · iexact Hr
    iexact Hp
  hout c := by
    refine (hout1 (T3 m) c).trans ?_
    rw [Pipeline.ownSems0_none]; unfold Pipeline.ΦA
    iintro ⟨Hr, Hp⟩
    isplitl [Hp]; · iexact Hp
    isplitr; · iempintro
    iexact Hr
  hexit c := by
    have hj : iprop((pdats m 1 c).arrays ((pdats m 1 c).arrAt · cfg1.N)
          ∗ Pipeline.unscopedRest (Ix := Unit) (Name := ℕ) (U := UR sig nD τ) (Lvl := ℕ) spec1 c (T3 m c))
        ⊢ (StableHlo.held (c : Thread nD τ) (Pipeline.ucRefs τ sig) (W4 m c) : sProp 𝕄) := hjoin1 m c
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-! ## The program as segments, and the launch -/

/-- The program's seven items in order: a host segment per stretch from its boundary's contents, a region per kernel. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Run1

end Cert.Kernel.Hand
end
-- ==== Proof.KFrames.lean ====
/- The frame of the kernel program and its run with the result named, read off the run of its segments: every
   unscoped buffer ends at the last boundary's contents, and no host operation or region touches an argument. -/
import proofs.«150253_j62079457296484_2_alg».proof.Proof.KAssemble

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Every weakly fair execution terminates without a fault and leaves the four argument arrays as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c _ (mem_uc main_arg0 (by decide))).trans (W7_kept m c main_arg0 (by decide) (by decide) (by decide) (by decide) (by decide) (by decide) (by decide)),
    (h c _ (mem_uc main_arg1 (by decide))).trans (W7_kept m c main_arg1 (by decide) (by decide) (by decide) (by decide) (by decide) (by decide) (by decide)),
    (h c _ (mem_uc main_arg2 (by decide))).trans (W7_kept m c main_arg2 (by decide) (by decide) (by decide) (by decide) (by decide) (by decide) (by decide)),
    (h c _ (mem_uc main_arg3 (by decide))).trans (W7_kept m c main_arg3 (by decide) (by decide) (by decide) (by decide) (by decide) (by decide) (by decide))⟩) (run_all m ρ)

/-- The same run with the result buffer named: it ends at the last boundary's contents. -/
theorem result_run : θ_run defs (onTc (τ := τ) (main (F := F))) ⟨m, fun _ => 0, ρ⟩ (fun r => ∀ c : Dev nD,
      r.2.mem ((c.tc : Thread nD τ).loc main_v12) = W7 m c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c _ (mem_uc main_v12 (by decide)), (h c _ (mem_uc main_arg0 (by decide))).trans (W7_kept m c main_arg0 (by decide) (by decide) (by decide) (by decide) (by decide) (by decide) (by decide)),
    (h c _ (mem_uc main_arg1 (by decide))).trans (W7_kept m c main_arg1 (by decide) (by decide) (by decide) (by decide) (by decide) (by decide) (by decide)),
    (h c _ (mem_uc main_arg2 (by decide))).trans (W7_kept m c main_arg2 (by decide) (by decide) (by decide) (by decide) (by decide) (by decide) (by decide)),
    (h c _ (mem_uc main_arg3 (by decide))).trans (W7_kept m c main_arg3 (by decide) (by decide) (by decide) (by decide) (by decide) (by decide) (by decide))⟩) (run_all m ρ)

end Cert.Kernel.Hand

end
-- ==== Proof.Region0.lean ====
/- The region of custom_call 0 (a tiled matrix product): what each staging buffer holds around the kernel
   body at every grid point, the body's Hoare triple, and the per-point body obligation, all
   stated for an arbitrary float instance and at arbitrary region-entry contents of the core's buffers. -/
import proofs.«150253_j62079457296484_2_alg».proof.Proof.Gen.KernelIdeal.Launch
import proofs.«150253_j62079457296484_2_alg».proof.Proof.Gen.KernelIdeal.Skeleton
import proofs.«150253_j62079457296484_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of the TensorCore's buffers when the region is entered. -/
variable (V : (c : Dev nD) → (b : Ref sig .tc) → Buf (Elt F) ((c : Thread nD τ).loc b))

/-! ## Blocks of the windows' arrays -/

/-- The block of window `w`'s array that grid point `t` addresses, read off the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the left operand's row block). Whether or not the point fetches it, its current staging
    buffer holds the block the point addresses: a fetch puts the block there, and without a fetch the block index
    is the previous point's, whose body left the block untouched. Holds for any proof data reading the entry
    contents whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the right operand's row block), fetched only when its block index changes, i.e. at the points
    divisible by 8: the same statement by the same argument — between two fetches the index does not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer whole -/

abbrev r0_a : Rect S512x2048 := Rect.unit (s := S512x2048) ![0, 0] S512x2048.size inb_S512x2048_S512x2048_0_0
abbrev r0_b : Rect S1024x2048 := Rect.unit (s := S1024x2048) ![0, 0] S1024x2048.size inb_S1024x2048_S1024x2048_0_0
abbrev r0_o : Rect S512x1024 := Rect.unit (s := S512x1024) ![0, 0] S512x1024.size inb_S512x1024_S512x1024_0_0

/-! ## The output buffer after the body -/

/-- What the output window's staging buffer holds after the body, as a function of the two input blocks: the
    body's one store, of the product of the two loaded blocks, over the whole buffer. -/
def out0_2 (x0 : Vec F S512x2048 .bf16) (x1 : Vec F S1024x2048 .bf16) : Vec F S512x1024 .f32 :=
  View.canon [⟨r0_o, k0_pay1 (View.ld x0 r0_a) (View.ld x1 r0_b)⟩]

/-- The single store covers every index of the buffer: its rectangle is the buffer. -/
theorem cover0_2 (p0 : Vec F S512x1024 .f32) (y : S512x1024.Idx) :
    ∃ pc ∈ ([⟨r0_o, p0⟩] : List (View.Piece (Elt F) S512x1024 .f32)), y ∈ pc.1.set :=
  View.cover_of_tiled [⟨r0_o, p0⟩] S512x1024.size (by rfl) y

/-! ## The body's triple -/

set_option maxHeartbeats 1000000 in
/-- The kernel body run on three whole staging memrefs — the inputs holding `x0`, `x1`, the output holding
    anything — reaches its continuation with the inputs unchanged and the output at `out0_2 x0 x1`. The body
    reads both inputs, reads the output buffer (a value it never uses) and overwrites it whole. -/
theorem sound_kernel0 (c : Dev nD) (E : Set ℕ) (i : grid0.Coords)
    (arg2 : Memref sig .tc .vmem S512x2048 .bf16) (harg2 : arg2.IsWhole)
    (arg3 : Memref sig .tc .vmem S1024x2048 .bf16) (harg3 : arg3.IsWhole)
    (arg4 : Memref sig .tc .vmem S512x1024 .f32) (harg4 : arg4.IsWhole)
    (x0 : Vec F S512x2048 .bf16) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- Per core: the arrays as the region finds them; after the body at point `t` each input buffer holds its
    block and the output buffer the product of the two blocks; the invariant is the class's (everything the body
    does not name, untouched); full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Both inputs' current staging buffers hold their blocks at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, the output's holds something, so the triple
    applies; the invariant and the core's dues are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1.lean ====
/- The region of custom_call 1 (fused rotary attention over one batch entry and one pair of heads per
   group of four grid points): the kernel body's Hoare triples — one for the first point of a group, which
   rotates the keys into the scratch buffer, one for the later points, which read them back —, the contents
   of every staging buffer around the body at every grid point, and the body obligation of the pipeline
   library; for an arbitrary float instance and arbitrary region-entry contents of the core's buffers. -/
import proofs.«150253_j62079457296484_2_alg».proof.Proof.Gen.KernelIdeal.Launch
import proofs.«150253_j62079457296484_2_alg».proof.Proof.Gen.KernelIdeal.Skeleton
import proofs.«150253_j62079457296484_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch -/

/-- The body's one branch is taken when the innermost grid coordinate (the query tile's number) is zero. -/
abbrev cond1 (i : grid1.Coords) : Prop := (Scalar.cmpi .ne (Scalar.extui (Scalar.cmpi .eq (BitVec.ofNat 32 (i 2).val) 0#32)) 0#32) = 1#1

/-- That is at the points divisible by four: the first point of each group. -/
theorem hcond1 : ∀ t : Fin cfg1.N, cond1 (grid1.coords t) ↔ t.val % 4 = 0 :=
  (by decide +kernel : ∀ t : Fin grid1.N, cond1 (grid1.coords t) ↔ t.val % 4 = 0)

/-- The whole-buffer rectangles the body loads and stores through. -/
abbrev rQ : Rect S1x512x128 := Rect.unit (s := S1x512x128) ![0, 0, 0] S1x512x128.size inb_S1x512x128_S1x512x128_0_0_0
abbrev rK : Rect S1x2048x128 := Rect.unit (s := S1x2048x128) ![0, 0, 0] S1x2048x128.size inb_S1x2048x128_S1x2048x128_0_0_0
abbrev rT : Rect S2048x64 := Rect.unit (s := S2048x64) ![0, 0] S2048x64.size inb_S2048x64_S2048x64_0_0
abbrev rS : Rect S2048x128 := Rect.unit (s := S2048x128) ![0, 0] S2048x128.size inb_S2048x128_S2048x128_0_0
/-- The 512 rows of the cos / sin tables that belong to the query tile of the point. -/
abbrev rC (i : grid1.Coords) : Rect S2048x64 := Rect.unit (s := S2048x64) (k1_off1 i) S512x64.size (k1_off1_inb i)

/-- The rotated keys of a head pair, as the body stores them into its scratch buffer. -/
def kRope (x1 : Vec F S1x2048x128 .f32) (x3 x4 : Vec F S2048x64 .f32) : Vec F S2048x128 .bf16 :=
  View.canon [⟨rS, k1_pay2 (View.ld x1 rK) (View.ld x3 rT) (View.ld x4 rT)⟩]

/-- The attention output tile of a point, from the query tile, the scratch's rotated keys, the values and the tables. -/
def attnOut (i : grid1.Coords) (x0 : Vec F S1x512x128 .f32) (x2 : Vec F S1x2048x128 .f32) (x3 x4 : Vec F S2048x64 .f32) (s : Vec F S2048x128 .bf16) : Vec F S1x512x128 .f32 :=
  View.canon [⟨rQ, k1_pay1 (k1_pay4 (View.ld x0 rQ) (View.ld x3 (rC i)) (View.ld x4 (rC i))) (k1_pay5 (View.ld x0 rQ) (View.ld x3 (rC i)) (View.ld x4 (rC i)))
    (k1_pay6 (View.ld s rS)) (k1_pay7 (View.ld s rS)) (k1_pay8 (View.ld x2 rK))⟩]

/-- One whole-buffer store covers the buffer. -/
theorem coverQ (p0 : Vec F S1x512x128 .f32) (y : S1x512x128.Idx) :
    ∃ pc ∈ ([⟨rQ, p0⟩] : List (View.Piece (Elt F) S1x512x128 .f32)), y ∈ pc.1.set :=
  View.cover_of_tiled [⟨rQ, p0⟩] S1x512x128.size (by rfl) y
theorem coverS (p0 : Vec F S2048x128 .bf16) (y : S2048x128.Idx) :
    ∃ pc ∈ ([⟨rS, p0⟩] : List (View.Piece (Elt F) S2048x128 .bf16)), y ∈ pc.1.set :=
  View.cover_of_tiled [⟨rS, p0⟩] S2048x128.size (by rfl) y

/-! ## The body's triples -/

set_option maxHeartbeats 2000000 in
/-- At a point that is not the first of its group the body, run on whole memrefs — the five inputs at
    `x0 … x4`, the output at anything, the scratch at `xs` —, leaves the inputs and the scratch as they were
    and the output at `attnOut` of them. -/
theorem sound_attn_later (c : Dev nD) (E : Set ℕ) (i : grid1.Coords)
    (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S1x512x128 .f32) (harg8 : arg8.IsWhole) (arg9 : Memref sig .tc .vmem S2048x128 .bf16) (harg9 : arg9.IsWhole)
    (hc : ¬ cond1 i)
    (x0 : Vec F S1x512x128 .f32) (x1 : Vec F S1x2048x128 .f32) (x2 : Vec F S1x2048x128 .f32) (x3 : Vec F S2048x64 .f32) (x4 : Vec F S2048x64 .f32) (xs : Vec F S2048x128 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (attnOut i x0 x2 x3 x4 xs) ∗ owns (c : Thread nD τ) arg9 fullShare xs) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg9.eq_unread hfs
  sl_exec (disch := exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    refine (View.read_writes_eq_canon _ _ _ (coverQ _)).trans ?_
    unfold attnOut
    simp only [View.readAt_eq_ld, harg3.read_unread, harg5.read_unread, harg6.read_unread, harg7.read_unread, harg9.read_unread]
  iexists _; isplitr; · ipureintro; exact harg9.read_unread _
  iexact HS

set_option maxHeartbeats 2000000 in
/-- At the first point of a group the body first stores the rotated keys `kRope x1 x3 x4` into the scratch,
    whatever it held, and then proceeds as at the later points with the scratch at that value. -/
theorem sound_attn_first (c : Dev nD) (E : Set ℕ) (i : grid1.Coords)
    (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S1x512x128 .f32) (harg8 : arg8.IsWhole) (arg9 : Memref sig .tc .vmem S2048x128 .bf16) (harg9 : arg9.IsWhole)
    (hc : cond1 i)
    (x0 : Vec F S1x512x128 .f32) (x1 : Vec F S1x2048x128 .f32) (x2 : Vec F S1x2048x128 .f32) (x3 : Vec F S2048x64 .f32) (x4 : Vec F S2048x64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (attnOut i x0 x2 x3 x4 (kRope x1 x3 x4)) ∗ owns (c : Thread nD τ) arg9 fullShare (kRope x1 x3 x4)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
  obtain rfl := harg3.eq_unread hf0; obtain rfl := harg4.eq_unread hf1; obtain rfl := harg5.eq_unread hf2
  obtain rfl := harg6.eq_unread hf3; obtain rfl := harg7.eq_unread hf4
  sl_exec (disch := exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    refine (View.read_writes_eq_canon _ _ _ (coverQ _)).trans ?_
    unfold attnOut kRope
    simp only [View.readAt_eq_ld, harg3.read_unread, harg4.read_unread, harg5.read_unread, harg6.read_unread, harg7.read_unread,
      View.readCov_eq_canon_ld _ _ _ (coverS _)]
  iexists _; isplitr
  swap; · iexact HS
  ipureintro
  sl_unfold_run_names
  refine (View.read_writes_eq_canon _ _ _ (coverS _)).trans ?_
  unfold kRope
  simp only [View.readAt_eq_ld, harg4.read_unread, harg6.read_unread, harg7.read_unread]

/-! ## The scoped buffers the body does not stage, with the scratch apart -/

/-- The scratch buffer of the kernel, as the memref the body is called with. -/
abbrev scM : Memref sig .tc .vmem S2048x128 .bf16 := Memref.whole cc1_scratch0

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The other pallas_calls' staging buffers, each at some contents: what the region never touches. -/
def restNoScr (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc2_stg0_0 ∗ anyAt (F := F) c cc2_stg0_1 ∗ anyAt (F := F) c cc2_stg1_0 ∗ anyAt (F := F) c cc2_stg1_1 ∗ anyAt (F := F) c cc2_stg2_0 ∗ anyAt (F := F) c cc2_stg2_1)

/-- The class invariant with the scratch at `S` pulled to the front. -/
theorem scoped_to (c : Dev nD) (S : sProp 𝕄) :
    iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ S ∗ anyAt (F := F) c cc2_stg0_0 ∗ anyAt (F := F) c cc2_stg0_1 ∗ anyAt (F := F) c cc2_stg1_0 ∗ anyAt (F := F) c cc2_stg1_1 ∗ anyAt (F := F) c cc2_stg2_0 ∗ anyAt (F := F) c cc2_stg2_1) ⊢ iprop(S ∗ restNoScr (F := F) c) := by
  unfold restNoScr
  iintro ⟨H0, H1, H2, H3, H4, H5, HS, H7, H8, H9, H10, H11, H12⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  iexact H12

theorem scoped_from (c : Dev nD) (S : sProp 𝕄) :
    iprop(S ∗ restNoScr (F := F) c) ⊢ iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ S ∗ anyAt (F := F) c cc2_stg0_0 ∗ anyAt (F := F) c cc2_stg0_1 ∗ anyAt (F := F) c cc2_stg1_0 ∗ anyAt (F := F) c cc2_stg1_1 ∗ anyAt (F := F) c cc2_stg2_0 ∗ anyAt (F := F) c cc2_stg2_1) := by
  unfold restNoScr
  iintro ⟨HS, H0, H1, H2, H3, H4, H5, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [H7]; · iexact H7
  isplitl [H8]; · iexact H8
  isplitl [H9]; · iexact H9
  isplitl [H10]; · iexact H10
  isplitl [H11]; · iexact H11
  iexact H12

/-- The class invariant is: the scratch at some contents, the other scoped buffers, the generator register. -/
theorem PhiA1_to (c : Dev nD) :
    (Pipeline.ΦA spec1 c : sProp 𝕄) ⊢ iprop(((∃ d, owns (c : Thread nD τ) scM fullShare d) ∗ restNoScr (F := F) c) ∗ ∃ r, prngReg c r) := by
  unfold Pipeline.ΦA; rw [scopedRest1_eq]
  simp only [scM, owns_whole]
  exact sep_mono (scoped_to c _) .rfl

theorem PhiA1_from (c : Dev nD) :
    iprop(((∃ d, owns (c : Thread nD τ) scM fullShare d) ∗ restNoScr (F := F) c) ∗ ∃ r, prngReg c r) ⊢ (Pipeline.ΦA spec1 c : sProp 𝕄) := by
  unfold Pipeline.ΦA; rw [scopedRest1_eq]
  simp only [scM, owns_whole]
  exact sep_mono (scoped_from c _) .rfl

section Region1

/- The contents of the TensorCore's buffers when the region is entered. -/
variable (V : (c : Dev nD) → (b : Ref sig .tc) → Buf (Elt F) ((c : Thread nD τ).loc b))

/-! ## Blocks of the windows' arrays -/

/-- The block of window `w`'s array that grid point `t` addresses, read off the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- Input window 0 (the query tile), fetched at every point: its current staging buffer holds the block the point
    addresses, for any proof data reading the entry contents whose body keeps the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the keys of the head pair), fetched at the first point of each group only: between two fetches
    its block index does not move, so the same holds. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the values of the head pair): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the cosine table), fetched once: its block is the whole table at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the sine table): as window 3. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The scratch between points -/

/-- The first point of group `g` (one batch entry and one head pair: four consecutive points). -/
def grp (g : ℕ) (hg : g < 32) : Fin cfg1.N := ⟨4 * g, by have hN : cfg1.N = 128 := N_1; omega⟩

/-- What the scratch holds during group `g` once its first point has run: the keys of the group's head pair, rotated. -/
def scrG (c : Dev nD) (g : ℕ) (hg : g < 32) : Vec F S2048x128 .bf16 :=
  kRope (iblk1 V c 1 (grp g hg)) (iblk1 V c 3 (grp g hg)) (iblk1 V c 4 (grp g hg))

theorem scrG_congr (c : Dev nD) {g g' : ℕ} (h : g = g') (hg : g < 32) (hg' : g' < 32) : scrG V c g hg = scrG V c g' hg' := by
  subst h; rfl

theorem grp_lt (t : Fin cfg1.N) : t.val / 4 < 32 := by have hN : cfg1.N = 128 := N_1; have := t.isLt; omega

/-- At the first point of a group the group's first point is the point itself. -/
theorem scrG_first (c : Dev nD) (t : Fin cfg1.N) (h0 : t.val % 4 = 0) :
    scrG V c (t.val / 4) (grp_lt t) = kRope (iblk1 V c 1 t) (iblk1 V c 3 t) (iblk1 V c 4 t) := by
  have hg : grp (t.val / 4) (grp_lt t) = t := Fin.ext (by show 4 * (t.val / 4) = t.val; omega)
  unfold scrG; rw [hg]

/-- The region invariant before position `n`: at the start of a group the class's (the scratch at anything); inside a
    group the scratch at the group's rotated keys, beside the other scoped buffers and the generator register. -/
def PhiS (c : Dev nD) (n : ℕ) (hn : n ≤ cfg1.N) : sProp 𝕄 :=
  if h : n % 4 = 0 then Pipeline.ΦA spec1 c
  else iprop((owns (c : Thread nD τ) scM fullShare (scrG V c (n / 4) (by have hN : cfg1.N = 128 := N_1; omega)) ∗ restNoScr (F := F) c) ∗ ∃ r, prngReg c r)

theorem PhiS_zero (c : Dev nD) (n : ℕ) (hn : n ≤ cfg1.N) (h : n % 4 = 0) : PhiS V c n hn = Pipeline.ΦA spec1 c := dif_pos h

theorem PhiS_pos (c : Dev nD) (n : ℕ) (hn : n ≤ cfg1.N) (h : ¬ n % 4 = 0) :
    PhiS V c n hn = iprop((owns (c : Thread nD τ) scM fullShare (scrG V c (n / 4) (by have hN : cfg1.N = 128 := N_1; omega)) ∗ restNoScr (F := F) c) ∗ ∃ r, prngReg c r) := dif_neg h

/-! ## The proof data of the pipeline -/

/-- Per core: the arrays as the region finds them; after the body at point `t` each input buffer holds its block and
    the output buffer the attention tile computed from the point's blocks and the group's rotated keys; the invariant
    `PhiS`; the one array three windows read is held a third by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => attnOut (grid1.coords t) (iblk1 V c 0 t) (iblk1 V c 2 t) (iblk1 V c 3 t) (iblk1 V c 4 t) (scrG V c (t.val / 4) (grp_lt t))
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem Phi_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = attnOut (grid1.coords t) (iblk1 V c 0 t) (iblk1 V c 2 t) (iblk1 V c 3 t) (iblk1 V c 4 t) (scrG V c (t.val / 4) (grp_lt t)) := by
  dsimp only [dat1]

/-- Every input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point. At the first point of a group the invariant hands over the scratch at anything and takes it
    back at the group's rotated keys; at a later point it hands the scratch over at those keys and takes it back
    unchanged — forgetting its contents when the next point starts a new group. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5, Phi_castSucc V c t,
    show (dat1 V c).Φ t.succ = PhiS V c (t.val + 1) t.isLt from rfl]
  by_cases h0 : t.val % 4 = 0
  · have h1 : ¬ (t.val + 1) % 4 = 0 := by omega
    rw [PhiS_zero V c _ _ h0, PhiS_pos V c _ _ h1,
      scrG_congr V c (show (t.val + 1) / 4 = t.val / 4 by omega) _ (grp_lt t), scrG_first V c t h0]
    iintro ⟨HΦ, Ho, ⟨%d0, H0⟩, ⟨%d1, H1⟩, ⟨%d2, H2⟩, ⟨%d3, H3⟩, ⟨%d4, H4⟩, ⟨%d5, H5⟩⟩
    ihave HΦ' := (PhiA1_to (F := F) c) $$ HΦ
    icases HΦ' with ⟨⟨HS, HR⟩, Hg⟩
    iapply (sound_attn_first c Set.univ (grid1.coords t) _ _ _ _ _ _ _ _ _ _ _ _ _ _ ((hcond1 t).mpr h0)
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c _ _ h0]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_attn_later c Set.univ (grid1.coords t) _ _ _ _ _ _ _ _ _ _ _ _ _ _ (fun h => h0 ((hcond1 t).mp h))
      (iblk1 V c 0 t) (iblk1 V c 1 t) (iblk1 V c 2 t) (iblk1 V c 3 t) (iblk1 V c 4 t) (scrG V c (t.val / 4) (grp_lt t)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · by_cases h1 : (t.val + 1) % 4 = 0
      · rw [PhiS_zero V c _ _ h1]
        iapply (PhiA1_from (F := F) c)
        isplitl [HS HR]
        · isplitl [HS]; · iexists _; iexact HS
          iexact HR
        iexact Hg
      · rw [PhiS_pos V c _ _ h1, scrG_congr V c (show (t.val + 1) / 4 = t.val / 4 by omega) _ (grp_lt t)]
        isplitl [HS HR]
        · isplitl [HS]; · iexact HS
          iexact HR
        iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- The class invariant is the region's before its first point, -/
theorem hin1 (c : Dev nD) : Pipeline.ΦA spec1 c ⊢ (dat1 V c).Φ 0 := by
  rw [show (dat1 V c).Φ 0 = PhiS V c 0 (Nat.zero_le _) from rfl, PhiS_zero V c 0 _ rfl]

/-- and after its last point: the grid's size is a multiple of four. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl,
    PhiS_zero V c _ _ (by have hN : cfg1.N = 128 := N_1; omega)]

end Region1

end Cert.KernelIdeal.Hand

end
-- ==== Proof.Region2.lean ====
/- The region of custom_call 2 (a tiled matrix product): what each staging buffer holds around the kernel
   body at every grid point, the body's Hoare triple, and the per-point body obligation, all
   stated for an arbitrary float instance and at arbitrary region-entry contents of the core's buffers. -/
import proofs.«150253_j62079457296484_2_alg».proof.Proof.Gen.KernelIdeal.Launch
import proofs.«150253_j62079457296484_2_alg».proof.Proof.Gen.KernelIdeal.Skeleton
import proofs.«150253_j62079457296484_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

/- The contents of the TensorCore's buffers when the region is entered. -/
variable (V : (c : Dev nD) → (b : Ref sig .tc) → Buf (Elt F) ((c : Thread nD τ).loc b))

/-! ## Blocks of the windows' arrays -/

/-- The block of window `w`'s array that grid point `t` addresses, read off the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the left operand's row block). Whether or not the point fetches it, its current staging
    buffer holds the block the point addresses: a fetch puts the block there, and without a fetch the block index
    is the previous point's, whose body left the block untouched. Holds for any proof data reading the entry
    contents whose body keeps the block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the right operand's row block), fetched only when its block index changes, i.e. at the points
    divisible by 8: the same statement by the same argument — between two fetches the index does not move. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer whole -/

abbrev r2_a : Rect S512x2048 := Rect.unit (s := S512x2048) ![0, 0] S512x2048.size inb_S512x2048_S512x2048_0_0
abbrev r2_b : Rect S1024x2048 := Rect.unit (s := S1024x2048) ![0, 0] S1024x2048.size inb_S1024x2048_S1024x2048_0_0
abbrev r2_o : Rect S512x1024 := Rect.unit (s := S512x1024) ![0, 0] S512x1024.size inb_S512x1024_S512x1024_0_0

/-! ## The output buffer after the body -/

/-- What the output window's staging buffer holds after the body, as a function of the two input blocks: the
    body's one store, of the product of the two loaded blocks, over the whole buffer. -/
def out2_2 (x0 : Vec F S512x2048 .bf16) (x1 : Vec F S1024x2048 .bf16) : Vec F S512x1024 .f32 :=
  View.canon [⟨r2_o, k2_pay1 (View.ld x0 r2_a) (View.ld x1 r2_b)⟩]

/-- The single store covers every index of the buffer: its rectangle is the buffer. -/
theorem cover2_2 (p0 : Vec F S512x1024 .f32) (y : S512x1024.Idx) :
    ∃ pc ∈ ([⟨r2_o, p0⟩] : List (View.Piece (Elt F) S512x1024 .f32)), y ∈ pc.1.set :=
  View.cover_of_tiled [⟨r2_o, p0⟩] S512x1024.size (by rfl) y

/-! ## The body's triple -/

set_option maxHeartbeats 1000000 in
/-- The kernel body run on three whole staging memrefs — the inputs holding `x0`, `x1`, the output holding
    anything — reaches its continuation with the inputs unchanged and the output at `out2_2 x0 x1`. The body
    reads both inputs, reads the output buffer (a value it never uses) and overwrites it whole. -/
theorem sound_kernel2 (c : Dev nD) (E : Set ℕ) (i : grid2.Coords)
    (arg2 : Memref sig .tc .vmem S512x2048 .bf16) (harg2 : arg2.IsWhole)
    (arg3 : Memref sig .tc .vmem S1024x2048 .bf16) (harg3 : arg3.IsWhole)
    (arg4 : Memref sig .tc .vmem S512x1024 .f32) (harg4 : arg4.IsWhole)
    (x0 : Vec F S512x2048 .bf16) (x1 : Vec F S1024x2048 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- Per core: the arrays as the region finds them; after the body at point `t` each input buffer holds its
    block and the output buffer the product of the two blocks; the invariant is the class's (everything the body
    does not name, untouched); full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- Both inputs' current staging buffers hold their blocks at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic point -/

/-- What the pipeline hands the body at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it expects back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, the output's holds something, so the triple
    applies; the invariant and the core's dues are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every grid point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Assemble.lean ====
import proofs.«150253_j62079457296484_2_alg».proof.Proof.Region0
import proofs.«150253_j62079457296484_2_alg».proof.Proof.Region1
import proofs.«150253_j62079457296484_2_alg».proof.Proof.Region2
import proofs.«150253_j62079457296484_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: host stretches and the three kernel regions in order

    The contents of the core's unscoped buffers at every boundary between two items of the program are a fold
    from the launch memory: a host stretch applies its operations; a region replaces its output array by what
    its write-backs leave. Every region is entered from the thread state "every unscoped buffer at the boundary's
    contents, the generator register at some state, nothing owed" and left at the same state one boundary on. -/

section Shared

variable (V : (c : Dev nD) → (b : Ref sig .tc) → Buf (Elt F) ((c : Thread nD τ).loc b))

/-- The distinct buffers behind the attention region's six windows: the fused projection (read through three
    windows), the two tables, the output. -/
theorem arrBufs1_eq (c : Dev nD) (T : (b : Ref sig .tc) → Buf (Elt F) ((c : Thread nD τ).loc b)) :
    (Pipeline.arrBufs (Ix := Unit) (Name := ℕ) (U := UR sig nD τ) (Lvl := ℕ) spec1 c T : sProp 𝕄)
      = iprop((((c : Thread nD τ).loc main_v7) ↦{fullShare} T main_v7) ∗ (((c : Thread nD τ).loc main_v0) ↦{fullShare} T main_v0)
          ∗ (((c : Thread nD τ).loc main_v1) ↦{fullShare} T main_v1) ∗ (((c : Thread nD τ).loc main_v8) ↦{fullShare} T main_v8)) := by
  unfold Pipeline.arrBufs
  exact bigSep_eq_bigSepL_of_eq [main_v7, main_v0, main_v1, main_v8] (by decide) (by decide) _

/-- The attention region's arrays, window by window: the fused projection a third to each of its three windows. -/
theorem arrays1_eq (c : Dev nD) (G : (w : Fin cfg1.W) → Buf (Elt F) ((cfg1.win w).arr.view.loc (c : Thread nD τ))) :
    (dat1 V c).arrays G
      = iprop((((c : Thread nD τ).loc main_v7) ↦{fullShare.left} G 0) ∗ (((c : Thread nD τ).loc main_v7) ↦{fullShare.right.left} G 1)
          ∗ (((c : Thread nD τ).loc main_v7) ↦{fullShare.right.right} G 2)
          ∗ (((c : Thread nD τ).loc main_v0) ↦{fullShare} G 3)
          ∗ (((c : Thread nD τ).loc main_v1) ↦{fullShare} G 4) ∗ (((c : Thread nD τ).loc main_v8) ↦{fullShare} G 5)) := by
  unfold Dat.arrays
  rw [bigSep_W1, (arr_whole1 0).set_eq_univ, (arr_whole1 3).set_eq_univ,
    (arr_whole1 4).set_eq_univ, (arr_whole1 5).set_eq_univ]
  rfl

/-- ENTRY of the attention region: the buffers behind its arrays, whole at contents `T`, dealt to the windows —
    the fused projection's full share split in three. -/
theorem arrays1_of_bufs (c : Dev nD) (T : (b : Ref sig .tc) → Buf (Elt F) ((c : Thread nD τ).loc b))
    (G : (w : Fin cfg1.W) → Buf (Elt F) ((cfg1.win w).arr.view.loc (c : Thread nD τ)))
    (h0 : G 0 = T main_v7) (h1 : G 1 = T main_v7) (h2 : G 2 = T main_v7) (h3 : G 3 = T main_v0) (h4 : G 4 = T main_v1) (h5 : G 5 = T main_v8) :
    (Pipeline.arrBufs (Ix := Unit) (Name := ℕ) (U := UR sig nD τ) (Lvl := ℕ) spec1 c T : sProp 𝕄) ⊢ (dat1 V c).arrays G := by
  rw [arrBufs1_eq, arrays1_eq, h0, h1, h2, h3, h4, h5]
  iintro ⟨H7, H0, H1, H8⟩
  ihave H7' := (pointsTo_share (PosShare.mem_left_op_right fullShare)).1 $$ H7
  icases H7' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [H0]; · iexact H0
  isplitl [H1]; · iexact H1
  iexact H8

/-- EXIT of the attention region: the windows' shares of the fused projection, all at the same contents, joined. -/
theorem bufs_of_arrays1 (c : Dev nD) (T : (b : Ref sig .tc) → Buf (Elt F) ((c : Thread nD τ).loc b))
    (G : (w : Fin cfg1.W) → Buf (Elt F) ((cfg1.win w).arr.view.loc (c : Thread nD τ)))
    (h0 : G 0 = T main_v7) (h1 : G 1 = T main_v7) (h2 : G 2 = T main_v7) (h3 : G 3 = T main_v0) (h4 : G 4 = T main_v1) (h5 : G 5 = T main_v8) :
    (dat1 V c).arrays G ⊢ (Pipeline.arrBufs (Ix := Unit) (Name := ℕ) (U := UR sig nD τ) (Lvl := ℕ) spec1 c T : sProp 𝕄) := by
  rw [arrBufs1_eq, arrays1_eq, h0, h1, h2, h3, h4, h5]
  iintro ⟨Hl, Hrl, Hrr, H0, H1, H8⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  isplitl [H0]; · iexact H0
  isplitl [H1]; · iexact H1
  iexact H8

end Shared

section Run

variable (m : (ℓ : Loc nD τ sig) → Buf (Elt F) ℓ) (ρ : Dev nD → PrngReg)

/-! ## The buffers' contents at every boundary -/

/-- At launch. -/
abbrev W0 (c : Dev nD) : Valuation τ sig (Elt F) := fun b => m (c, b)
/-- After the first host stretch (the tables, the casts, the flattening of the activations): region 0's entry. -/
abbrev W1 (c : Dev nD) : Valuation τ sig (Elt F) := StableHlo.after hostOps0 (W0 m c)
abbrev T1 (c : Dev nD) (b : Ref sig .tc) : Buf (Elt F) ((c : Thread nD τ).loc b) := W1 m c b
/-- After region 0: the fused projection's buffer at what the write-backs leave. -/
def W2 (c : Dev nD) : Valuation τ sig (Elt F) :=
  Function.update (W1 m c) main_v6 (((dat0 (T1 m) c).arrAt 2 cfg0.N : Buf (Elt F) ((c : Thread nD τ).loc main_v6)))
abbrev T2 (c : Dev nD) (b : Ref sig .tc) : Buf (Elt F) ((c : Thread nD τ).loc b) := W2 m c b
/-- After the reshape to [batch, position, column]: the attention region's entry. -/
abbrev W3 (c : Dev nD) : Valuation τ sig (Elt F) := StableHlo.after hostOps1 (W2 m c)
abbrev T3 (c : Dev nD) (b : Ref sig .tc) : Buf (Elt F) ((c : Thread nD τ).loc b) := W3 m c b
/-- After the attention region: its output buffer at what the write-backs leave. -/
def W4 (c : Dev nD) : Valuation τ sig (Elt F) :=
  Function.update (W3 m c) main_v8 (((dat1 (T3 m) c).arrAt 5 cfg1.N : Buf (Elt F) ((c : Thread nD τ).loc main_v8)))
abbrev T4 (c : Dev nD) (b : Ref sig .tc) : Buf (Elt F) ((c : Thread nD τ).loc b) := W4 m c b
/-- After the cast and flattening of the attention output: region 2's entry. -/
abbrev W5 (c : Dev nD) : Valuation τ sig (Elt F) := StableHlo.after hostOps2 (W4 m c)
abbrev T5 (c : Dev nD) (b : Ref sig .tc) : Buf (Elt F) ((c : Thread nD τ).loc b) := W5 m c b
/-- After region 2. -/
def W6 (c : Dev nD) : Valuation τ sig (Elt F) :=
  Function.update (W5 m c) main_v11 (((dat2 (T5 m) c).arrAt 2 cfg2.N : Buf (Elt F) ((c : Thread nD τ).loc main_v11)))
abbrev T6 (c : Dev nD) (b : Ref sig .tc) : Buf (Elt F) ((c : Thread nD τ).loc b) := W6 m c b
/-- After the last reshape: the end. -/
abbrev W7 (c : Dev nD) : Valuation τ sig (Elt F) := StableHlo.after hostOps3 (W6 m c)

theorem W2_self (c : Dev nD) : W2 m c main_v6 = (dat0 (T1 m) c).arrAt 2 cfg0.N := by unfold W2; exact Function.update_self ..
theorem W2_ne (c : Dev nD) (b : Ref sig .tc) (h : b ≠ main_v6) : W2 m c b = W1 m c b := by
  unfold W2; exact Function.update_of_ne (StableHlo.devRef_ne_of_ne h) ..
theorem W4_self (c : Dev nD) : W4 m c main_v8 = (dat1 (T3 m) c).arrAt 5 cfg1.N := by unfold W4; exact Function.update_self ..
theorem W4_ne (c : Dev nD) (b : Ref sig .tc) (h : b ≠ main_v8) : W4 m c b = W3 m c b := by
  unfold W4; exact Function.update_of_ne (StableHlo.devRef_ne_of_ne h) ..
theorem W6_self (c : Dev nD) : W6 m c main_v11 = (dat2 (T5 m) c).arrAt 2 cfg2.N := by unfold W6; exact Function.update_self ..
theorem W6_ne (c : Dev nD) (b : Ref sig .tc) (h : b ≠ main_v11) : W6 m c b = W5 m c b := by
  unfold W6; exact Function.update_of_ne (StableHlo.devRef_ne_of_ne h) ..

/-- A buffer that no host operation writes and no region changes holds its launch contents at the end. -/
theorem W7_kept (c : Dev nD) (r : Ref sig .tc) (h0 : r ∉ hostOps0_W) (h1 : r ∉ hostOps1_W) (h2 : r ∉ hostOps2_W) (h3 : r ∉ hostOps3_W)
    (h6 : r ≠ main_v6) (h8 : r ≠ main_v8) (h11 : r ≠ main_v11) : W7 m c r = m ((c : Thread nD τ).loc r) :=
  (StableHlo.after_of_writes_sub hostOps3 _ hostOps3_writes h3).trans <| (W6_ne m c r h11).trans <|
  (StableHlo.after_of_writes_sub hostOps2 _ hostOps2_writes h2).trans <| (W4_ne m c r h8).trans <|
  (StableHlo.after_of_writes_sub hostOps1 _ hostOps1_writes h1).trans <| (W2_ne m c r h6).trans <|
  (StableHlo.after_of_writes_sub hostOps0 _ hostOps0_writes h0).trans rfl

/-! ## Each region's arrays at its exit -/

theorem hF0 (c : Dev nD) (w : Fin cfg0.W) : (dat0 (T1 m) c).arrAt w cfg0.N = T2 m c (Pipeline.arrRef spec0 w) :=
  match w with
  | ⟨0, _⟩ => (((dat0 (T1 m) c).arrAt_in 0 rfl _).trans (A_eq0 (T1 m) c 0)).trans (W2_ne m c main_v5 (by decide)).symm
  | ⟨1, _⟩ => (((dat0 (T1 m) c).arrAt_in 1 rfl _).trans (A_eq0 (T1 m) c 1)).trans (W2_ne m c main_v3 (by decide)).symm
  | ⟨2, _⟩ => (W2_self m c).symm
theorem hrest0 (c : Dev nD) : ∀ b, b ∉ Finset.univ.image (Pipeline.arrRef spec0) → T2 m c b = T1 m c b :=
  fun b hb => W2_ne m c b fun e => hb (Finset.mem_image.mpr ⟨2, Finset.mem_univ _, e.symm⟩)

theorem hF2 (c : Dev nD) (w : Fin cfg2.W) : (dat2 (T5 m) c).arrAt w cfg2.N = T6 m c (Pipeline.arrRef spec2 w) :=
  match w with
  | ⟨0, _⟩ => (((dat2 (T5 m) c).arrAt_in 0 rfl _).trans (A_eq2 (T5 m) c 0)).trans (W6_ne m c main_v10 (by decide)).symm
  | ⟨1, _⟩ => (((dat2 (T5 m) c).arrAt_in 1 rfl _).trans (A_eq2 (T5 m) c 1)).trans (W6_ne m c main_v4 (by decide)).symm
  | ⟨2, _⟩ => (W6_self m c).symm
theorem hrest2 (c : Dev nD) : ∀ b, b ∉ Finset.univ.image (Pipeline.arrRef spec2) → T6 m c b = T5 m c b :=
  fun b hb => W6_ne m c b fun e => hb (Finset.mem_image.mpr ⟨2, Finset.mem_univ _, e.symm⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may
-- unfold plain definitions in a metavariable's type
set_option backward.isDefEq.respectTransparency.types false in
/-- Region 0 over the thread state: its arrays split out of the unscoped buffers at entry and put back at the
    exit contents; the generator register into the class invariant and out; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: its arrays split out of the unscoped buffers at entry and put back at the
    exit contents; the generator register into the class invariant and out; nothing owed; no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run

section Run1

variable (m : (ℓ : Loc nD τ sig) → Buf (Elt F) ℓ) (ρ : Dev nD → PrngReg)

theorem hrest1 (c : Dev nD) : ∀ b, b ∉ Finset.univ.image (Pipeline.arrRef spec1) → T4 m c b = T3 m c b :=
  fun b hb => W4_ne m c b fun e => hb (Finset.mem_image.mpr ⟨5, Finset.mem_univ _, e.symm⟩)

/-- EXIT of the attention region, the arrays' part: the windows' arrays at their final contents and the unscoped rest
    are the core's unscoped buffers at the exit contents — the three input windows' thirds of the fused projection,
    unchanged, joined; the output at what the write-backs leave. -/
theorem hjoin1 (c : Dev nD) :
    iprop((dat1 (T3 m) c).arrays ((dat1 (T3 m) c).arrAt · cfg1.N)
        ∗ Pipeline.unscopedRest (Ix := Unit) (Name := ℕ) (U := UR sig nD τ) (Lvl := ℕ) spec1 c (T3 m c))
      ⊢ (StableHlo.held (c : Thread nD τ) (Pipeline.ucRefs τ sig) (W4 m c) : sProp 𝕄) := by
  have hsplit : (unscopedBufs c (T4 m c) : sProp 𝕄)
      = iprop(Pipeline.arrBufs spec1 c (T4 m c) ∗ Pipeline.unscopedRest spec1 c (T4 m c)) :=
    Pipeline.unscopedBufs_split₀ cfgs 1 winFacts₀1.arr_unscoped c (T4 m c)
  rw [Pipeline.unscopedBufs_held] at hsplit
  have hrestEq : (Pipeline.unscopedRest (Ix := Unit) (Name := ℕ) (U := UR sig nD τ) (Lvl := ℕ) spec1 c (T4 m c) : sProp 𝕄)
      = Pipeline.unscopedRest spec1 c (T3 m c) := by
    unfold Pipeline.unscopedRest
    exact bigSep_congr fun b hb => by rw [hrest1 m c b (Finset.mem_sdiff.mp hb).2]
  rw [hsplit, hrestEq]
  refine sep_mono (bufs_of_arrays1 (T3 m) c (T4 m c) _ ?_ ?_ ?_ ?_ ?_ ?_) .rfl
  · exact (((dat1 (T3 m) c).arrAt_in 0 rfl _).trans (A_eq1 (T3 m) c 0)).trans (W4_ne m c main_v7 (by decide)).symm
  · exact (((dat1 (T3 m) c).arrAt_in 1 rfl _).trans (A_eq1 (T3 m) c 1)).trans (W4_ne m c main_v7 (by decide)).symm
  · exact (((dat1 (T3 m) c).arrAt_in 2 rfl _).trans (A_eq1 (T3 m) c 2)).trans (W4_ne m c main_v7 (by decide)).symm
  · exact (((dat1 (T3 m) c).arrAt_in 3 rfl _).trans (A_eq1 (T3 m) c 3)).trans (W4_ne m c main_v0 (by decide)).symm
  · exact (((dat1 (T3 m) c).arrAt_in 4 rfl _).trans (A_eq1 (T3 m) c 4)).trans (W4_ne m c main_v1 (by decide)).symm
  · exact (W4_self m c).symm

/-- ENTRY of the attention region, the arrays' part. -/
theorem hsplit1 (c : Dev nD) :
    (StableHlo.held (c : Thread nD τ) (Pipeline.ucRefs τ sig) (W3 m c) : sProp 𝕄)
      ⊢ iprop((dat1 (T3 m) c).arrays ((dat1 (T3 m) c).arrAt · 0)
        ∗ Pipeline.unscopedRest (Ix := Unit) (Name := ℕ) (U := UR sig nD τ) (Lvl := ℕ) spec1 c (T3 m c)) := by
  have hsplit : (unscopedBufs c (T3 m c) : sProp 𝕄)
      = iprop(Pipeline.arrBufs spec1 c (T3 m c) ∗ Pipeline.unscopedRest spec1 c (T3 m c)) :=
    Pipeline.unscopedBufs_split₀ cfgs 1 winFacts₀1.arr_unscoped c (T3 m c)
  rw [Pipeline.unscopedBufs_held] at hsplit
  rw [hsplit]
  exact sep_mono (arrays1_of_bufs (T3 m) c (T3 m c) _ (A_eq1 (T3 m) c 0) (A_eq1 (T3 m) c 1) (A_eq1 (T3 m) c 2)
    (A_eq1 (T3 m) c 3) (A_eq1 (T3 m) c 4) (A_eq1 (T3 m) c 5)) .rfl

set_option backward.isDefEq.respectTransparency.types false in
/-- Region 1 (attention) over the thread state. Its windows share an array, so the entry deals that array's share
    among them and the exit joins it; the generator register and the scratch go into the region's invariant and
    come back; nothing owed; no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hs : (StableHlo.held (c : Thread nD τ) (Pipeline.ucRefs τ sig) (W3 m c) : sProp 𝕄)
        ⊢ iprop((pdats m 1 c).arrays ((pdats m 1 c).arrAt · 0)
          ∗ Pipeline.unscopedRest (Ix := Unit) (Name := ℕ) (U := UR sig nD τ) (Lvl := ℕ) spec1 c (T3 m c)) := hsplit1 m c
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (T3 m) c)
    unfold Pipeline.ΦA
    iintro ⟨Hp, -, Hr⟩
    isplitl [Hr]; · iexact Hr
    iexact Hp
  hout c := by
    refine (hout1 (T3 m) c).trans ?_
    rw [Pipeline.ownSems0_none]; unfold Pipeline.ΦA
    iintro ⟨Hr, Hp⟩
    isplitl [Hp]; · iexact Hp
    isplitr; · iempintro
    iexact Hr
  hexit c := by
    have hj : iprop((pdats m 1 c).arrays ((pdats m 1 c).arrAt · cfg1.N)
          ∗ Pipeline.unscopedRest (Ix := Unit) (Name := ℕ) (U := UR sig nD τ) (Lvl := ℕ) spec1 c (T3 m c))
        ⊢ (StableHlo.held (c : Thread nD τ) (Pipeline.ucRefs τ sig) (W4 m c) : sProp 𝕄) := hjoin1 m c
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-! ## The program as segments, and the launch -/

/-- The program's seven items in order: a host segment per stretch from its boundary's contents, a region per kernel. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Run1

end Cert.KernelIdeal.Hand
end
-- ==== Proof.Frames.lean ====
/- The frame of the kernel program and its run with the result named, read off the run of its segments: every
   unscoped buffer ends at the last boundary's contents, and no host operation or region touches an argument. -/
import proofs.«150253_j62079457296484_2_alg».proof.Proof.Assemble

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Every weakly fair execution terminates without a fault and leaves the four argument arrays as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c _ (mem_uc main_arg0 (by decide))).trans (W7_kept m c main_arg0 (by decide) (by decide) (by decide) (by decide) (by decide) (by decide) (by decide)),
    (h c _ (mem_uc main_arg1 (by decide))).trans (W7_kept m c main_arg1 (by decide) (by decide) (by decide) (by decide) (by decide) (by decide) (by decide)),
    (h c _ (mem_uc main_arg2 (by decide))).trans (W7_kept m c main_arg2 (by decide) (by decide) (by decide) (by decide) (by decide) (by decide) (by decide)),
    (h c _ (mem_uc main_arg3 (by decide))).trans (W7_kept m c main_arg3 (by decide) (by decide) (by decide) (by decide) (by decide) (by decide) (by decide))⟩) (run_all m ρ)

/-- The same run with the result buffer named: it ends at the last boundary's contents. -/
theorem result_run : θ_run defs (onTc (τ := τ) (main (F := F))) ⟨m, fun _ => 0, ρ⟩ (fun r => ∀ c : Dev nD,
      r.2.mem ((c.tc : Thread nD τ).loc main_v12) = W7 m c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c _ (mem_uc main_v12 (by decide)), (h c _ (mem_uc main_arg0 (by decide))).trans (W7_kept m c main_arg0 (by decide) (by decide) (by decide) (by decide) (by decide) (by decide) (by decide)),
    (h c _ (mem_uc main_arg1 (by decide))).trans (W7_kept m c main_arg1 (by decide) (by decide) (by decide) (by decide) (by decide) (by decide) (by decide)),
    (h c _ (mem_uc main_arg2 (by decide))).trans (W7_kept m c main_arg2 (by decide) (by decide) (by decide) (by decide) (by decide) (by decide) (by decide)),
    (h c _ (mem_uc main_arg3 (by decide))).trans (W7_kept m c main_arg3 (by decide) (by decide) (by decide) (by decide) (by decide) (by decide) (by decide))⟩) (run_all m ρ)

end Cert.KernelIdeal.Hand

end
-- ==== Proof.Spec.lean ====
/-
  The attention block as ONE function of its four argument arrays, index by index, on the extended reals.

  Arguments, as curried functions on literal index types:
    x  : batch (2) × position (2048) × channel (2048)       the activations
    fr : position (2048) × lane (64)                          the rotary angles
    wq : output column (6144) × channel (2048)                the fused q/k/v projection weights
    wo : output channel (2048) × channel (2048)               the output projection weights

  Stages:
    qkv b n f    = ∑ c, x b n c * wq f c                      (columns 0..2047 are q, 2048..4095 are k, 4096..6143 are v;
                                                               head h and lane d sit at column h*64 + d of each third)
    rope t n d   = t n d * cos (fr n d) + rot t n d * sin (fr n d),
    rot t n d    = -(t n (d+32)) for d < 32, and t n (d-32) for d ≥ 32       (rotate-half)
    score b h i j = (∑ d, qr b h i d * kr b h j d) * (1/8)
    mx b h i     = the maximum over j of score b h i j, folded from ⊥
    p            = exp (score - mx),   l = ∑ j, p,   attn = p / l
    oh b h n d   = ∑ j, attn b h n j * vh b h j d,     o b n (h*64+d) = oh b h n d
    G b n e      = ∑ c, o b n c * wo e c
-/
import Idealize.ShloMosaic.PureOps.Ideal
import Idealize.ShloMosaic.Lib.ValueIdx

noncomputable section

open scoped BigOperators
open Idealize.ShloMosaic

namespace Cert.AttnSpec

/-! ## Columns of the fused projection, and heads and lanes of a channel -/

/-- The q column of head `h`, lane `d`. -/
def qcol (h : Fin 32) (d : Fin 64) : Fin 6144 := ⟨h.val * 64 + d.val, by omega⟩
/-- The k column of head `h`, lane `d`. -/
def kcol (h : Fin 32) (d : Fin 64) : Fin 6144 := ⟨2048 + (h.val * 64 + d.val), by omega⟩
/-- The v column of head `h`, lane `d`. -/
def vcol (h : Fin 32) (d : Fin 64) : Fin 6144 := ⟨4096 + (h.val * 64 + d.val), by omega⟩
/-- The channel of head `h`, lane `d`. -/
def ocol (h : Fin 32) (d : Fin 64) : Fin 2048 := ⟨h.val * 64 + d.val, by omega⟩
/-- The head of a channel. -/
def headOf (c : Fin 2048) : Fin 32 := ⟨c.val / 64, by omega⟩
/-- The lane of a channel. -/
def laneOf (c : Fin 2048) : Fin 64 := ⟨c.val % 64, by omega⟩

theorem headOf_ocol (h : Fin 32) (d : Fin 64) : headOf (ocol h d) = h := Fin.ext (by show (h.val * 64 + d.val) / 64 = h.val; omega)
theorem laneOf_ocol (h : Fin 32) (d : Fin 64) : laneOf (ocol h d) = d := Fin.ext (by show (h.val * 64 + d.val) % 64 = d.val; omega)
theorem ocol_head_lane (c : Fin 2048) : ocol (headOf c) (laneOf c) = c :=
  Fin.ext (by show (c.val / 64) * 64 + c.val % 64 = c.val; omega)

/-- The upper partner lane `d + 32` of a lane `d < 32`. -/
def laneUp (d : Fin 64) (h : d.val < 32) : Fin 64 := ⟨d.val + 32, by omega⟩
/-- The lower partner lane `d - 32` of a lane `d ≥ 32`. -/
def laneDown (d : Fin 64) (_h : ¬ d.val < 32) : Fin 64 := ⟨d.val - 32, by omega⟩

/-! ## The stages -/

section Stages

variable (x : Fin 2 → Fin 2048 → Fin 2048 → EReal) (fr : Fin 2048 → Fin 64 → EReal)
  (wq : Fin 6144 → Fin 2048 → EReal) (wo : Fin 2048 → Fin 2048 → EReal)

/-- The fused q/k/v projection. -/
def qkv (b : Fin 2) (n : Fin 2048) (f : Fin 6144) : EReal := ∑ c : Fin 2048, x b n c * wq f c

/-- q, k, v by head. -/
def qh (b : Fin 2) (h : Fin 32) (n : Fin 2048) (d : Fin 64) : EReal := qkv x wq b n (qcol h d)
def kh (b : Fin 2) (h : Fin 32) (n : Fin 2048) (d : Fin 64) : EReal := qkv x wq b n (kcol h d)
def vh (b : Fin 2) (h : Fin 32) (n : Fin 2048) (d : Fin 64) : EReal := qkv x wq b n (vcol h d)

/-- The rotary tables. -/
def cosT (n : Fin 2048) (d : Fin 64) : EReal := Ideal.cos (fr n d)
def sinT (n : Fin 2048) (d : Fin 64) : EReal := Ideal.sin (fr n d)

/-- Rotate-half: the upper half negated in front of the lower half. -/
def rot (t : Fin 2048 → Fin 64 → EReal) (n : Fin 2048) (d : Fin 64) : EReal :=
  if h : d.val < 32 then -(t n (laneUp d h)) else t n (laneDown d h)

/-- The rotary embedding of one head's rows. -/
def rope (t : Fin 2048 → Fin 64 → EReal) (n : Fin 2048) (d : Fin 64) : EReal :=
  t n d * cosT fr n d + rot t n d * sinT fr n d

/-- Rotated q and k. -/
def qr (b : Fin 2) (h : Fin 32) : Fin 2048 → Fin 64 → EReal := rope fr (qh x wq b h)
def kr (b : Fin 2) (h : Fin 32) : Fin 2048 → Fin 64 → EReal := rope fr (kh x wq b h)

/-- The scale 1/8, kept as its f32 literal. -/
def scale : EReal := Ideal.ofBits .f32 0x3E000000#32

/-- The scaled scores. -/
def score (b : Fin 2) (h : Fin 32) (i j : Fin 2048) : EReal :=
  (∑ d : Fin 64, qr x fr wq b h i d * kr x fr wq b h j d) * scale

/-- The row maximum, folded from ⊥. -/
def mx (b : Fin 2) (h : Fin 32) (i : Fin 2048) : EReal :=
  (Finset.univ : Finset (Fin 2048)).fold max (⊥ : EReal) (fun j => score x fr wq b h i j)

/-- The exponentials, their row sums, and the softmax. -/
def p (b : Fin 2) (h : Fin 32) (i j : Fin 2048) : EReal := Ideal.exp (score x fr wq b h i j - mx x fr wq b h i)
def l (b : Fin 2) (h : Fin 32) (i : Fin 2048) : EReal := ∑ j : Fin 2048, p x fr wq b h i j
def attn (b : Fin 2) (h : Fin 32) (i j : Fin 2048) : EReal := Ideal.div (p x fr wq b h i j) (l x fr wq b h i)

/-- The attention output by head, and as channels. -/
def oh (b : Fin 2) (h : Fin 32) (n : Fin 2048) (d : Fin 64) : EReal :=
  ∑ j : Fin 2048, attn x fr wq b h n j * vh x wq b h j d
def o (b : Fin 2) (n : Fin 2048) (c : Fin 2048) : EReal := oh x fr wq b (headOf c) n (laneOf c)

/-- The result: the output projection of the attention output. -/
def G (b : Fin 2) (n : Fin 2048) (e : Fin 2048) : EReal := ∑ c : Fin 2048, o x fr wq b n c * wo e c

/-- The row maximum as a supremum. -/
theorem mx_eq_sup (b : Fin 2) (h : Fin 32) (i : Fin 2048) :
    mx x fr wq b h i = (Finset.univ : Finset (Fin 2048)).sup (fun j => score x fr wq b h i j) := rfl

theorem o_ocol (b : Fin 2) (n : Fin 2048) (h : Fin 32) (d : Fin 64) :
    o x fr wq b n (ocol h d) = oh x fr wq b h n d := by
  unfold o; rw [headOf_ocol, laneOf_ocol]

end Stages

end Cert.AttnSpec

end
-- ==== Proof.RefQKV.lean ====
/-
  The reference's fused projection and its split into heads, read at an index: the projection at (b, n, f) is the
  specification's `qkv`, and the transposed reshapes of its three column blocks at (b, h, n, d) are `qh`, `kh`, `vh`
  (head h, lane d is column h*64 + d of the block).
-/
import proofs.«150253_j62079457296484_2_alg».proof.Proof.Gen.ReferenceIdeal.Read
import proofs.«150253_j62079457296484_2_alg».proof.Proof.Spec

noncomputable section

open scoped BigOperators
open Idealize.ShloMosaic Idealize.ShloMosaic.ValueIdx
open Cert.ReferenceIdeal Cert.ReferenceIdeal.Gen Cert.ReferenceIdeal.Read

namespace Cert.ReferenceIdeal.RefValue

open Cert.AttnSpec

/-- The four argument arrays' types. -/
abbrev A0 := (⟨S2x2048x2048, .f32⟩ : BufTy).Contents (Elt Ideal)
abbrev A1 := (⟨S2048x64, .f32⟩ : BufTy).Contents (Elt Ideal)
abbrev A2 := (⟨S6144x2048, .f32⟩ : BufTy).Contents (Elt Ideal)
abbrev A3 := (⟨S2048x2048, .f32⟩ : BufTy).Contents (Elt Ideal)

/-- The argument arrays as curried functions of their coordinates. -/
abbrev X (a0 : A0) : Fin 2 → Fin 2048 → Fin 2048 → EReal := fun b n c => a0 (ix3 b n c)
abbrev FR (a1 : A1) : Fin 2048 → Fin 64 → EReal := fun n d => a1 (ix2 n d)
abbrev WQ (a2 : A2) : Fin 6144 → Fin 2048 → EReal := fun f c => a2 (ix2 f c)
abbrev WO (a3 : A3) : Fin 2048 → Fin 2048 → EReal := fun e c => a3 (ix2 e c)

variable (a0 : A0) (a1 : A1) (a2 : A2) (a3 : A3)

/-! ## The projection -/

theorem lidx_v0 (b : Fin 2) (n : Fin 2048) (f : Fin 6144) (k : Fin 2048) :
    lidx_main_v0 (ix3 b n f) k = ix3 b n k :=
  funext fun a => Fin.ext (by match a with | ⟨0, _⟩ => rfl | ⟨1, _⟩ => rfl | ⟨2, _⟩ => rfl)

theorem ridx_v0 (b : Fin 2) (n : Fin 2048) (f : Fin 6144) (k : Fin 2048) :
    ridx_main_v0 (ix3 b n f) k = ix2 f k :=
  funext fun a => Fin.ext (by match a with | ⟨0, _⟩ => rfl | ⟨1, _⟩ => rfl)

/-- The projection at (b, n, f) is the row of `x` against row `f` of the weights. -/
theorem v0_at (b : Fin 2) (n : Fin 2048) (f : Fin 6144) :
    val_main_v0 (F := Ideal) a0 a2 (ix3 b n f) = qkv (X a0) (WQ a2) b n f := by
  rw [val_main_v0_apply]
  simp only [lidx_v0, ridx_v0]
  rfl

/-! ## The heads: slice a column block, reshape [2,2048,2048] → [2,2048,32,64], transpose to [2,32,2048,64] -/

theorem idx_q (b : Fin 2) (h : Fin 32) (n : Fin 2048) (d : Fin 64) :
    idx_main_v1 (idx_main_v4 (idx_main_v5 (ix4 b h n d))) = ix3 b n (qcol h d) := by
  have hb := b.isLt; have hh := h.isLt; have hn := n.isLt; have hd := d.isLt
  exact funext fun a => Fin.ext (by
    match a with
    | ⟨0, _⟩ => show (((b.val * 2048 + n.val) * 32 + h.val) * 64 + d.val) / 4194304 = b.val; omega
    | ⟨1, _⟩ => show (((b.val * 2048 + n.val) * 32 + h.val) * 64 + d.val) / 2048 % 2048 = n.val; omega
    | ⟨2, _⟩ => show (((b.val * 2048 + n.val) * 32 + h.val) * 64 + d.val) % 2048 = h.val * 64 + d.val; omega)

theorem idx_k (b : Fin 2) (h : Fin 32) (n : Fin 2048) (d : Fin 64) :
    idx_main_v2 (idx_main_v6 (idx_main_v7 (ix4 b h n d))) = ix3 b n (kcol h d) := by
  have hb := b.isLt; have hh := h.isLt; have hn := n.isLt; have hd := d.isLt
  exact funext fun a => Fin.ext (by
    match a with
    | ⟨0, _⟩ => show (((b.val * 2048 + n.val) * 32 + h.val) * 64 + d.val) / 4194304 = b.val; omega
    | ⟨1, _⟩ => show (((b.val * 2048 + n.val) * 32 + h.val) * 64 + d.val) / 2048 % 2048 = n.val; omega
    | ⟨2, _⟩ => show 2048 + (((b.val * 2048 + n.val) * 32 + h.val) * 64 + d.val) % 2048 = 2048 + (h.val * 64 + d.val); omega)

theorem idx_v (b : Fin 2) (h : Fin 32) (n : Fin 2048) (d : Fin 64) :
    idx_main_v3 (idx_main_v8 (idx_main_v9 (ix4 b h n d))) = ix3 b n (vcol h d) := by
  have hb := b.isLt; have hh := h.isLt; have hn := n.isLt; have hd := d.isLt
  exact funext fun a => Fin.ext (by
    match a with
    | ⟨0, _⟩ => show (((b.val * 2048 + n.val) * 32 + h.val) * 64 + d.val) / 4194304 = b.val; omega
    | ⟨1, _⟩ => show (((b.val * 2048 + n.val) * 32 + h.val) * 64 + d.val) / 2048 % 2048 = n.val; omega
    | ⟨2, _⟩ => show 4096 + (((b.val * 2048 + n.val) * 32 + h.val) * 64 + d.val) % 2048 = 4096 + (h.val * 64 + d.val); omega)

/-- q by head. -/
theorem v5_at (b : Fin 2) (h : Fin 32) (n : Fin 2048) (d : Fin 64) :
    val_main_v5 (F := Ideal) a0 a2 (ix4 b h n d) = qh (X a0) (WQ a2) b h n d := by
  rw [val_main_v5_apply, val_main_v4_apply, val_main_v1_apply, idx_q, v0_at]
  rfl

/-- k by head. -/
theorem v7_at (b : Fin 2) (h : Fin 32) (n : Fin 2048) (d : Fin 64) :
    val_main_v7 (F := Ideal) a0 a2 (ix4 b h n d) = kh (X a0) (WQ a2) b h n d := by
  rw [val_main_v7_apply, val_main_v6_apply, val_main_v2_apply, idx_k, v0_at]
  rfl

/-- v by head. -/
theorem v9_at (b : Fin 2) (h : Fin 32) (n : Fin 2048) (d : Fin 64) :
    val_main_v9 (F := Ideal) a0 a2 (ix4 b h n d) = vh (X a0) (WQ a2) b h n d := by
  rw [val_main_v9_apply, val_main_v8_apply, val_main_v3_apply, idx_v, v0_at]
  rfl

end Cert.ReferenceIdeal.RefValue

end
-- ==== Proof.RefRope.lean ====
/-
  The reference's rotary embedding read at an index. For q and for k: the tables cos(freqs), sin(freqs) broadcast over
  batch and head; rotate-half as the concatenation of the negated upper half and the lower half; the products with the
  broadcast constant 1.0 (x * 1 = x); and the concatenation with an EMPTY tail, which reads its first piece.
-/
import proofs.«150253_j62079457296484_2_alg».proof.Proof.RefQKV

noncomputable section

open scoped BigOperators
open Idealize.ShloMosaic Idealize.ShloMosaic.ValueIdx
open Cert.ReferenceIdeal Cert.ReferenceIdeal.Gen Cert.ReferenceIdeal.Read

namespace Cert.ReferenceIdeal.RefValue

open Cert.AttnSpec

variable (a0 : A0) (a1 : A1) (a2 : A2) (a3 : A3)

/-- The f32 word of 1.0 denotes 1. -/
theorem one_f32 : Ideal.ofBits .f32 0x3F800000#32 = (1 : EReal) := by
  simp [Ideal.ofBits, Ideal.ieee, -EReal.coe_mul]; norm_num

/-! ## The rotary embedding of q -/

theorem idx_cos_q (b : Fin 2) (h : Fin 32) (n : Fin 2048) (d : Fin 64) :
    idx_main_v12 (idx_main_v13 (ix4 b h n d)) = ix2 n d :=
  funext fun a => Fin.ext (by match a with | ⟨0, _⟩ => rfl | ⟨1, _⟩ => rfl)

theorem idx_sin_q (b : Fin 2) (h : Fin 32) (n : Fin 2048) (d : Fin 64) :
    idx_main_v22 (idx_main_v23 (ix4 b h n d)) = ix2 n d :=
  funext fun a => Fin.ext (by match a with | ⟨0, _⟩ => rfl | ⟨1, _⟩ => rfl)

/-- The cosine table, broadcast over batch and head. -/
theorem v13_at (b : Fin 2) (h : Fin 32) (n : Fin 2048) (d : Fin 64) :
    val_main_v13 (F := Ideal) a1 (ix4 b h n d) = cosT (FR a1) n d := by
  rw [val_main_v13_apply, val_main_v12_apply, val_main_v11_apply, idx_cos_q]
  rfl

/-- The sine table, broadcast over batch and head. -/
theorem v23_at (b : Fin 2) (h : Fin 32) (n : Fin 2048) (d : Fin 64) :
    val_main_v23 (F := Ideal) a1 (ix4 b h n d) = sinT (FR a1) n d := by
  rw [val_main_v23_apply, val_main_v22_apply, val_main_v21_apply, idx_sin_q]
  rfl

/-- The broadcast constant 1.0. -/
theorem v15_at (i : S2x32x2048x64.Idx) : val_main_v15 (F := Ideal) i = 1 := by
  rw [val_main_v15_apply, val_main_cst_apply]
  exact one_f32

theorem v25_at (i : S2x32x2048x64.Idx) : val_main_v25 (F := Ideal) i = 1 := by
  rw [val_main_v25_apply, val_main_cst_0_apply]
  exact one_f32

theorem idx_hi_q (b : Fin 2) (h : Fin 32) (n : Fin 2048) (d : Fin 64) (hd : d.val < 32) :
    idx_main_v18 (ix4 b h n (⟨d.val, hd⟩ : Fin 32)) = ix4 b h n (laneUp d hd) :=
  funext fun a => Fin.ext (by
    match a with
    | ⟨0, _⟩ => rfl
    | ⟨1, _⟩ => rfl
    | ⟨2, _⟩ => rfl
    | ⟨3, _⟩ => show 32 + d.val = d.val + 32; omega)

theorem idx_lo_q (b : Fin 2) (h : Fin 32) (n : Fin 2048) (d : Fin 64) (hd : ¬ d.val < 32) :
    idx_main_v17 (ix4 b h n (⟨d.val - 32, by have := d.isLt; omega⟩ : Fin 32)) = ix4 b h n (laneDown d hd) :=
  funext fun a => Fin.ext (by match a with | ⟨0, _⟩ => rfl | ⟨1, _⟩ => rfl | ⟨2, _⟩ => rfl | ⟨3, _⟩ => rfl)

/-- Rotate-half: the negated upper half in front of the lower half. -/
theorem v20_at (b : Fin 2) (h : Fin 32) (n : Fin 2048) (d : Fin 64) :
    val_main_v20 (F := Ideal) a0 a2 (ix4 b h n d) = rot (qh (X a0) (WQ a2) b h) n d := by
  unfold val_main_v20 rot
  by_cases hd : d.val < 32
  · rw [dif_pos hd]
    refine (concatenate_pair_apply_left (s₁ := S2x32x2048x32) (s₂ := S2x32x2048x32) (3 : Fin S2x32x2048x64.rank) _ _ _ (ix4 b h n d) rfl (ix4 b h n (⟨d.val, hd⟩ : Fin 32))
      (fun c => match c with | ⟨0, _⟩ => rfl | ⟨1, _⟩ => rfl | ⟨2, _⟩ => rfl | ⟨3, _⟩ => rfl)).trans ?_
    rw [val_main_v19_apply, val_main_v18_apply, idx_hi_q, v5_at]
    rfl
  · rw [dif_neg hd]
    refine (concatenate_pair_apply_right (s₁ := S2x32x2048x32) (s₂ := S2x32x2048x32) (3 : Fin S2x32x2048x64.rank) _ _ _ (ix4 b h n d) rfl rfl
      (ix4 b h n (⟨d.val - 32, by have := d.isLt; omega⟩ : Fin 32))
      (fun c hc => match c, hc with | ⟨0, _⟩, _ => rfl | ⟨1, _⟩, _ => rfl | ⟨2, _⟩, _ => rfl | ⟨3, _⟩, hc => absurd rfl hc)
      (by show d.val - 32 + 32 = d.val; omega)).trans ?_
    rw [val_main_v17_apply, idx_lo_q, v5_at]

/-- Rotated q: the concatenation with the empty tail reads its first piece, which is
    `t * cos * 1 + rot t * sin * 1`. -/
theorem v28_at (b : Fin 2) (h : Fin 32) (n : Fin 2048) (d : Fin 64) :
    val_main_v28 (F := Ideal) a0 a1 a2 (ix4 b h n d) = qr (X a0) (FR a1) (WQ a2) b h n d := by
  unfold val_main_v28
  refine (concatenate_pair_apply_left (s₁ := S2x32x2048x64) (s₂ := S2x32x2048x0) (3 : Fin S2x32x2048x64.rank) _ _ _ (ix4 b h n d) rfl (ix4 b h n d)
    (fun c => match c with | ⟨0, _⟩ => rfl | ⟨1, _⟩ => rfl | ⟨2, _⟩ => rfl | ⟨3, _⟩ => rfl)).trans ?_
  rw [val_main_v27_apply, val_main_v16_apply, val_main_v26_apply, val_main_v14_apply, val_main_v24_apply,
    v5_at, v13_at, v15_at, v20_at, v23_at, v25_at]
  simp only [Ideal.addf_def, Ideal.mulf_def, mul_one]
  rfl

/-! ## The rotary embedding of k -/

theorem idx_cos_k (b : Fin 2) (h : Fin 32) (n : Fin 2048) (d : Fin 64) :
    idx_main_v31 (idx_main_v32 (ix4 b h n d)) = ix2 n d :=
  funext fun a => Fin.ext (by match a with | ⟨0, _⟩ => rfl | ⟨1, _⟩ => rfl)

theorem idx_sin_k (b : Fin 2) (h : Fin 32) (n : Fin 2048) (d : Fin 64) :
    idx_main_v41 (idx_main_v42 (ix4 b h n d)) = ix2 n d :=
  funext fun a => Fin.ext (by match a with | ⟨0, _⟩ => rfl | ⟨1, _⟩ => rfl)

/-- The cosine table, broadcast over batch and head. -/
theorem v32_at (b : Fin 2) (h : Fin 32) (n : Fin 2048) (d : Fin 64) :
    val_main_v32 (F := Ideal) a1 (ix4 b h n d) = cosT (FR a1) n d := by
  rw [val_main_v32_apply, val_main_v31_apply, val_main_v30_apply, idx_cos_k]
  rfl

/-- The sine table, broadcast over batch and head. -/
theorem v42_at (b : Fin 2) (h : Fin 32) (n : Fin 2048) (d : Fin 64) :
    val_main_v42 (F := Ideal) a1 (ix4 b h n d) = sinT (FR a1) n d := by
  rw [val_main_v42_apply, val_main_v41_apply, val_main_v40_apply, idx_sin_k]
  rfl

/-- The broadcast constant 1.0. -/
theorem v34_at (i : S2x32x2048x64.Idx) : val_main_v34 (F := Ideal) i = 1 := by
  rw [val_main_v34_apply, val_main_cst_1_apply]
  exact one_f32

theorem v44_at (i : S2x32x2048x64.Idx) : val_main_v44 (F := Ideal) i = 1 := by
  rw [val_main_v44_apply, val_main_cst_2_apply]
  exact one_f32

theorem idx_hi_k (b : Fin 2) (h : Fin 32) (n : Fin 2048) (d : Fin 64) (hd : d.val < 32) :
    idx_main_v37 (ix4 b h n (⟨d.val, hd⟩ : Fin 32)) = ix4 b h n (laneUp d hd) :=
  funext fun a => Fin.ext (by
    match a with
    | ⟨0, _⟩ => rfl
    | ⟨1, _⟩ => rfl
    | ⟨2, _⟩ => rfl
    | ⟨3, _⟩ => show 32 + d.val = d.val + 32; omega)

theorem idx_lo_k (b : Fin 2) (h : Fin 32) (n : Fin 2048) (d : Fin 64) (hd : ¬ d.val < 32) :
    idx_main_v36 (ix4 b h n (⟨d.val - 32, by have := d.isLt; omega⟩ : Fin 32)) = ix4 b h n (laneDown d hd) :=
  funext fun a => Fin.ext (by match a with | ⟨0, _⟩ => rfl | ⟨1, _⟩ => rfl | ⟨2, _⟩ => rfl | ⟨3, _⟩ => rfl)

/-- Rotate-half: the negated upper half in front of the lower half. -/
theorem v39_at (b : Fin 2) (h : Fin 32) (n : Fin 2048) (d : Fin 64) :
    val_main_v39 (F := Ideal) a0 a2 (ix4 b h n d) = rot (kh (X a0) (WQ a2) b h) n d := by
  unfold val_main_v39 rot
  by_cases hd : d.val < 32
  · rw [dif_pos hd]
    refine (concatenate_pair_apply_left (s₁ := S2x32x2048x32) (s₂ := S2x32x2048x32) (3 : Fin S2x32x2048x64.rank) _ _ _ (ix4 b h n d) rfl (ix4 b h n (⟨d.val, hd⟩ : Fin 32))
      (fun c => match c with | ⟨0, _⟩ => rfl | ⟨1, _⟩ => rfl | ⟨2, _⟩ => rfl | ⟨3, _⟩ => rfl)).trans ?_
    rw [val_main_v38_apply, val_main_v37_apply, idx_hi_k, v7_at]
    rfl
  · rw [dif_neg hd]
    refine (concatenate_pair_apply_right (s₁ := S2x32x2048x32) (s₂ := S2x32x2048x32) (3 : Fin S2x32x2048x64.rank) _ _ _ (ix4 b h n d) rfl rfl
      (ix4 b h n (⟨d.val - 32, by have := d.isLt; omega⟩ : Fin 32))
      (fun c hc => match c, hc with | ⟨0, _⟩, _ => rfl | ⟨1, _⟩, _ => rfl | ⟨2, _⟩, _ => rfl | ⟨3, _⟩, hc => absurd rfl hc)
      (by show d.val - 32 + 32 = d.val; omega)).trans ?_
    rw [val_main_v36_apply, idx_lo_k, v7_at]

/-- Rotated k: the concatenation with the empty tail reads its first piece, which is
    `t * cos * 1 + rot t * sin * 1`. -/
theorem v47_at (b : Fin 2) (h : Fin 32) (n : Fin 2048) (d : Fin 64) :
    val_main_v47 (F := Ideal) a0 a1 a2 (ix4 b h n d) = kr (X a0) (FR a1) (WQ a2) b h n d := by
  unfold val_main_v47
  refine (concatenate_pair_apply_left (s₁ := S2x32x2048x64) (s₂ := S2x32x2048x0) (3 : Fin S2x32x2048x64.rank) _ _ _ (ix4 b h n d) rfl (ix4 b h n d)
    (fun c => match c with | ⟨0, _⟩ => rfl | ⟨1, _⟩ => rfl | ⟨2, _⟩ => rfl | ⟨3, _⟩ => rfl)).trans ?_
  rw [val_main_v46_apply, val_main_v35_apply, val_main_v45_apply, val_main_v33_apply, val_main_v43_apply,
    v7_at, v32_at, v34_at, v39_at, v42_at, v44_at]
  simp only [Ideal.addf_def, Ideal.mulf_def, mul_one]
  rfl

end Cert.ReferenceIdeal.RefValue

end
-- ==== Proof.RefSoftmax.lean ====
/-
  The reference's scores and softmax read at an index: the scaled scores are the row products of rotated q and k
  times the literal 1/8; the row maximum is the fold of `max` from ⊥ over the key axis (joined once more with ⊥, which
  changes nothing); the exponentials of score − maximum, their row sums from the initial value 0, and the quotient.
-/
import proofs.«150253_j62079457296484_2_alg».proof.Proof.RefRope

noncomputable section

open scoped BigOperators
open Idealize.ShloMosaic Idealize.ShloMosaic.ValueIdx
open Cert.ReferenceIdeal Cert.ReferenceIdeal.Gen Cert.ReferenceIdeal.Read

namespace Cert.ReferenceIdeal.RefValue

open Cert.AttnSpec

variable (a0 : A0) (a1 : A1) (a2 : A2) (a3 : A3)

/-- The f32 word of −∞ denotes ⊥. -/
theorem neg_inf_f32 : Ideal.ofBits .f32 0xFF800000#32 = (⊥ : EReal) := by
  simp [Ideal.ofBits, Ideal.ieee]

/-! ## The scaled scores -/

theorem lidx_v48 (b : Fin 2) (h : Fin 32) (i j : Fin 2048) (k : Fin 64) :
    lidx_main_v48 (ix4 b h i j) k = ix4 b h i k :=
  funext fun a => Fin.ext (by match a with | ⟨0, _⟩ => rfl | ⟨1, _⟩ => rfl | ⟨2, _⟩ => rfl | ⟨3, _⟩ => rfl)

theorem ridx_v48 (b : Fin 2) (h : Fin 32) (i j : Fin 2048) (k : Fin 64) :
    ridx_main_v48 (ix4 b h i j) k = ix4 b h j k :=
  funext fun a => Fin.ext (by match a with | ⟨0, _⟩ => rfl | ⟨1, _⟩ => rfl | ⟨2, _⟩ => rfl | ⟨3, _⟩ => rfl)

/-- The broadcast scale is the literal 1/8. -/
theorem v49_at (i : S2x32x2048x2048.Idx) : val_main_v49 (F := Ideal) i = scale := by
  rw [val_main_v49_apply, val_main_cst_3_apply]
  rfl

/-- The scaled scores. -/
theorem v50_at (b : Fin 2) (h : Fin 32) (i j : Fin 2048) :
    val_main_v50 (F := Ideal) a0 a1 a2 (ix4 b h i j) = score (X a0) (FR a1) (WQ a2) b h i j := by
  rw [val_main_v50_apply, val_main_v48_apply, v49_at]
  simp only [lidx_v48, ridx_v48, v28_at, v47_at]
  rfl

/-! ## The row maximum -/

/-- The reduced index (b, h, i) with key coordinate `k` put back is (b, h, i, k). -/
theorem lift_ix3 (hR : S2x32x2048x2048.Reduces [3] S2x32x2048) (b : Fin 2) (h : Fin 32) (i : Fin 2048)
    (k : Fin (S2x32x2048x2048.size 3)) :
    hR.lift (ix3 b h i) k = ix4 b h i (⟨k.val, k.isLt⟩ : Fin 2048) := by
  funext c; apply Fin.ext
  fin_cases c <;> rfl

/-- The reduce with a maximum body from −∞ over the key axis is the fold of `max` from ⊥ over the scores. -/
theorem v51_at (b : Fin 2) (h : Fin 32) (i : Fin 2048) :
    val_main_v51 (F := Ideal) a0 a1 a2 (ix3 b h i) = mx (X a0) (FR a1) (WQ a2) b h i := by
  have hR : S2x32x2048x2048.Reduces [3] S2x32x2048 := by decide
  have e := Host.reduce_eq_fold_single (FloatOps.maximumf (F := Ideal) (φ := .f32)) (val_main_v50 (F := Ideal) a0 a1 a2)
    (val_main_cst_4 (F := Ideal)) reducesTo_S2x32x2048x2048_S2x32x2048_d3 hR h_S_ (ix3 b h i)
  have hf : (val_main_v50 (F := Ideal) a0 a1 a2 ∘ hR.lift (ix3 b h i))
      = fun k : Fin 2048 => score (X a0) (FR a1) (WQ a2) b h i k :=
    funext fun k => (congrArg (val_main_v50 (F := Ideal) a0 a1 a2) (lift_ix3 hR b h i k)).trans (v50_at a0 a1 a2 b h i _)
  have hi : val_main_cst_4 (F := Ideal) (Shape.Idx.first h_S_) = (⊥ : EReal) := by
    rw [val_main_cst_4_apply]; exact neg_inf_f32
  rw [hi, hf] at e
  exact e

/-- Joined once more with the broadcast −∞. -/
theorem v53_at (b : Fin 2) (h : Fin 32) (i : Fin 2048) :
    val_main_v53 (F := Ideal) a0 a1 a2 (ix3 b h i) = mx (X a0) (FR a1) (WQ a2) b h i := by
  rw [val_main_v53_apply, val_main_v52_apply, val_main_cst_5_apply, v51_at]
  show max (Ideal.ofBits .f32 0xFF800000#32) _ = _
  rw [neg_inf_f32]
  exact max_bot_left _

theorem idx_v55 (b : Fin 2) (h : Fin 32) (i j : Fin 2048) :
    idx_main_v54 (idx_main_v55 (ix4 b h i j)) = ix3 b h i :=
  funext fun a => Fin.ext (by match a with | ⟨0, _⟩ => rfl | ⟨1, _⟩ => rfl | ⟨2, _⟩ => rfl)

/-- The maximum broadcast back over the key axis. -/
theorem v55_at (b : Fin 2) (h : Fin 32) (i j : Fin 2048) :
    val_main_v55 (F := Ideal) a0 a1 a2 (ix4 b h i j) = mx (X a0) (FR a1) (WQ a2) b h i := by
  rw [val_main_v55_apply, val_main_v54_apply, idx_v55, v53_at]

/-! ## The exponentials, their row sums, the softmax -/

theorem v57_at (b : Fin 2) (h : Fin 32) (i j : Fin 2048) :
    val_main_v57 (F := Ideal) a0 a1 a2 (ix4 b h i j) = p (X a0) (FR a1) (WQ a2) b h i j := by
  rw [val_main_v57_apply, val_main_v56_apply, v50_at, v55_at]
  rfl

theorem idx_v58 (b : Fin 2) (h : Fin 32) (i : Fin 2048) (k : Fin 2048) :
    idx_main_v58 (ix3 b h i) k = ix4 b h i k :=
  funext fun a => Fin.ext (by match a with | ⟨0, _⟩ => rfl | ⟨1, _⟩ => rfl | ⟨2, _⟩ => rfl | ⟨3, _⟩ => rfl)

/-- The row sums, from the initial value 0. -/
theorem v58_at (b : Fin 2) (h : Fin 32) (i : Fin 2048) :
    val_main_v58 (F := Ideal) a0 a1 a2 (ix3 b h i) = l (X a0) (FR a1) (WQ a2) b h i := by
  rw [val_main_v58_apply, val_main_cst_6_apply]
  simp only [idx_v58, v57_at]
  show Ideal.ofBits .f32 0x00000000#32 + _ = _
  rw [Ideal.ofBits_zero_f32, zero_add]
  rfl

theorem idx_v60 (b : Fin 2) (h : Fin 32) (i j : Fin 2048) :
    idx_main_v59 (idx_main_v60 (ix4 b h i j)) = ix3 b h i :=
  funext fun a => Fin.ext (by match a with | ⟨0, _⟩ => rfl | ⟨1, _⟩ => rfl | ⟨2, _⟩ => rfl)

theorem v60_at (b : Fin 2) (h : Fin 32) (i j : Fin 2048) :
    val_main_v60 (F := Ideal) a0 a1 a2 (ix4 b h i j) = l (X a0) (FR a1) (WQ a2) b h i := by
  rw [val_main_v60_apply, val_main_v59_apply, idx_v60, v58_at]

/-- The softmax. -/
theorem v61_at (b : Fin 2) (h : Fin 32) (i j : Fin 2048) :
    val_main_v61 (F := Ideal) a0 a1 a2 (ix4 b h i j) = attn (X a0) (FR a1) (WQ a2) b h i j := by
  rw [val_main_v61_apply, v57_at, v60_at]
  rfl

end Cert.ReferenceIdeal.RefValue

end
-- ==== Proof.RefOut.lean ====
/-
  The reference's attention output and output projection read at an index, and the reference's result as the
  specification: the softmax rows against v by head, transposed and reshaped back to channels (channel c is head c / 64,
  lane c % 64), then the rows against the output weights. Last, the reference's run with its result named by the
  specification.
-/
import proofs.«150253_j62079457296484_2_alg».proof.Proof.RefSoftmax

noncomputable section

open scoped BigOperators
open Idealize.ShloMosaic Idealize.ShloMosaic.ValueIdx
open Cert.ReferenceIdeal Cert.ReferenceIdeal.Gen Cert.ReferenceIdeal.Read

namespace Cert.ReferenceIdeal.RefValue

open Cert.AttnSpec Idealize.SL.Sem Idealize.ShloMosaic.TcCoe

variable (a0 : A0) (a1 : A1) (a2 : A2) (a3 : A3)

/-! ## The attention output -/

theorem lidx_v62 (b : Fin 2) (h : Fin 32) (n : Fin 2048) (d : Fin 64) (k : Fin 2048) :
    lidx_main_v62 (ix4 b h n d) k = ix4 b h n k :=
  funext fun a => Fin.ext (by match a with | ⟨0, _⟩ => rfl | ⟨1, _⟩ => rfl | ⟨2, _⟩ => rfl | ⟨3, _⟩ => rfl)

theorem ridx_v62 (b : Fin 2) (h : Fin 32) (n : Fin 2048) (d : Fin 64) (k : Fin 2048) :
    ridx_main_v62 (ix4 b h n d) k = ix4 b h k d :=
  funext fun a => Fin.ext (by match a with | ⟨0, _⟩ => rfl | ⟨1, _⟩ => rfl | ⟨2, _⟩ => rfl | ⟨3, _⟩ => rfl)

/-- The attention output by head. -/
theorem v62_at (b : Fin 2) (h : Fin 32) (n : Fin 2048) (d : Fin 64) :
    val_main_v62 (F := Ideal) a0 a1 a2 (ix4 b h n d) = oh (X a0) (FR a1) (WQ a2) b h n d := by
  rw [val_main_v62_apply]
  simp only [lidx_v62, ridx_v62, v61_at, v9_at]
  rfl

theorem idx_v64 (b : Fin 2) (n c : Fin 2048) :
    idx_main_v63 (idx_main_v64 (ix3 b n c)) = ix4 b (headOf c) n (laneOf c) := by
  have hb := b.isLt; have hn := n.isLt; have hc := c.isLt
  exact funext fun a => Fin.ext (by
    match a with
    | ⟨0, _⟩ => show ((b.val * 2048 + n.val) * 2048 + c.val) / 4194304 = b.val; omega
    | ⟨1, _⟩ => show ((b.val * 2048 + n.val) * 2048 + c.val) / 64 % 32 = c.val / 64; omega
    | ⟨2, _⟩ => show ((b.val * 2048 + n.val) * 2048 + c.val) / 2048 % 2048 = n.val; omega
    | ⟨3, _⟩ => show ((b.val * 2048 + n.val) * 2048 + c.val) % 64 = c.val % 64; omega)

/-- The attention output as channels. -/
theorem v64_at (b : Fin 2) (n c : Fin 2048) :
    val_main_v64 (F := Ideal) a0 a1 a2 (ix3 b n c) = o (X a0) (FR a1) (WQ a2) b n c := by
  rw [val_main_v64_apply, val_main_v63_apply, idx_v64, v62_at]
  rfl

/-! ## The output projection -/

theorem lidx_v65 (b : Fin 2) (n e k : Fin 2048) : lidx_main_v65 (ix3 b n e) k = ix3 b n k :=
  funext fun a => Fin.ext (by match a with | ⟨0, _⟩ => rfl | ⟨1, _⟩ => rfl | ⟨2, _⟩ => rfl)

theorem ridx_v65 (b : Fin 2) (n e k : Fin 2048) : ridx_main_v65 (ix3 b n e) k = ix2 e k :=
  funext fun a => Fin.ext (by match a with | ⟨0, _⟩ => rfl | ⟨1, _⟩ => rfl)

/-- The reference's result at (b, n, e) is the specification. -/
theorem ref_result (a0 : A0) (a1 : A1) (a2 : A2) (a3 : A3) (b : Fin 2) (n e : Fin 2048) :
    val_main_v65 (F := Ideal) a0 a1 a2 a3 (ix3 b n e)
      = G (fun b n c => a0 (ix3 b n c)) (fun n d => a1 (ix2 n d)) (fun f c => a2 (ix2 f c)) (fun e c => a3 (ix2 e c)) b n e := by
  rw [val_main_v65_apply]
  simp only [lidx_v65, ridx_v65, v64_at]
  rfl

/-- The whole result array as the specification of its coordinates. -/
theorem ref_result_fun (a0 : A0) (a1 : A1) (a2 : A2) (a3 : A3) :
    val_main_v65 (F := Ideal) a0 a1 a2 a3
      = fun i : S2x2048x2048.Idx => G (fun b n c => a0 (ix3 b n c)) (fun n d => a1 (ix2 n d)) (fun f c => a2 (ix2 f c))
          (fun e c => a3 (ix2 e c)) (i 0) (i 1) (i 2) := by
  funext i
  obtain ⟨b, n, e, rfl⟩ : ∃ (b : Fin 2) (n e : Fin 2048), i = ix3 b n e := ⟨i 0, i 1, i 2, eq_ix3 i⟩
  exact ref_result a0 a1 a2 a3 b n e

/-- The reference's run: every weakly fair execution terminates with the result array at the specification of the
    argument arrays, and the argument arrays unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65)
        = (fun i : S2x2048x2048.Idx =>
            G (fun b n k => m ((c.tc : Thread nD τ).loc main_arg0) (ix3 b n k))
              (fun n d => m ((c.tc : Thread nD τ).loc main_arg1) (ix2 n d))
              (fun f k => m ((c.tc : Thread nD τ).loc main_arg2) (ix2 f k))
              (fun e k => m ((c.tc : Thread nD τ).loc main_arg3) (ix2 e k)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h c).1.trans (val_main_v65_eq m c)).trans (ref_result_fun _ _ _ _), (h c).2⟩)
    (Cert.ReferenceIdeal.Value.run (F := Ideal) m ρ)

end Cert.ReferenceIdeal.RefValue

end
-- ==== Proof.RefValue.lean ====
/-
  The reference side, assembled for the claims: its frame (the run with the result dropped), and its run from a
  memory whose argument arrays are given arrays, with the result array named by the specification of those arrays.
-/
import proofs.«150253_j62079457296484_2_alg».proof.Defs
import proofs.«150253_j62079457296484_2_alg».proof.Proof.Gen.Pre_finite_inputs
import proofs.«150253_j62079457296484_2_alg».proof.Proof.RefOut

noncomputable section

open scoped BigOperators
open Idealize.ShloMosaic Idealize.ShloMosaic.ValueIdx
open Cert.ReferenceIdeal Cert.ReferenceIdeal.Gen Cert.ReferenceIdeal.Read

namespace Cert.ReferenceIdeal.RefValue

open Cert.AttnSpec Idealize.SL.Sem Idealize.ShloMosaic.TcCoe

/-- The reference runs to the end, faults nowhere, and leaves its argument arrays unchanged. -/
theorem frame : Cert.frame_ReferenceIdeal := fun m ρ _ =>
  (θ_run Cert.ReferenceIdeal.defs _ _).mono (fun _ h c => (h c).2) (Cert.ReferenceIdeal.Value.run (F := Ideal) m ρ)

/-- The reference's run from a memory whose argument arrays are `b0 c … b3 c`: the result array is the specification
    of those arrays, and the argument arrays are unchanged. -/
theorem run_G_of_agree (m : (ℓ : Loc nD τ sig) → Buf (Elt Ideal) ℓ) (ρ : Dev nD → PrngReg)
    (b0 : Dev nD → A0) (b1 : Dev nD → A1) (b2 : Dev nD → A2) (b3 : Dev nD → A3)
    (hag : ∀ c : Dev nD,
      m ((c.tc : Thread nD τ).loc main_arg0) = b0 c
      ∧ m ((c.tc : Thread nD τ).loc main_arg1) = b1 c
      ∧ m ((c.tc : Thread nD τ).loc main_arg2) = b2 c
      ∧ m ((c.tc : Thread nD τ).loc main_arg3) = b3 c) :
    θ_run defs (onTc (τ := τ) (main (F := Ideal))) ⟨m, fun _ => 0, ρ⟩ fun r => ∀ c : Dev nD,
      r.2.mem ((c.tc : Thread nD τ).loc main_v65)
        = (fun i : S2x2048x2048.Idx =>
            G (fun b n k => b0 c (ix3 b n k)) (fun n d => b1 c (ix2 n d)) (fun f k => b2 c (ix2 f k))
              (fun e k => b3 c (ix2 e k)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨by rw [(h c).1, (hag c).1, (hag c).2.1, (hag c).2.2.1, (hag c).2.2.2], (h c).2⟩)
    (run_G m ρ)

end Cert.ReferenceIdeal.RefValue

end
-- ==== Proof.SpecStages.lean ====
/-
  The attention stages of the specification, as functions of an ARBITRARY fused projection array and arbitrary
  rotary tables:
    qkvf : batch (2) × position (2048) × column (6144)      the fused q/k/v projection
    cs sn : position (2048) × lane (64)                      the cosine and sine tables
  Each stage is the specification's with the projection and the tables abstracted; at the specification's own
  projection and tables the two agree.
-/
import proofs.«150253_j62079457296484_2_alg».proof.Proof.Spec

noncomputable section

open scoped BigOperators
open Idealize.ShloMosaic

namespace Cert.AttnSpec.Stage

open Cert.AttnSpec

section Stages

variable (qkvf : Fin 2 → Fin 2048 → Fin 6144 → EReal) (cs sn : Fin 2048 → Fin 64 → EReal)

/-- q, k, v by head: the columns of the three thirds of the projection. -/
def qh (b : Fin 2) (h : Fin 32) (n : Fin 2048) (d : Fin 64) : EReal := qkvf b n (qcol h d)
def kh (b : Fin 2) (h : Fin 32) (n : Fin 2048) (d : Fin 64) : EReal := qkvf b n (kcol h d)
def vh (b : Fin 2) (h : Fin 32) (n : Fin 2048) (d : Fin 64) : EReal := qkvf b n (vcol h d)

/-- The rotary embedding of one head's rows against the tables. -/
def rope (t : Fin 2048 → Fin 64 → EReal) (n : Fin 2048) (d : Fin 64) : EReal :=
  t n d * cs n d + rot t n d * sn n d

/-- Rotated q and k. -/
def qr (b : Fin 2) (h : Fin 32) : Fin 2048 → Fin 64 → EReal := rope cs sn (qh qkvf b h)
def kr (b : Fin 2) (h : Fin 32) : Fin 2048 → Fin 64 → EReal := rope cs sn (kh qkvf b h)

/-- The scaled scores. -/
def score (b : Fin 2) (h : Fin 32) (i j : Fin 2048) : EReal :=
  (∑ d : Fin 64, qr qkvf cs sn b h i d * kr qkvf cs sn b h j d) * scale

/-- The row maximum, folded from ⊥. -/
def mx (b : Fin 2) (h : Fin 32) (i : Fin 2048) : EReal :=
  (Finset.univ : Finset (Fin 2048)).fold max (⊥ : EReal) (fun j => score qkvf cs sn b h i j)

/-- The exponentials, their row sums, and the softmax. -/
def p (b : Fin 2) (h : Fin 32) (i j : Fin 2048) : EReal := Ideal.exp (score qkvf cs sn b h i j - mx qkvf cs sn b h i)
def l (b : Fin 2) (h : Fin 32) (i : Fin 2048) : EReal := ∑ j : Fin 2048, p qkvf cs sn b h i j
def attn (b : Fin 2) (h : Fin 32) (i j : Fin 2048) : EReal := Ideal.div (p qkvf cs sn b h i j) (l qkvf cs sn b h i)

/-- The attention output by head, and as channels. -/
def oh (b : Fin 2) (h : Fin 32) (n : Fin 2048) (d : Fin 64) : EReal :=
  ∑ j : Fin 2048, attn qkvf cs sn b h n j * vh qkvf b h j d
def o (b : Fin 2) (n : Fin 2048) (c : Fin 2048) : EReal := oh qkvf cs sn b (headOf c) n (laneOf c)

theorem o_ocol (b : Fin 2) (n : Fin 2048) (h : Fin 32) (d : Fin 64) :
    o qkvf cs sn b n (ocol h d) = oh qkvf cs sn b h n d := by
  unfold o; rw [headOf_ocol, laneOf_ocol]

end Stages

/-! ## At the specification's projection and tables -/

section Agree

variable (x : Fin 2 → Fin 2048 → Fin 2048 → EReal) (fr : Fin 2048 → Fin 64 → EReal)
  (wq : Fin 6144 → Fin 2048 → EReal)

theorem qh_eq : Cert.AttnSpec.qh x wq = qh (qkv x wq) := rfl
theorem kh_eq : Cert.AttnSpec.kh x wq = kh (qkv x wq) := rfl
theorem vh_eq : Cert.AttnSpec.vh x wq = vh (qkv x wq) := rfl
theorem rope_eq (t : Fin 2048 → Fin 64 → EReal) : Cert.AttnSpec.rope fr t = rope (cosT fr) (sinT fr) t := rfl
theorem qr_eq : Cert.AttnSpec.qr x fr wq = qr (qkv x wq) (cosT fr) (sinT fr) := rfl
theorem kr_eq : Cert.AttnSpec.kr x fr wq = kr (qkv x wq) (cosT fr) (sinT fr) := rfl
theorem score_eq : Cert.AttnSpec.score x fr wq = score (qkv x wq) (cosT fr) (sinT fr) := rfl
theorem mx_eq : Cert.AttnSpec.mx x fr wq = mx (qkv x wq) (cosT fr) (sinT fr) := rfl
theorem p_eq : Cert.AttnSpec.p x fr wq = p (qkv x wq) (cosT fr) (sinT fr) := rfl
theorem l_eq : Cert.AttnSpec.l x fr wq = l (qkv x wq) (cosT fr) (sinT fr) := rfl
theorem attn_eq : Cert.AttnSpec.attn x fr wq = attn (qkv x wq) (cosT fr) (sinT fr) := rfl
theorem oh_eq : Cert.AttnSpec.oh x fr wq = oh (qkv x wq) (cosT fr) (sinT fr) := rfl

/-- The specification's attention output is the abstracted stages at its own projection and tables. -/
theorem o_eq : Cert.AttnSpec.o x fr wq = o (qkv x wq) (cosT fr) (sinT fr) := rfl

end Agree

end Cert.AttnSpec.Stage

end
-- ==== Proof.AttnRows.lean ====
/-
  The attention stages row by row: the rotary embedding of one row of one head, and the softmax-attention
  output of one query row against all key and value rows of its head. The stages of the specification are
  these applied at each row.
-/
import proofs.«150253_j62079457296484_2_alg».proof.Proof.SpecStages

noncomputable section

open scoped BigOperators
open Idealize.ShloMosaic

namespace Cert.AttnSpec.Stage

open Cert.AttnSpec

/-- Rotate-half of one row: the upper half negated in front of the lower half. -/
def rotRow (t : Fin 64 → EReal) (d : Fin 64) : EReal :=
  if h : d.val < 32 then -(t (laneUp d h)) else t (laneDown d h)

/-- The rotary embedding of one row against that row of the tables. -/
def ropeRow (t c s : Fin 64 → EReal) (d : Fin 64) : EReal := t d * c d + rotRow t d * s d

theorem rot_row (t : Fin 2048 → Fin 64 → EReal) (n : Fin 2048) (d : Fin 64) : rot t n d = rotRow (t n) d := rfl

theorem rope_row (cs sn t : Fin 2048 → Fin 64 → EReal) (n : Fin 2048) (d : Fin 64) :
    rope cs sn t n d = ropeRow (t n) (cs n) (sn n) d := rfl

/-- The scaled scores of one query row against every key row. -/
def scoreRow (q : Fin 64 → EReal) (k : Fin 2048 → Fin 64 → EReal) (j : Fin 2048) : EReal :=
  (∑ d : Fin 64, q d * k j d) * scale

/-- Their maximum, folded from ⊥. -/
def mxRow (q : Fin 64 → EReal) (k : Fin 2048 → Fin 64 → EReal) : EReal :=
  (Finset.univ : Finset (Fin 2048)).fold max (⊥ : EReal) (scoreRow q k)

/-- The exponentials and their sum. -/
def pRow (q : Fin 64 → EReal) (k : Fin 2048 → Fin 64 → EReal) (j : Fin 2048) : EReal :=
  Ideal.exp (scoreRow q k j - mxRow q k)
def lRow (q : Fin 64 → EReal) (k : Fin 2048 → Fin 64 → EReal) : EReal := ∑ j : Fin 2048, pRow q k j

/-- The attention output of one query row: the softmax weights against the value rows. -/
def attnRow (q : Fin 64 → EReal) (k v : Fin 2048 → Fin 64 → EReal) (d : Fin 64) : EReal :=
  ∑ j : Fin 2048, Ideal.div (pRow q k j) (lRow q k) * v j d

section Agree

variable (qkvf : Fin 2 → Fin 2048 → Fin 6144 → EReal) (cs sn : Fin 2048 → Fin 64 → EReal)

/-- The attention output of a head at a row is the row formula at the head's rotated query row, rotated keys and values. -/
theorem oh_row (b : Fin 2) (h : Fin 32) (n : Fin 2048) (d : Fin 64) :
    oh qkvf cs sn b h n d = attnRow (qr qkvf cs sn b h n) (kr qkvf cs sn b h) (vh qkvf b h) d := rfl

theorem qr_row (b : Fin 2) (h : Fin 32) (n : Fin 2048) :
    qr qkvf cs sn b h n = ropeRow (fun d => qkvf b n (qcol h d)) (cs n) (sn n) := rfl

theorem kr_row (b : Fin 2) (h : Fin 32) (n : Fin 2048) :
    kr qkvf cs sn b h n = ropeRow (fun d => qkvf b n (kcol h d)) (cs n) (sn n) := rfl

end Agree

end Cert.AttnSpec.Stage

end
-- ==== Proof.LayoutAt.lean ====
/-
  Layout and reduction operations of the attention kernel read at an index, on the extended reals: the
  rotate-half of a row, the rotary embedding of a pair of heads laid side by side, a column vector broadcast
  along the rows, and a row's maximum and sum.
-/
import proofs.«150253_j62079457296484_2_alg».proof.Proof.AttnRows
import Idealize.ShloMosaic.PureOps.Ideal.Laws
import Idealize.ShloMosaic.Lib.ValueIdx
import Idealize.ShloMosaic.Lib.ValueLayout
import Idealize.ShloMosaic.Lib.Pipeline.Value

noncomputable section

namespace Cert.LayoutAt

open Idealize.ShloMosaic Idealize.ShloMosaic.ValueIdx
open Cert.AttnSpec Cert.AttnSpec.Stage

/-! ## Rotate-half -/

/-- The rotate-half of a [R, 64] array — its upper 32 lanes subtracted from zero, laid in front of its lower 32
    lanes — at (n, d): minus the entry 32 lanes up for d < 32, the entry 32 lanes down otherwise. -/
theorem rotHalf_apply {R : Nat} (u : FVec Ideal ⟨2, ![R, 64]⟩ .f32)
    (h0 : (⟨2, ![R, 64]⟩ : Shape).Slices ![0, 0] ⟨2, ![R, 32]⟩) (h32 : (⟨2, ![R, 64]⟩ : Shape).Slices ![0, 32] ⟨2, ![R, 32]⟩)
    (hc : Shape.Concatenates [(⟨2, ![R, 32]⟩ : Shape), ⟨2, ![R, 32]⟩] ⟨2, ![R, 64]⟩ 1)
    (n : Fin R) (d : Fin 64) :
    concatenate (⟨2, ![R, 64]⟩ : Shape) 1
        [⟨⟨2, ![R, 32]⟩, subf (broadcast ⟨2, ![R, 32]⟩ (FloatOps.ofBits (F := Ideal) .f32 0x00000000#32)) (extractStridedSlice ⟨2, ![R, 32]⟩ ![0, 32] u h32)⟩,
         ⟨⟨2, ![R, 32]⟩, extractStridedSlice ⟨2, ![R, 32]⟩ ![0, 0] u h0⟩] hc (ix2 n d)
      = if h : d.val < 32 then -(u (ix2 n ⟨d.val + 32, by omega⟩)) else u (ix2 n ⟨d.val - 32, by omega⟩) := by
  by_cases h : d.val < 32
  · rw [dif_pos h]
    refine (concatenate_pair_apply_left (t := ⟨2, ![R, 64]⟩) (s₁ := ⟨2, ![R, 32]⟩) (s₂ := ⟨2, ![R, 32]⟩) (1 : Fin 2) _ _ hc (ix2 n d) rfl (ix2 n (⟨d.val, h⟩ : Fin 32))
      (fun b => by match b with | ⟨0, _⟩ => rfl | ⟨1, _⟩ => rfl)).trans ?_
    rw [subf_apply, broadcast_apply, slice2_axis1_apply 32 u h32 n (⟨d.val, h⟩ : Fin 32) (⟨d.val + 32, by omega⟩ : Fin 64) (by show d.val + 32 = 32 + d.val; omega)]
    show Ideal.ofBits .f32 0x00000000#32 - _ = _
    rw [Ideal.ofBits_zero_f32, zero_sub]
  · rw [dif_neg h]
    refine (concatenate_pair_apply_right (t := ⟨2, ![R, 64]⟩) (s₁ := ⟨2, ![R, 32]⟩) (s₂ := ⟨2, ![R, 32]⟩) (1 : Fin 2) _ _ hc (ix2 n d) rfl rfl (ix2 n (⟨d.val - 32, by omega⟩ : Fin 32))
      (fun b hb => by match b with | ⟨0, _⟩ => rfl | ⟨1, _⟩ => exact absurd rfl hb) (by show (d.val - 32) + 32 = d.val; omega)).trans ?_
    exact slice2_axis1_apply 0 u h0 n (⟨d.val - 32, by omega⟩ : Fin 32) (⟨d.val - 32, by omega⟩ : Fin 64) (by show d.val - 32 = 0 + (d.val - 32); omega)

/-- The same as the row formula of the specification. -/
theorem rotHalf_row {R : Nat} (u : FVec Ideal ⟨2, ![R, 64]⟩ .f32)
    (h0 : (⟨2, ![R, 64]⟩ : Shape).Slices ![0, 0] ⟨2, ![R, 32]⟩) (h32 : (⟨2, ![R, 64]⟩ : Shape).Slices ![0, 32] ⟨2, ![R, 32]⟩)
    (hc : Shape.Concatenates [(⟨2, ![R, 32]⟩ : Shape), ⟨2, ![R, 32]⟩] ⟨2, ![R, 64]⟩ 1)
    (n : Fin R) (d : Fin 64) :
    concatenate (⟨2, ![R, 64]⟩ : Shape) 1
        [⟨⟨2, ![R, 32]⟩, subf (broadcast ⟨2, ![R, 32]⟩ (FloatOps.ofBits (F := Ideal) .f32 0x00000000#32)) (extractStridedSlice ⟨2, ![R, 32]⟩ ![0, 32] u h32)⟩,
         ⟨⟨2, ![R, 32]⟩, extractStridedSlice ⟨2, ![R, 32]⟩ ![0, 0] u h0⟩] hc (ix2 n d)
      = rotRow (fun d' => u (ix2 n d')) d :=
  rotHalf_apply u h0 h32 hc n d

/-! ## The rotary embedding -/

/-- One head's rows times the cosines plus their rotate-half times the sines, at (n, d): the row formula. -/
theorem ropeHead_apply {R : Nat} (u C S : FVec Ideal ⟨2, ![R, 64]⟩ .f32)
    (h0 : (⟨2, ![R, 64]⟩ : Shape).Slices ![0, 0] ⟨2, ![R, 32]⟩) (h32 : (⟨2, ![R, 64]⟩ : Shape).Slices ![0, 32] ⟨2, ![R, 32]⟩)
    (hc : Shape.Concatenates [(⟨2, ![R, 32]⟩ : Shape), ⟨2, ![R, 32]⟩] ⟨2, ![R, 64]⟩ 1)
    (n : Fin R) (d : Fin 64) :
    addf (mulf u C) (mulf (concatenate (⟨2, ![R, 64]⟩ : Shape) 1
        [⟨⟨2, ![R, 32]⟩, subf (broadcast ⟨2, ![R, 32]⟩ (FloatOps.ofBits (F := Ideal) .f32 0x00000000#32)) (extractStridedSlice ⟨2, ![R, 32]⟩ ![0, 32] u h32)⟩,
         ⟨⟨2, ![R, 32]⟩, extractStridedSlice ⟨2, ![R, 32]⟩ ![0, 0] u h0⟩] hc) S) (ix2 n d)
      = ropeRow (fun d' => u (ix2 n d')) (fun d' => C (ix2 n d')) (fun d' => S (ix2 n d')) d := by
  rw [addf_apply, mulf_apply, mulf_apply, rotHalf_row]
  rfl

/-- Two heads side by side in a [R, 128] array, each embedded on its own 64 lanes and the results laid side by
    side again: at (n, hh·64 + d) the row formula on head hh's lanes. -/
theorem ropePair_apply {R : Nat} (X : FVec Ideal ⟨2, ![R, 128]⟩ .f32) (C S : FVec Ideal ⟨2, ![R, 64]⟩ .f32)
    (g0 : (⟨2, ![R, 128]⟩ : Shape).Slices ![0, 0] ⟨2, ![R, 64]⟩) (g64 : (⟨2, ![R, 128]⟩ : Shape).Slices ![0, 64] ⟨2, ![R, 64]⟩)
    (h0 : (⟨2, ![R, 64]⟩ : Shape).Slices ![0, 0] ⟨2, ![R, 32]⟩) (h32 : (⟨2, ![R, 64]⟩ : Shape).Slices ![0, 32] ⟨2, ![R, 32]⟩)
    (hc : Shape.Concatenates [(⟨2, ![R, 32]⟩ : Shape), ⟨2, ![R, 32]⟩] ⟨2, ![R, 64]⟩ 1)
    (hcc : Shape.Concatenates [(⟨2, ![R, 64]⟩ : Shape), ⟨2, ![R, 64]⟩] ⟨2, ![R, 128]⟩ 1)
    (n : Fin R) (hh : Fin 2) (d : Fin 64) :
    concatenate (⟨2, ![R, 128]⟩ : Shape) 1
        [⟨⟨2, ![R, 64]⟩, addf (mulf (extractStridedSlice ⟨2, ![R, 64]⟩ ![0, 0] X g0) C) (mulf (concatenate (⟨2, ![R, 64]⟩ : Shape) 1
            [⟨⟨2, ![R, 32]⟩, subf (broadcast ⟨2, ![R, 32]⟩ (FloatOps.ofBits (F := Ideal) .f32 0x00000000#32)) (extractStridedSlice ⟨2, ![R, 32]⟩ ![0, 32] (extractStridedSlice ⟨2, ![R, 64]⟩ ![0, 0] X g0) h32)⟩,
             ⟨⟨2, ![R, 32]⟩, extractStridedSlice ⟨2, ![R, 32]⟩ ![0, 0] (extractStridedSlice ⟨2, ![R, 64]⟩ ![0, 0] X g0) h0⟩] hc) S)⟩,
         ⟨⟨2, ![R, 64]⟩, addf (mulf (extractStridedSlice ⟨2, ![R, 64]⟩ ![0, 64] X g64) C) (mulf (concatenate (⟨2, ![R, 64]⟩ : Shape) 1
            [⟨⟨2, ![R, 32]⟩, subf (broadcast ⟨2, ![R, 32]⟩ (FloatOps.ofBits (F := Ideal) .f32 0x00000000#32)) (extractStridedSlice ⟨2, ![R, 32]⟩ ![0, 32] (extractStridedSlice ⟨2, ![R, 64]⟩ ![0, 64] X g64) h32)⟩,
             ⟨⟨2, ![R, 32]⟩, extractStridedSlice ⟨2, ![R, 32]⟩ ![0, 0] (extractStridedSlice ⟨2, ![R, 64]⟩ ![0, 64] X g64) h0⟩] hc) S)⟩] hcc
        (ix2 n (⟨hh.val * 64 + d.val, by omega⟩ : Fin 128))
      = ropeRow (fun d' => X (ix2 n (⟨hh.val * 64 + d'.val, by omega⟩ : Fin 128))) (fun d' => C (ix2 n d')) (fun d' => S (ix2 n d')) d := by
  match hh with
  | ⟨0, _⟩ =>
    refine (concatenate_pair_apply_left (t := ⟨2, ![R, 128]⟩) (s₁ := ⟨2, ![R, 64]⟩) (s₂ := ⟨2, ![R, 64]⟩) (1 : Fin 2) _ _ hcc _ rfl (ix2 n d)
      (fun b => by match b with | ⟨0, _⟩ => rfl | ⟨1, _⟩ => show d.val = 0 * 64 + d.val; omega)).trans ?_
    refine (ropeHead_apply _ C S h0 h32 hc n d).trans ?_
    refine congrArg (fun t => ropeRow t (fun d' => C (ix2 n d')) (fun d' => S (ix2 n d')) d) (funext fun d' => ?_)
    exact slice2_axis1_apply 0 X g0 n d' _ (by show 0 * 64 + d'.val = 0 + d'.val; omega)
  | ⟨1, _⟩ =>
    refine (concatenate_pair_apply_right (t := ⟨2, ![R, 128]⟩) (s₁ := ⟨2, ![R, 64]⟩) (s₂ := ⟨2, ![R, 64]⟩) (1 : Fin 2) _ _ hcc _ rfl rfl (ix2 n d)
      (fun b hb => by match b with | ⟨0, _⟩ => rfl | ⟨1, _⟩ => exact absurd rfl hb) (by show d.val + 64 = 1 * 64 + d.val; omega)).trans ?_
    refine (ropeHead_apply _ C S h0 h32 hc n d).trans ?_
    refine congrArg (fun t => ropeRow t (fun d' => C (ix2 n d')) (fun d' => S (ix2 n d')) d) (funext fun d' => ?_)
    exact slice2_axis1_apply 64 X g64 n d' _ (by show 1 * 64 + d'.val = 64 + d'.val; omega)

/-! ## A column broadcast along the rows -/

/-- A length-a vector made a column and broadcast to [a, b] reads, at (r, j), the vector at r. -/
theorem colBroadcast_apply {α : Type} {a b : Nat} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (r : Fin a) (j : Fin b) :
    broadcastTo (⟨2, ![a, b]⟩ : Shape) (shapeCast (⟨2, ![a, 1]⟩ : Shape) v h1) h2 (ix2 r j) = v (ix1 r) := by
  refine (broadcastTo_apply _ h2 (ix2 r j) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply v h1 _ _ (by
      rw [Shape.rowMajor_val_one, Shape.rowMajor_val_two]
      show r.val = r.val * 1 + 0
      omega)

/-! ## A row's maximum and sum -/

/-- The index over row r with coordinate k inserted on the reduced (second) axis is (r, k). -/
theorem lift_row {a b : Nat} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The maximum along the rows of a [a, b] array from the accumulator's value, at r: the fold of max over row r. -/
theorem rowMax_apply {a b : Nat} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (r : Fin a) :
    multiReduction .maximumf [1] (⟨1, ![a]⟩ : Shape) src acc h hφ hacc (ix1 r)
      = (Finset.univ : Finset (Fin b)).fold max (Ideal.ofBits .f32 acc) (fun k => src (ix2 r k)) := by
  refine (Ideal.multiReduction_maximumf_single src acc h hφ hacc (ix1 r)).trans ?_
  have e : (src ∘ h.lift (ix1 r)) = fun k : Fin b => src (ix2 r k) := funext fun k => congrArg src (lift_row h r k)
  rw [e]
  rfl

/-- The sum along the rows, at r: the sum over row r. -/
theorem rowSum_apply {a b : Nat} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  exact Finset.sum_congr rfl fun k _ => congrArg src (lift_row h r k)

end Cert.LayoutAt

end
-- ==== Proof.AttnHead.lean ====
/-
  One head of the attention kernel on the extended reals: the scaled scores of a tile of 512 query rows against
  2048 key rows, their softmax along each row, and the weighted sum of the value rows, read entry by entry as the
  row formula of the specification.
-/
import proofs.«150253_j62079457296484_2_alg».proof.Proof.Gen.KernelIdeal
import proofs.«150253_j62079457296484_2_alg».proof.Proof.LayoutAt

set_option maxRecDepth 16384

noncomputable section

namespace Cert.KernelIdeal.Hand

open Cert.KernelIdeal Cert.KernelIdeal.Gen
open Idealize.ShloMosaic Idealize.ShloMosaic.ValueIdx
open Cert.AttnSpec Cert.AttnSpec.Stage Cert.LayoutAt

/-! ## The two products' operand indices -/

local notation "𝔻qk" => dot_S512x64_S2048x64_S512x2048_1_1_0_0_n_n
local notation "𝔻av" => dot_S512x2048_S2048x64_S512x64_1_0_0_1_n_n

theorem qk_lhs_0 (i : S512x2048.Idx) (q : (𝔻qk).contr.Idx) : ((𝔻qk).lhsIdx i q 0).val = (i 0).val := by
  unfold DotDims.lhsIdx
  rw [dif_neg (show ¬(0 : Fin S512x64.rank) ∈ (𝔻qk).lhsBatch by decide), dif_pos (show (0 : Fin S512x64.rank) ∈ (𝔻qk).lhsNonContracting by decide)]
  rfl
theorem qk_lhs_1 (i : S512x2048.Idx) (q : (𝔻qk).contr.Idx) : ((𝔻qk).lhsIdx i q 1).val = (q ⟨0, by decide⟩).val :=
  (𝔻qk).lhsIdx_val_of_single rfl i q
theorem qk_rhs_0 (i : S512x2048.Idx) (q : (𝔻qk).contr.Idx) : ((𝔻qk).rhsIdx i q 0).val = (i 1).val := by
  unfold DotDims.rhsIdx
  rw [dif_neg (show ¬(0 : Fin S2048x64.rank) ∈ (𝔻qk).rhsBatch by decide), dif_pos (show (0 : Fin S2048x64.rank) ∈ (𝔻qk).rhsNonContracting by decide)]
  rfl
theorem qk_rhs_1 (i : S512x2048.Idx) (q : (𝔻qk).contr.Idx) : ((𝔻qk).rhsIdx i q 1).val = (q ⟨0, by decide⟩).val :=
  (𝔻qk).rhsIdx_val_of_single rfl i q

/-- Queries times keys, both contracted over their lanes: entry (r, j) is the dot product of query row r and key row j. -/
theorem matmul_qk (Q : FVec Ideal S512x64 .bf16) (K : FVec Ideal S2048x64 .bf16) (r : Fin 512) (j : Fin 2048) :
    FloatOps.matmul (F := Ideal) 𝔻qk none Q K (constant (F := Ideal) S512x2048 .f32 0x00000000#32) (ix2 r j)
      = ∑ d : Fin 64, Q (ix2 r d) * K (ix2 j d) := by
  rw [Ideal.matmul_constant_zero_apply, ← Equiv.sum_comp (contrEquiv1 𝔻qk 64 rfl rfl).symm]
  refine Finset.sum_congr rfl fun k _ => ?_
  have hk := contrEquiv1_symm_val 𝔻qk 64 rfl rfl k
  have el : (𝔻qk).lhsIdx (ix2 r j) ((contrEquiv1 𝔻qk 64 rfl rfl).symm k) = ix2 r k := funext fun x => Fin.ext (by
    match x with
    | ⟨0, _⟩ => exact qk_lhs_0 _ _
    | ⟨1, _⟩ => exact (qk_lhs_1 _ _).trans hk)
  have er : (𝔻qk).rhsIdx (ix2 r j) ((contrEquiv1 𝔻qk 64 rfl rfl).symm k) = ix2 j k := funext fun x => Fin.ext (by
    match x with
    | ⟨0, _⟩ => exact qk_rhs_0 _ _
    | ⟨1, _⟩ => exact (qk_rhs_1 _ _).trans hk)
  rw [el, er]

theorem av_lhs_0 (i : S512x64.Idx) (q : (𝔻av).contr.Idx) : ((𝔻av).lhsIdx i q 0).val = (i 0).val := by
  unfold DotDims.lhsIdx
  rw [dif_neg (show ¬(0 : Fin S512x2048.rank) ∈ (𝔻av).lhsBatch by decide), dif_pos (show (0 : Fin S512x2048.rank) ∈ (𝔻av).lhsNonContracting by decide)]
  rfl
theorem av_lhs_1 (i : S512x64.Idx) (q : (𝔻av).contr.Idx) : ((𝔻av).lhsIdx i q 1).val = (q ⟨0, by decide⟩).val :=
  (𝔻av).lhsIdx_val_of_single rfl i q
theorem av_rhs_0 (i : S512x64.Idx) (q : (𝔻av).contr.Idx) : ((𝔻av).rhsIdx i q 0).val = (q ⟨0, by decide⟩).val :=
  (𝔻av).rhsIdx_val_of_single rfl i q
theorem av_rhs_1 (i : S512x64.Idx) (q : (𝔻av).contr.Idx) : ((𝔻av).rhsIdx i q 1).val = (i 1).val := by
  unfold DotDims.rhsIdx
  rw [dif_neg (show ¬(1 : Fin S2048x64.rank) ∈ (𝔻av).rhsBatch by decide), dif_pos (show (1 : Fin S2048x64.rank) ∈ (𝔻av).rhsNonContracting by decide)]
  rfl

/-- Weights times values, the plain matrix product: entry (r, d) sums over the key positions. -/
theorem matmul_av (A : FVec Ideal S512x2048 .bf16) (Vv : FVec Ideal S2048x64 .bf16) (r : Fin 512) (d : Fin 64) :
    FloatOps.matmul (F := Ideal) 𝔻av none A Vv (constant (F := Ideal) S512x64 .f32 0x00000000#32) (ix2 r d)
      = ∑ j : Fin 2048, A (ix2 r j) * Vv (ix2 j d) := by
  rw [Ideal.matmul_constant_zero_apply, ← Equiv.sum_comp (contrEquiv1 𝔻av 2048 rfl rfl).symm]
  refine Finset.sum_congr rfl fun k _ => ?_
  have hk := contrEquiv1_symm_val 𝔻av 2048 rfl rfl k
  have el : (𝔻av).lhsIdx (ix2 r d) ((contrEquiv1 𝔻av 2048 rfl rfl).symm k) = ix2 r k := funext fun x => Fin.ext (by
    match x with
    | ⟨0, _⟩ => exact av_lhs_0 _ _
    | ⟨1, _⟩ => exact (av_lhs_1 _ _).trans hk)
  have er : (𝔻av).rhsIdx (ix2 r d) ((contrEquiv1 𝔻av 2048 rfl rfl).symm k) = ix2 k d := funext fun x => Fin.ext (by
    match x with
    | ⟨0, _⟩ => exact (av_rhs_0 _ _).trans hk
    | ⟨1, _⟩ => exact av_rhs_1 _ _)
  rw [el, er]

/-! ## The stages of one head -/

/-- The scaled scores. -/
def scoresK (Q : FVec Ideal S512x64 .bf16) (K : FVec Ideal S2048x64 .bf16) : FVec Ideal S512x2048 .f32 :=
  mulf (matmul 𝔻qk none Q K (constant S512x2048 .f32 0x00000000#32)) (broadcast S512x2048 (Scalar.ofBits .f32 0x3E000000#32))

/-- Each row's maximum, broadcast along the row. -/
def rowMaxK (s : FVec Ideal S512x2048 .f32) : FVec Ideal S512x2048 .f32 :=
  broadcastTo S512x2048 (shapeCast S512x1 (multiReduction .maximumf [1] S512 s 0xFF800000#32 reduces_S512x2048_S512 (.inl rfl) rfl) shapeCasts_S512_S512x1) broadcasts_S512x1_S512x2048

/-- The exponentials of the scores less their row maxima. -/
def expsK (s : FVec Ideal S512x2048 .f32) : FVec Ideal S512x2048 .f32 := exp (subf s (rowMaxK s))

/-- Each row's sum, broadcast along the row. -/
def rowSumK (e : FVec Ideal S512x2048 .f32) : FVec Ideal S512x2048 .f32 :=
  broadcastTo S512x2048 (shapeCast S512x1 (multiReduction .add [1] S512 e 0x00000000#32 reduces_S512x2048_S512 (.inl rfl) rfl) shapeCasts_S512_S512x1) broadcasts_S512x1_S512x2048

/-- The softmax weights. -/
def weightsK (e : FVec Ideal S512x2048 .f32) : FVec Ideal S512x2048 .bf16 := truncf .bf16 (divf e (rowSumK e)) bitsLt_bf16_f32

/-- One head's output tile. -/
def headK (Q : FVec Ideal S512x64 .bf16) (K Vv : FVec Ideal S2048x64 .bf16) : FVec Ideal S512x64 .f32 :=
  matmul 𝔻av none (weightsK (expsK (scoresK Q K))) Vv (constant S512x64 .f32 0x00000000#32)

theorem ofBits_neg_inf : Ideal.ofBits .f32 0xFF800000#32 = (⊥ : EReal) := by simp [Ideal.ofBits, Ideal.ieee]

theorem scoresK_apply (Q : FVec Ideal S512x64 .bf16) (K : FVec Ideal S2048x64 .bf16) (r : Fin 512) (j : Fin 2048) :
    scoresK Q K (ix2 r j) = scoreRow (fun d => Q (ix2 r d)) (fun j d => K (ix2 j d)) j := by
  unfold scoresK
  rw [mulf_apply, broadcast_apply]
  exact congrArg (· * scale) (matmul_qk Q K r j)

theorem rowMaxK_apply (s : FVec Ideal S512x2048 .f32) (r : Fin 512) (j : Fin 2048) :
    rowMaxK s (ix2 r j) = (Finset.univ : Finset (Fin 2048)).fold max (⊥ : EReal) (fun k => s (ix2 r k)) := by
  unfold rowMaxK
  rw [colBroadcast_apply]
  refine (rowMax_apply s _ _ _ _ r).trans ?_
  rw [ofBits_neg_inf]

theorem expsK_apply (s : FVec Ideal S512x2048 .f32) (r : Fin 512) (j : Fin 2048) :
    expsK s (ix2 r j) = Ideal.exp (s (ix2 r j) - (Finset.univ : Finset (Fin 2048)).fold max (⊥ : EReal) (fun k => s (ix2 r k))) := by
  unfold expsK
  show Ideal.exp (subf s (rowMaxK s) (ix2 r j)) = _
  rw [subf_apply, rowMaxK_apply]

theorem rowSumK_apply (e : FVec Ideal S512x2048 .f32) (r : Fin 512) (j : Fin 2048) :
    rowSumK e (ix2 r j) = ∑ k : Fin 2048, e (ix2 r k) := by
  unfold rowSumK
  rw [colBroadcast_apply]
  exact rowSum_apply e _ _ _ _ r

theorem weightsK_apply (e : FVec Ideal S512x2048 .f32) (r : Fin 512) (j : Fin 2048) :
    weightsK e (ix2 r j) = Ideal.div (e (ix2 r j)) (∑ k : Fin 2048, e (ix2 r k)) := by
  unfold weightsK
  rw [truncf_apply, divf_apply, rowSumK_apply]

/-- One head's output at (r, d): the row formula of the specification at query row r against the key rows and the value rows. -/
theorem headK_apply (Q : FVec Ideal S512x64 .bf16) (K Vv : FVec Ideal S2048x64 .bf16) (r : Fin 512) (d : Fin 64) :
    headK Q K Vv (ix2 r d) = attnRow (fun d' => Q (ix2 r d')) (fun j d' => K (ix2 j d')) (fun j d' => Vv (ix2 j d')) d := by
  have hs : ∀ j' : Fin 2048, scoresK Q K (ix2 r j') = scoreRow (fun d' => Q (ix2 r d')) (fun j d' => K (ix2 j d')) j' :=
    fun j' => scoresK_apply Q K r j'
  have he : ∀ j' : Fin 2048, expsK (scoresK Q K) (ix2 r j') = pRow (fun d' => Q (ix2 r d')) (fun j d' => K (ix2 j d')) j' := by
    intro j'
    rw [expsK_apply, hs j', show (fun k => scoresK Q K (ix2 r k)) = scoreRow (fun d' => Q (ix2 r d')) (fun j d' => K (ix2 j d')) from funext hs]
    rfl
  unfold headK
  refine (matmul_av _ Vv r d).trans ?_
  unfold attnRow
  refine Finset.sum_congr rfl fun j _ => ?_
  rw [weightsK_apply, he j, show (fun k => expsK (scoresK Q K) (ix2 r k)) = pRow (fun d' => Q (ix2 r d')) (fun j d' => K (ix2 j d')) from funext he]
  rfl

end Cert.KernelIdeal.Hand

end
-- ==== Proof.AttnPayload.lean ====
/-
  The attention kernel's named values on the extended reals, entry by entry: the rotated keys of a pair of
  heads, the rotated query tile, the slices handed to the two heads, and the output tile — each as the row
  formulas of the specification on the lanes of its head.
-/
import proofs.«150253_j62079457296484_2_alg».proof.Proof.Region1
import proofs.«150253_j62079457296484_2_alg».proof.Proof.AttnHead

set_option maxRecDepth 16384

noncomputable section

namespace Cert.KernelIdeal.Hand

open Cert.KernelIdeal Cert.KernelIdeal.Gen
open Idealize.ShloMosaic Idealize.ShloMosaic.ValueIdx
open Cert.AttnSpec Cert.AttnSpec.Stage Cert.LayoutAt

/-- Lane d of head hh of a pair, as a column of the pair's 128 lanes. -/
abbrev pairCol (hh : Fin 2) (d : Fin 64) : Fin 128 := ⟨hh.val * 64 + d.val, by omega⟩

/-! ## The rotated keys and the rotated query tile -/

/-- The rotated keys of a head pair at (n, hh·64 + d): the rotary row formula on head hh's lanes of key row n. -/
theorem k1_pay2_apply (v75 : Vec Ideal S1x2048x128 .f32) (v77 v79 : Vec Ideal S2048x64 .f32) (n : Fin 2048) (hh : Fin 2) (d : Fin 64) :
    k1_pay2 (F := Ideal) v75 v77 v79 (ix2 n (pairCol hh d))
      = ropeRow (fun d' => v75 (ix3 (0 : Fin 1) n (pairCol hh d'))) (fun d' => v77 (ix2 n d')) (fun d' => v79 (ix2 n d')) d := by
  unfold k1_pay2
  rw [shapeCast_self, shapeCast_self, shapeCast_self]
  rw [truncf_apply]
  refine (ropePair_apply (R := 2048) (shapeCast S2048x128 v75 shapeCasts_S1x2048x128_S2048x128) v77 v79 _ _ _ _ _ _ n hh d).trans ?_
  refine congrArg (fun t => ropeRow t (fun d' => v77 (ix2 n d')) (fun d' => v79 (ix2 n d')) d) (funext fun d' => ?_)
  exact shapeCast_1ab_ab_apply v75 _ n _

/-- The rotated query tile at (r, hh·64 + d): the same on head hh's lanes of query row r, against the tile's rows of the tables. -/
theorem k1_pay3_apply (v5 : Vec Ideal S1x512x128 .f32) (v8 v11 : Vec Ideal S512x64 .f32) (r : Fin 512) (hh : Fin 2) (d : Fin 64) :
    k1_pay3 (F := Ideal) v5 v8 v11 (ix2 r (pairCol hh d))
      = ropeRow (fun d' => v5 (ix3 (0 : Fin 1) r (pairCol hh d'))) (fun d' => v8 (ix2 r d')) (fun d' => v11 (ix2 r d')) d := by
  unfold k1_pay3
  rw [shapeCast_self, shapeCast_self]
  rw [truncf_apply]
  refine (ropePair_apply (R := 512) (shapeCast S512x128 v5 shapeCasts_S1x512x128_S512x128) v8 v11 _ _ _ _ _ _ r hh d).trans ?_
  refine congrArg (fun t => ropeRow t (fun d' => v8 (ix2 r d')) (fun d' => v11 (ix2 r d')) d) (funext fun d' => ?_)
  exact shapeCast_1ab_ab_apply v5 _ r _

/-- Head 0's rotated queries. -/
theorem k1_pay4_apply (v5 : Vec Ideal S1x512x128 .f32) (v8 v11 : Vec Ideal S512x64 .f32) (r : Fin 512) (d : Fin 64) :
    k1_pay4 (F := Ideal) v5 v8 v11 (ix2 r d)
      = ropeRow (fun d' => v5 (ix3 (0 : Fin 1) r (pairCol 0 d'))) (fun d' => v8 (ix2 r d')) (fun d' => v11 (ix2 r d')) d := by
  unfold k1_pay4
  refine (slice2_axis1_apply 0 _ _ r d (pairCol 0 d) (by show 0 * 64 + d.val = 0 + d.val; omega)).trans ?_
  exact k1_pay3_apply v5 v8 v11 r 0 d

/-- Head 1's rotated queries. -/
theorem k1_pay5_apply (v5 : Vec Ideal S1x512x128 .f32) (v8 v11 : Vec Ideal S512x64 .f32) (r : Fin 512) (d : Fin 64) :
    k1_pay5 (F := Ideal) v5 v8 v11 (ix2 r d)
      = ropeRow (fun d' => v5 (ix3 (0 : Fin 1) r (pairCol 1 d'))) (fun d' => v8 (ix2 r d')) (fun d' => v11 (ix2 r d')) d := by
  unfold k1_pay5
  refine (slice2_axis1_apply 64 _ _ r d (pairCol 1 d) (by show 1 * 64 + d.val = 64 + d.val; omega)).trans ?_
  exact k1_pay3_apply v5 v8 v11 r 1 d

/-- The two heads' rotated keys, read back from the scratch. -/
theorem k1_pay6_apply (v33 : Vec Ideal S2048x128 .bf16) (j : Fin 2048) (d : Fin 64) :
    k1_pay6 (F := Ideal) v33 (ix2 j d) = v33 (ix2 j (pairCol 0 d)) := by
  unfold k1_pay6
  exact slice2_axis1_apply 0 _ _ j d (pairCol 0 d) (by show 0 * 64 + d.val = 0 + d.val; omega)

theorem k1_pay7_apply (v33 : Vec Ideal S2048x128 .bf16) (j : Fin 2048) (d : Fin 64) :
    k1_pay7 (F := Ideal) v33 (ix2 j d) = v33 (ix2 j (pairCol 1 d)) := by
  unfold k1_pay7
  exact slice2_axis1_apply 64 _ _ j d (pairCol 1 d) (by show 1 * 64 + d.val = 64 + d.val; omega)

/-- The values of the head pair. -/
theorem k1_pay8_apply (v38 : Vec Ideal S1x2048x128 .f32) (j : Fin 2048) (c : Fin 128) :
    k1_pay8 (F := Ideal) v38 (ix2 j c) = v38 (ix3 (0 : Fin 1) j c) := by
  unfold k1_pay8
  rw [truncf_apply]
  exact shapeCast_1ab_ab_apply v38 _ j c

/-! ## The output tile -/

/-- The output tile is the two heads' tiles side by side, with a unit axis in front. -/
theorem k1_pay1_eq (v34 v35 : FVec Ideal S512x64 .bf16) (v36 v37 : FVec Ideal S2048x64 .bf16) (v40 : FVec Ideal S2048x128 .bf16) :
    k1_pay1 (F := Ideal) v34 v35 v36 v37 v40
      = shapeCast S1x512x128 (concatenate S512x128 1
          [⟨S512x64, headK v34 v36 (extractStridedSlice S2048x64 ![0, 0] v40 slices_S2048x128_o0_0_S2048x64)⟩,
           ⟨S512x64, headK v35 v37 (extractStridedSlice S2048x64 ![0, 64] v40 slices_S2048x128_o0_64_S2048x64)⟩]
          concatenates_S512x64_S512x64_S512x128_d1) shapeCasts_S512x128_S1x512x128 := rfl

/-- The output tile at (0, r, hh·64 + d): the attention row formula of head hh — its rotated query row r, its
    rotated key rows, its value rows. -/
theorem k1_pay1_apply (v34 v35 : FVec Ideal S512x64 .bf16) (v36 v37 : FVec Ideal S2048x64 .bf16) (v40 : FVec Ideal S2048x128 .bf16)
    (r : Fin 512) (hh : Fin 2) (d : Fin 64) :
    k1_pay1 (F := Ideal) v34 v35 v36 v37 v40 (ix3 (0 : Fin 1) r (pairCol hh d))
      = attnRow (fun d' => (if hh.val = 0 then v34 else v35) (ix2 r d')) (fun j d' => (if hh.val = 0 then v36 else v37) (ix2 j d'))
          (fun j d' => v40 (ix2 j (pairCol hh d'))) d := by
  rw [k1_pay1_eq, shapeCast_ab_1ab_apply]
  match hh with
  | ⟨0, _⟩ =>
    refine (concatenate_pair_apply_left (t := S512x128) (s₁ := S512x64) (s₂ := S512x64) (1 : Fin 2) _ _ _ _ rfl (ix2 r d)
      (fun b => by match b with | ⟨0, _⟩ => rfl | ⟨1, _⟩ => show d.val = 0 * 64 + d.val; omega)).trans ?_
    refine (headK_apply v34 v36 _ r d).trans ?_
    refine congrArg (fun vv => attnRow (fun d' => v34 (ix2 r d')) (fun j d' => v36 (ix2 j d')) vv d) (funext fun j => funext fun d' => ?_)
    exact slice2_axis1_apply 0 v40 _ j d' _ (by show 0 * 64 + d'.val = 0 + d'.val; omega)
  | ⟨1, _⟩ =>
    refine (concatenate_pair_apply_right (t := S512x128) (s₁ := S512x64) (s₂ := S512x64) (1 : Fin 2) _ _ _ _ rfl rfl (ix2 r d)
      (fun b hb => by match b with | ⟨0, _⟩ => rfl | ⟨1, _⟩ => exact absurd rfl hb) (by show d.val + 64 = 1 * 64 + d.val; omega)).trans ?_
    refine (headK_apply v35 v37 _ r d).trans ?_
    refine congrArg (fun vv => attnRow (fun d' => v35 (ix2 r d')) (fun j d' => v37 (ix2 j d')) vv d) (funext fun j => funext fun d' => ?_)
    exact slice2_axis1_apply 64 v40 _ j d' _ (by show 1 * 64 + d'.val = 64 + d'.val; omega)

end Cert.KernelIdeal.Hand

end
-- ==== Proof.AttnEntry.lean ====
/-
  An entry of the attention kernel's output tile at one grid point, on the extended reals, as the
  specification's attention output: given that the point's query, key and value blocks are the blocks of a fused
  projection array belonging to one batch entry, one query tile and one pair of heads, and that the tables the
  point reads are the cosine and sine tables.
-/
import proofs.«150253_j62079457296484_2_alg».proof.Proof.AttnPayload

set_option maxRecDepth 16384

noncomputable section

namespace Cert.KernelIdeal.Hand

open Cert.KernelIdeal Cert.KernelIdeal.Gen
open Idealize.ShloMosaic Idealize.ShloMosaic.ValueIdx
open Cert.AttnSpec Cert.AttnSpec.Stage Cert.LayoutAt

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

/-- Row r of query tile qi, as a row of the 2048 positions. -/
abbrev tileRow (qi : Fin 4) (r : Fin 512) : Fin 2048 := ⟨qi.val * 512 + r.val, by omega⟩

/-- The 512 table rows the point loads are the rows of its query tile. -/
theorem ld_tile (i : grid1.Coords) (qi : Fin 4) (hoff : k1_off1 i = ![qi.val * 512, 0]) (X : Vec Ideal S2048x64 .f32) (r : Fin 512) (d : Fin 64) :
    View.ld X (rC i) (ix2 r d) = X (ix2 (tileRow qi r) d) := by
  show X ((rC i).idx (ix2 r d)) = _
  refine congrArg X (funext fun a => Fin.ext ?_)
  match a with
  | ⟨0, _⟩ =>
    show k1_off1 i 0 + 1 * r.val = qi.val * 512 + r.val
    rw [hoff]; show qi.val * 512 + 1 * r.val = _; omega
  | ⟨1, _⟩ =>
    show k1_off1 i 1 + 1 * d.val = d.val
    rw [hoff]; show 0 + 1 * d.val = _; omega

/-- What the scratch holds: at (n, hh·64 + d) the rotary row formula on head hh's lanes of key row n. -/
theorem kRope_apply (x1 : Vec Ideal S1x2048x128 .f32) (x3 x4 : Vec Ideal S2048x64 .f32) (n : Fin 2048) (hh : Fin 2) (d : Fin 64) :
    kRope (F := Ideal) x1 x3 x4 (ix2 n (pairCol hh d))
      = ropeRow (fun d' => x1 (ix3 (0 : Fin 1) n (pairCol hh d'))) (fun d' => x3 (ix2 n d')) (fun d' => x4 (ix2 n d')) d := by
  unfold kRope
  rw [View.canon_unit_zero zeros2, View.ld_unit_zero (S := S1x2048x128) zeros3]
  simp only [View.ld_unit_zero (S := S2048x64) zeros2]
  exact k1_pay2_apply x1 x3 x4 n hh d

/-- The output tile at (0, r, hh·64 + d): the attention row formula of head hh, its query row r rotated against the
    tile's rows of the tables, against the scratch's rows and the value rows. -/
theorem attnOut_apply (i : grid1.Coords) (x0 : Vec Ideal S1x512x128 .f32) (x2 : Vec Ideal S1x2048x128 .f32) (x3 x4 : Vec Ideal S2048x64 .f32)
    (s : Vec Ideal S2048x128 .bf16) (qi : Fin 4) (hoff : k1_off1 i = ![qi.val * 512, 0]) (r : Fin 512) (hh : Fin 2) (d : Fin 64) :
    attnOut (F := Ideal) i x0 x2 x3 x4 s (ix3 (0 : Fin 1) r (pairCol hh d))
      = attnRow (ropeRow (fun d' => x0 (ix3 (0 : Fin 1) r (pairCol hh d'))) (fun d' => x3 (ix2 (tileRow qi r) d')) (fun d' => x4 (ix2 (tileRow qi r) d')))
          (fun j d' => s (ix2 j (pairCol hh d')))
          (fun j d' => x2 (ix3 (0 : Fin 1) j (pairCol hh d'))) d := by
  unfold attnOut
  rw [View.canon_unit_zero zeros3]
  simp only [View.ld_unit_zero (S := S1x512x128) zeros3, View.ld_unit_zero (S := S2048x128) zeros2, View.ld_unit_zero (S := S1x2048x128) zeros3]
  rw [k1_pay1_apply]
  have eq : (fun d' => (if hh.val = 0 then k1_pay4 (F := Ideal) x0 (View.ld x3 (rC i)) (View.ld x4 (rC i)) else k1_pay5 (F := Ideal) x0 (View.ld x3 (rC i)) (View.ld x4 (rC i))) (ix2 r d'))
      = ropeRow (fun d' => x0 (ix3 (0 : Fin 1) r (pairCol hh d'))) (fun d' => x3 (ix2 (tileRow qi r) d')) (fun d' => x4 (ix2 (tileRow qi r) d')) := by
    funext d'
    have e3 : (fun e => View.ld x3 (rC i) (ix2 r e)) = fun e => x3 (ix2 (tileRow qi r) e) := funext fun e => ld_tile i qi hoff x3 r e
    have e4 : (fun e => View.ld x4 (rC i) (ix2 r e)) = fun e => x4 (ix2 (tileRow qi r) e) := funext fun e => ld_tile i qi hoff x4 r e
    by_cases h0 : hh.val = 0
    · rw [if_pos h0]
      obtain rfl : hh = 0 := Fin.ext h0
      rw [k1_pay4_apply, e3, e4]
    · rw [if_neg h0]
      obtain rfl : hh = 1 := Fin.ext (by have := hh.isLt; show hh.val = 1; omega)
      rw [k1_pay5_apply, e3, e4]
  have ek : (fun (j : Fin 2048) (d' : Fin 64) => (if hh.val = 0 then k1_pay6 (F := Ideal) s else k1_pay7 (F := Ideal) s) (ix2 j d'))
      = fun j d' => s (ix2 j (pairCol hh d')) := by
    funext j d'
    by_cases h0 : hh.val = 0
    · rw [if_pos h0]
      obtain rfl : hh = 0 := Fin.ext h0
      rw [k1_pay6_apply]
    · rw [if_neg h0]
      obtain rfl : hh = 1 := Fin.ext (by have := hh.isLt; show hh.val = 1; omega)
      rw [k1_pay7_apply]
  have ev : (fun (j : Fin 2048) (d' : Fin 64) => k1_pay8 (F := Ideal) x2 (ix2 j (pairCol hh d'))) = fun j d' => x2 (ix3 (0 : Fin 1) j (pairCol hh d')) := by
    funext j d'
    exact k1_pay8_apply x2 j _
  rw [eq, ek, ev]

/-- THE ENTRY: under the stated readings of the point's blocks, an entry of its output tile is the specification's
    attention output at the batch entry, the position and the channel the entry stands for. A column of the pair's
    128 lanes is head col / 64 of the pair and lane col % 64, so channel pr·128 + col belongs to head 2·pr + col / 64. -/
theorem block_entry1 (i : grid1.Coords) (x0 : Vec Ideal S1x512x128 .f32) (x1 x2 : Vec Ideal S1x2048x128 .f32) (x3 x4 x3k x4k : Vec Ideal S2048x64 .f32)
    (qkvf : Fin 2 → Fin 2048 → Fin 6144 → EReal) (cs sn : Fin 2048 → Fin 64 → EReal)
    (b : Fin 2) (qi : Fin 4) (pr : Fin 16) (y : S1x512x128.Idx) (n : Fin 2048) (cc : Fin 2048)
    (hoff : k1_off1 i = ![qi.val * 512, 0])
    (hn : n.val = qi.val * 512 + (y 1).val) (hcc : cc.val = pr.val * 128 + (y 2).val)
    (hq : ∀ (r : Fin 512) (col : Fin 128) (nn : Fin 2048) (f : Fin 6144), nn.val = qi.val * 512 + r.val → f.val = pr.val * 128 + col.val → x0 (ix3 0 r col) = qkvf b nn f)
    (hk : ∀ (j : Fin 2048) (col : Fin 128) (f : Fin 6144), f.val = 2048 + pr.val * 128 + col.val → x1 (ix3 0 j col) = qkvf b j f)
    (hv : ∀ (j : Fin 2048) (col : Fin 128) (f : Fin 6144), f.val = 4096 + pr.val * 128 + col.val → x2 (ix3 0 j col) = qkvf b j f)
    (hc : ∀ j d, x3 (ix2 j d) = cs j d) (hs : ∀ j d, x4 (ix2 j d) = sn j d)
    (hck : ∀ j d, x3k (ix2 j d) = cs j d) (hsk : ∀ j d, x4k (ix2 j d) = sn j d) :
    attnOut (F := Ideal) i x0 x2 x3 x4 (kRope x1 x3k x4k) y = Cert.AttnSpec.Stage.o qkvf cs sn b n cc := by
  obtain ⟨u, r, col, rfl⟩ : ∃ (u : Fin 1) (r : Fin 512) (col : Fin 128), y = ix3 u r col := ⟨y 0, y 1, y 2, eq_ix3 y⟩
  obtain rfl : u = 0 := Fin.ext (by have := u.isLt; omega)
  have hn' : n.val = qi.val * 512 + r.val := hn
  have hcc' : cc.val = pr.val * 128 + col.val := hcc
  obtain ⟨hh, d, rfl⟩ : ∃ (hh : Fin 2) (d : Fin 64), col = pairCol hh d :=
    ⟨⟨col.val / 64, by have := col.isLt; omega⟩, ⟨col.val % 64, Nat.mod_lt _ (by decide)⟩, Fin.ext (by show col.val = col.val / 64 * 64 + col.val % 64; omega)⟩
  have hcc'' : cc.val = pr.val * 128 + (hh.val * 64 + d.val) := hcc'
  have hlane : laneOf cc = d := Fin.ext (by show cc.val % 64 = d.val; have := d.isLt; omega)
  have hhead : (headOf cc).val = 2 * pr.val + hh.val := by show cc.val / 64 = _; have := d.isLt; omega
  have ht : tileRow qi r = n := Fin.ext hn'.symm
  rw [attnOut_apply i x0 x2 x3 x4 _ qi hoff r hh d, ht]
  unfold Stage.o
  rw [oh_row, hlane]
  have e1 : ropeRow (fun d' => x0 (ix3 (0 : Fin 1) r (pairCol hh d'))) (fun d' => x3 (ix2 n d')) (fun d' => x4 (ix2 n d'))
      = qr qkvf cs sn b (headOf cc) n := by
    rw [qr_row, show (fun d' => x3 (ix2 n d')) = cs n from funext (hc n), show (fun d' => x4 (ix2 n d')) = sn n from funext (hs n)]
    refine congrArg (fun t => ropeRow t (cs n) (sn n)) (funext fun d' => ?_)
    exact hq r _ n _ hn' (by show (headOf cc).val * 64 + d'.val = pr.val * 128 + (hh.val * 64 + d'.val); omega)
  have e2 : (fun (j : Fin 2048) (d' : Fin 64) => kRope (F := Ideal) x1 x3k x4k (ix2 j (pairCol hh d'))) = kr qkvf cs sn b (headOf cc) := by
    funext j
    rw [kr_row]
    funext d'
    rw [kRope_apply, show (fun e => x3k (ix2 j e)) = cs j from funext (hck j), show (fun e => x4k (ix2 j e)) = sn j from funext (hsk j)]
    refine congrArg (fun t => ropeRow t (cs j) (sn j) d') (funext fun e => ?_)
    exact hk j _ _ (by show 2048 + ((headOf cc).val * 64 + e.val) = 2048 + pr.val * 128 + (hh.val * 64 + e.val); omega)
  have e3 : (fun (j : Fin 2048) (d' : Fin 64) => x2 (ix3 (0 : Fin 1) j (pairCol hh d'))) = vh qkvf b (headOf cc) := by
    funext j d'
    exact hv j _ _ (by show 4096 + ((headOf cc).val * 64 + d'.val) = 4096 + pr.val * 128 + (hh.val * 64 + d'.val); omega)
  rw [e1, e2, e3]

end Cert.KernelIdeal.Hand

end
-- ==== Proof.LibFlatten.lean ====
/-
  Merging the two leading axes of a rank-3 array, read at an index given by coordinates.

  An `[a, b, c]` array cast to `[n, c]` keeps the row-major order of its entries, so entry `(p, s, d)` sits at row
  `p · b + s`, column `d`: both have row-major position `(p · b + s) · c + d`. The same holds read the other way, for
  an `[n, c]` array cast to `[a, b, c]`. For any element type; `n` is `a · b` in every use, but only the row's bound is
  needed here.
-/
import Idealize.ShloMosaic.Lib.ValueIdx
import Idealize.ShloMosaic.Lib.Pipeline.Value

namespace Cert.LibFlatten

open Idealize.ShloMosaic Idealize.ShloMosaic.ValueIdx

variable {α : Type}

/-- An `[a, b, c]` array cast to `[n, c]` reads, at `(p · b + s, d)`, the array at `(p, s, d)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (d : Fin c)
    (hR : p.val * b + s.val < n) :
    shapeCast ⟨2, ![n, c]⟩ x h (ix2 (⟨p.val * b + s.val, hR⟩ : Fin n) d) = x (ix3 p s d) :=
  shapeCast_apply x h _ _ (by
    rw [Shape.rowMajor_val_three, Shape.rowMajor_val_two]
    show (p.val * b + s.val) * c + d.val = (p.val * b + s.val) * c + d.val
    rfl)

/-- An `[n, c]` array cast to `[a, b, c]` reads, at `(p, s, d)`, the array at `(p · b + s, d)`. -/
theorem shapeCast_nc_abc_apply {a b c n : ℕ} (y : (⟨2, ![n, c]⟩ : Shape).Idx → α)
    (h : (⟨2, ![n, c]⟩ : Shape).ShapeCasts ⟨3, ![a, b, c]⟩) (p : Fin a) (s : Fin b) (d : Fin c)
    (hR : p.val * b + s.val < n) :
    shapeCast ⟨3, ![a, b, c]⟩ y h (ix3 p s d) = y (ix2 (⟨p.val * b + s.val, hR⟩ : Fin n) d) :=
  shapeCast_apply y h _ _ (by
    rw [Shape.rowMajor_val_three, Shape.rowMajor_val_two]
    show (p.val * b + s.val) * c + d.val = (p.val * b + s.val) * c + d.val
    rfl)

end Cert.LibFlatten
-- ==== Proof.Bridge0.lean ====
/-
  The host stretches between the regions, read buffer by buffer over an ARBITRARY incoming valuation, at the
  extended reals: the tables are cos and sin of the angles, a change of float format is the identity, and a reshape
  that merges or splits the two leading axes keeps every entry at its row-major position (row b·2048 + n ↔ (b, n)).
-/
import proofs.«150253_j62079457296484_2_alg».proof.Proof.Assemble
import proofs.«150253_j62079457296484_2_alg».proof.Proof.LibFlatten

noncomputable section

open scoped BigOperators
open Cert.KernelIdeal Cert.KernelIdeal.Gen
open Idealize.ShloMosaic Idealize.ShloMosaic.ValueIdx Idealize.ShloMosaic.TcCoe
open Idealize.SL.Sem

namespace Cert.KernelIdeal.Hand

variable (W : Valuation τ sig (Elt Ideal))

/-! ## The first stretch: tables, casts, and the flattening of the activations -/

theorem after0_v0 : (StableHlo.after hostOps0 W (Proc.devRef .tc main_v0) : S2048x64.Idx → EReal)
    = fun i => Ideal.cos ((W (Proc.devRef .tc main_arg1) : S2048x64.Idx → EReal) i) := by
  after_results; rfl

theorem after0_v1 : (StableHlo.after hostOps0 W (Proc.devRef .tc main_v1) : S2048x64.Idx → EReal)
    = fun i => Ideal.sin ((W (Proc.devRef .tc main_arg1) : S2048x64.Idx → EReal) i) := by
  after_results; rfl

theorem after0_v3 : (StableHlo.after hostOps0 W (Proc.devRef .tc main_v3) : S6144x2048.Idx → EReal)
    = (W (Proc.devRef .tc main_arg2) : S6144x2048.Idx → EReal) := by
  after_results; rfl

theorem after0_v4 : (StableHlo.after hostOps0 W (Proc.devRef .tc main_v4) : S2048x2048.Idx → EReal)
    = (W (Proc.devRef .tc main_arg3) : S2048x2048.Idx → EReal) := by
  after_results; rfl

theorem after0_v5 : (StableHlo.after hostOps0 W (Proc.devRef .tc main_v5) : S4096x2048.Idx → EReal)
    = shapeCast S4096x2048 (W (Proc.devRef .tc main_arg0) : S2x2048x2048.Idx → EReal) shapeCasts_S2x2048x2048_S4096x2048 := by
  after_results; rfl

/-- The flattened activations at row b·2048 + n. -/
theorem after0_v5_at (b : Fin 2) (n k : Fin 2048) (hR : b.val * 2048 + n.val < 4096) :
    (StableHlo.after hostOps0 W (Proc.devRef .tc main_v5) : S4096x2048.Idx → EReal) (ix2 (⟨b.val * 2048 + n.val, hR⟩ : Fin 4096) k)
      = (W (Proc.devRef .tc main_arg0) : S2x2048x2048.Idx → EReal) (ix3 b n k) := by
  rw [after0_v5]
  exact Cert.LibFlatten.shapeCast_abc_nc_apply _ shapeCasts_S2x2048x2048_S4096x2048 b n k hR

/-! ## The second stretch: the projection's rows split back into (batch, position) -/

theorem after1_v7 : (StableHlo.after hostOps1 W (Proc.devRef .tc main_v7) : S2x2048x6144.Idx → EReal)
    = shapeCast S2x2048x6144 (W (Proc.devRef .tc main_v6) : S4096x6144.Idx → EReal) shapeCasts_S4096x6144_S2x2048x6144 := by
  after_results; rfl

theorem after1_v7_at (b : Fin 2) (n : Fin 2048) (f : Fin 6144) (hR : b.val * 2048 + n.val < 4096) :
    (StableHlo.after hostOps1 W (Proc.devRef .tc main_v7) : S2x2048x6144.Idx → EReal) (ix3 b n f)
      = (W (Proc.devRef .tc main_v6) : S4096x6144.Idx → EReal) (ix2 (⟨b.val * 2048 + n.val, hR⟩ : Fin 4096) f) := by
  rw [after1_v7]
  exact Cert.LibFlatten.shapeCast_nc_abc_apply _ shapeCasts_S4096x6144_S2x2048x6144 b n f hR

/-! ## The third stretch: the attention output cast and flattened -/

theorem after2_v10 : (StableHlo.after hostOps2 W (Proc.devRef .tc main_v10) : S4096x2048.Idx → EReal)
    = shapeCast S4096x2048 (W (Proc.devRef .tc main_v8) : S2x2048x2048.Idx → EReal) shapeCasts_S2x2048x2048_S4096x2048 := by
  after_results; rfl

theorem after2_v10_at (b : Fin 2) (n k : Fin 2048) (hR : b.val * 2048 + n.val < 4096) :
    (StableHlo.after hostOps2 W (Proc.devRef .tc main_v10) : S4096x2048.Idx → EReal) (ix2 (⟨b.val * 2048 + n.val, hR⟩ : Fin 4096) k)
      = (W (Proc.devRef .tc main_v8) : S2x2048x2048.Idx → EReal) (ix3 b n k) := by
  rw [after2_v10]
  exact Cert.LibFlatten.shapeCast_abc_nc_apply _ shapeCasts_S2x2048x2048_S4096x2048 b n k hR

/-! ## The last stretch: the result's rows split back into (batch, position) -/

theorem after3_v12 : (StableHlo.after hostOps3 W (Proc.devRef .tc main_v12) : S2x2048x2048.Idx → EReal)
    = shapeCast S2x2048x2048 (W (Proc.devRef .tc main_v11) : S4096x2048.Idx → EReal) shapeCasts_S4096x2048_S2x2048x2048 := by
  after_results; rfl

theorem after3_v12_at (b : Fin 2) (n e : Fin 2048) (hR : b.val * 2048 + n.val < 4096) :
    (StableHlo.after hostOps3 W (Proc.devRef .tc main_v12) : S2x2048x2048.Idx → EReal) (ix3 b n e)
      = (W (Proc.devRef .tc main_v11) : S4096x2048.Idx → EReal) (ix2 (⟨b.val * 2048 + n.val, hR⟩ : Fin 4096) e) := by
  rw [after3_v12]
  exact Cert.LibFlatten.shapeCast_nc_abc_apply _ shapeCasts_S4096x2048_S2x2048x2048 b n e hR

end Cert.KernelIdeal.Hand

end
-- ==== Proof.MatmulValue.lean ====
/- The tiled matrix products at the extended reals, entry by entry: what one grid point's body leaves in its
   output block is the block of row-by-row dot products of its two input blocks. -/
import proofs.«150253_j62079457296484_2_alg».proof.Proof.Region0
import proofs.«150253_j62079457296484_2_alg».proof.Proof.Region2
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Idealize.SL.Sem
open Idealize.ShloMosaic.TcCoe
open Idealize.ShloMosaic.Pipeline (Dat Cfg Window)

/-! ## The product's operand indices

The product contracts the LAST axis of both operands: at output entry (p, j) and contraction position k the left
operand is read at (p, k) and the right operand at (j, k). -/

local notation "𝔻" => dot_S512x2048_S1024x2048_S512x1024_1_1_0_0_n_n

theorem dot_lhs_0 (i : S512x1024.Idx) (q : (𝔻).contr.Idx) : ((𝔻).lhsIdx i q 0).val = (i 0).val := by
  unfold DotDims.lhsIdx
  rw [dif_neg (show ¬(0 : Fin S512x2048.rank) ∈ (𝔻).lhsBatch by decide), dif_pos (show (0 : Fin S512x2048.rank) ∈ (𝔻).lhsNonContracting by decide)]
  rfl

theorem dot_lhs_1 (i : S512x1024.Idx) (q : (𝔻).contr.Idx) : ((𝔻).lhsIdx i q 1).val = (q ⟨0, by decide⟩).val :=
  (𝔻).lhsIdx_val_of_single rfl i q

theorem dot_rhs_0 (i : S512x1024.Idx) (q : (𝔻).contr.Idx) : ((𝔻).rhsIdx i q 0).val = (i 1).val := by
  unfold DotDims.rhsIdx
  rw [dif_neg (show ¬(0 : Fin S1024x2048.rank) ∈ (𝔻).rhsBatch by decide), dif_pos (show (0 : Fin S1024x2048.rank) ∈ (𝔻).rhsNonContracting by decide)]
  rfl

theorem dot_rhs_1 (i : S512x1024.Idx) (q : (𝔻).contr.Idx) : ((𝔻).rhsIdx i q 1).val = (q ⟨0, by decide⟩).val :=
  (𝔻).rhsIdx_val_of_single rfl i q

/-- The product of a [512,2048] block and a [1024,2048] block into the zero accumulator, at entry (p, j): the dot
    product of row p of the first with row j of the second. The sum over the one-axis contraction shape is
    re-indexed by that axis's coordinate. -/
theorem matmul_rows (a : FVec Ideal S512x2048 .bf16) (b : FVec Ideal S1024x2048 .bf16) (p : Fin 512) (j : Fin 1024) :
    FloatOps.matmul (F := Ideal) 𝔻 none a b (constant (F := Ideal) S512x1024 .f32 0x00000000#32) (ix2 p j)
      = ∑ k : Fin 2048, a (ix2 p k) * b (ix2 j k) := by
  rw [Ideal.matmul_constant_zero_apply, ← Equiv.sum_comp (contrEquiv1 𝔻 2048 rfl rfl).symm]
  refine Finset.sum_congr rfl fun k _ => ?_
  have hk := contrEquiv1_symm_val 𝔻 2048 rfl rfl k
  have el : (𝔻).lhsIdx (ix2 p j) ((contrEquiv1 𝔻 2048 rfl rfl).symm k) = ix2 p k := funext fun x => Fin.ext (by
    match x with
    | ⟨0, _⟩ => exact dot_lhs_0 _ _
    | ⟨1, _⟩ => exact (dot_lhs_1 _ _).trans hk)
  have er : (𝔻).rhsIdx (ix2 p j) ((contrEquiv1 𝔻 2048 rfl rfl).symm k) = ix2 j k := funext fun x => Fin.ext (by
    match x with
    | ⟨0, _⟩ => exact dot_rhs_0 _ _
    | ⟨1, _⟩ => exact (dot_rhs_1 _ _).trans hk)
  rw [el, er]

/-! ## What a grid point's body leaves in the output block -/

theorem zero2 : (![0, 0] : Fin 2 → Nat) = fun _ => 0 := by
  funext a; match a with | ⟨0, _⟩ => rfl | ⟨1, _⟩ => rfl

/-- Region 0: the output block's entry (p, j) is the dot product of row p of the left block and row j of the
    right block. The whole-buffer store leaves its payload; the whole-buffer loads read the blocks; the casts to
    the same shape are the identity. -/
theorem out0_2_apply (x0 : Vec Ideal S512x2048 .bf16) (x1 : Vec Ideal S1024x2048 .bf16) (p : Fin 512) (j : Fin 1024) :
    out0_2 (F := Ideal) x0 x1 (ix2 p j) = ∑ k : Fin 2048, x0 (ix2 p k) * x1 (ix2 j k) := by
  unfold out0_2
  rw [View.canon_unit_zero zero2, View.ld_unit_zero (S := S512x2048) zero2, View.ld_unit_zero (S := S1024x2048) zero2]
  unfold k0_pay1
  rw [shapeCast_self, shapeCast_self]
  exact matmul_rows x0 x1 p j

/-- Region 2: the same. -/
theorem out2_2_apply (x0 : Vec Ideal S512x2048 .bf16) (x1 : Vec Ideal S1024x2048 .bf16) (p : Fin 512) (j : Fin 1024) :
    out2_2 (F := Ideal) x0 x1 (ix2 p j) = ∑ k : Fin 2048, x0 (ix2 p k) * x1 (ix2 j k) := by
  unfold out2_2
  rw [View.canon_unit_zero zero2, View.ld_unit_zero (S := S512x2048) zero2, View.ld_unit_zero (S := S1024x2048) zero2]
  unfold k2_pay1
  rw [shapeCast_self, shapeCast_self]
  exact matmul_rows x0 x1 p j

/-! ## Region 0: from the blocks to the whole array

The grid has one point per output block; the point's left block is the row block with the output block's row
index, its right block the row block with the output block's column index, both spanning the whole contracted
axis. Each point writes its block of row-by-row dot products back, and the blocks tile the array. -/

section Blocks0

variable (V : (c : Dev nD) → (b : Ref sig .tc) → Buf (Elt Ideal) ((c : Thread nD τ).loc b))

/-- The product as one function of the two operand arrays: entry (r, s) is the dot product of row r of the left
    array and row s of the right array. -/
def rowDots0 (A : S4096x2048.Idx → EReal) (B : S6144x2048.Idx → EReal) : S4096x6144.Idx → EReal := fun i =>
  ∑ k : Fin 2048, A (ix2 (i 0) k) * B (ix2 (i 1) k)

theorem rowDots0_apply (A : S4096x2048.Idx → EReal) (B : S6144x2048.Idx → EReal) (i : S4096x6144.Idx) :
    rowDots0 A B i = ∑ k : Fin 2048, A (ix2 (i 0) k) * B (ix2 (i 1) k) := rfl

/-- The product of the two operand arrays as the region finds them. -/
abbrev prod0 (c : Dev nD) : S4096x6144.Idx → EReal := rowDots0 (V c main_v5) (V c main_v3)

/-- The block index maps over the grid: the left window's row-block index is the output's row-block index, the
    right window's row-block index is the output's column-block index, the inputs' column-block index is 0, and
    the output's block indices stay in range. -/
theorem index_facts0 : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 5 :=
  (by decide +kernel : ∀ t : Fin grid0.N, _)

/-- Every output block is some grid point's. -/
theorem index_onto0 : ∀ (q0 : Fin 8) (q1 : Fin 6), ∃ t : Fin cfg0.N, win0_2.index t = ![q0.val, q1.val] :=
  (by decide +kernel : ∀ (q0 : Fin 8) (q1 : Fin 6), ∃ t : Fin grid0.N, win0_2.index t = ![q0.val, q1.val])

/-- An entry of a point's output block, given that the rows of the two input blocks it reads are rows of two
    arrays `A`, `B`: the dot product of those rows. -/
theorem block_entry0 (x0 : Vec Ideal S512x2048 .bf16) (x1 : Vec Ideal S1024x2048 .bf16)
    (A : S4096x2048.Idx → EReal) (B : S6144x2048.Idx → EReal) (y : S512x1024.Idx) (r : Fin 4096) (s : Fin 6144)
    (h0 : ∀ k : Fin 2048, x0 (ix2 (y 0) k) = A (ix2 r k)) (h1 : ∀ k : Fin 2048, x1 (ix2 (y 1) k) = B (ix2 s k)) :
    out0_2 (F := Ideal) x0 x1 y = ∑ k : Fin 2048, A (ix2 r k) * B (ix2 s k) := by
  obtain ⟨p, j, rfl⟩ : ∃ (p : Fin 512) (j : Fin 1024), y = ix2 p j := ⟨y 0, y 1, eq_ix2 y⟩
  have h0' : ∀ k : Fin 2048, x0 (ix2 p k) = A (ix2 r k) := h0
  have h1' : ∀ k : Fin 2048, x1 (ix2 j k) = B (ix2 s k) := h1
  rw [out0_2_apply]
  exact Finset.sum_congr rfl fun k _ => by rw [h0' k, h1' k]

/-- What grid point `t` writes back is block `t` of the product of the two operand arrays. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  obtain ⟨e0, e1, e2, e3, e4, e5⟩ := index_facts0 t
  funext y
  refine block_entry0 _ _ (V c main_v5) (V c main_v3) y _ _ (fun k => ?_) (fun k => ?_)
  · show V c main_v5 (((cfg0.win 0).blk t).view.emb (ix2 (y 0) k)) = V c main_v5 (ix2 ((((cfg0.win 2).blk t).view.emb y) 0) k)
    refine congrArg _ (funext fun a => Fin.ext ?_)
    match a with
    | ⟨0, _⟩ => show win0_0.index t (0 : Fin 2) * 512 + 1 * (y 0).val = win0_2.index t (0 : Fin 2) * 512 + 1 * (y 0).val; omega
    | ⟨1, _⟩ => show win0_0.index t (1 : Fin 2) * 2048 + 1 * k.val = k.val; omega
  · show V c main_v3 (((cfg0.win 1).blk t).view.emb (ix2 (y 1) k)) = V c main_v3 (ix2 ((((cfg0.win 2).blk t).view.emb y) 1) k)
    refine congrArg _ (funext fun a => Fin.ext ?_)
    match a with
    | ⟨0, _⟩ => show win0_1.index t (0 : Fin 2) * 1024 + 1 * (y 1).val = win0_2.index t (1 : Fin 2) * 1024 + 1 * (y 1).val; omega
    | ⟨1, _⟩ => show win0_1.index t (1 : Fin 2) * 2048 + 1 * k.val = k.val; omega

/-- An index of the output array lies in point `t`'s block iff each coordinate lies in the block's range. -/
theorem mem_block0 (t : Fin cfg0.N) (i : S4096x6144.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v6).slice (win0_2.rect t)).set ↔ _
  rw [View.set_slice_whole, Rect.mem_set_unit]
  exact Iff.rfl

/-- The blocks tile the output array: entry (r, s) lies in the block of row-block r / 512 and column-block s / 1024. -/
theorem covered0 (i : S4096x6144.Idx) :
    ∃ t : Fin cfg0.N, (cfg0.win 2).flush t = true ∧ i ∈ ((cfg0.win 2).blk t).view.set := by
  have hi0 : (i 0).val < 4096 := (i 0).isLt
  have hi1 : (i 1).val < 6144 := (i 1).isLt
  obtain ⟨t, ht⟩ := index_onto0 ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the region: the product of the two operand arrays as the region found them. -/
theorem arrAt0_2 (c : Dev nD) : (dat0 V c).arrAt 2 cfg0.N = prod0 V c :=
  (dat0 V c).arrAt_eq_of_cover 2 (prod0 V c) (fun t _ => flushed0_eq V c t) (covered0)

end Blocks0

/-! ## Region 2: from the blocks to the whole array

The grid has one point per output block; the point's left block is the row block with the output block's row
index, its right block the row block with the output block's column index, both spanning the whole contracted
axis. Each point writes its block of row-by-row dot products back, and the blocks tile the array. -/

section Blocks2

variable (V : (c : Dev nD) → (b : Ref sig .tc) → Buf (Elt Ideal) ((c : Thread nD τ).loc b))

/-- The product as one function of the two operand arrays: entry (r, s) is the dot product of row r of the left
    array and row s of the right array. -/
def rowDots2 (A : S4096x2048.Idx → EReal) (B : S2048x2048.Idx → EReal) : S4096x2048.Idx → EReal := fun i =>
  ∑ k : Fin 2048, A (ix2 (i 0) k) * B (ix2 (i 1) k)

theorem rowDots2_apply (A : S4096x2048.Idx → EReal) (B : S2048x2048.Idx → EReal) (i : S4096x2048.Idx) :
    rowDots2 A B i = ∑ k : Fin 2048, A (ix2 (i 0) k) * B (ix2 (i 1) k) := rfl

/-- The product of the two operand arrays as the region finds them. -/
abbrev prod2 (c : Dev nD) : S4096x2048.Idx → EReal := rowDots2 (V c main_v10) (V c main_v4)

/-- The block index maps over the grid: the left window's row-block index is the output's row-block index, the
    right window's row-block index is the output's column-block index, the inputs' column-block index is 0, and
    the output's block indices stay in range. -/
theorem index_facts2 : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 7 ∧ win2_2.index t (1 : Fin 2) ≤ 1 :=
  (by decide +kernel : ∀ t : Fin grid2.N, _)

/-- Every output block is some grid point's. -/
theorem index_onto2 : ∀ (q0 : Fin 8) (q1 : Fin 2), ∃ t : Fin cfg2.N, win2_2.index t = ![q0.val, q1.val] :=
  (by decide +kernel : ∀ (q0 : Fin 8) (q1 : Fin 2), ∃ t : Fin grid2.N, win2_2.index t = ![q0.val, q1.val])

/-- An entry of a point's output block, given that the rows of the two input blocks it reads are rows of two
    arrays `A`, `B`: the dot product of those rows. -/
theorem block_entry2 (x0 : Vec Ideal S512x2048 .bf16) (x1 : Vec Ideal S1024x2048 .bf16)
    (A : S4096x2048.Idx → EReal) (B : S2048x2048.Idx → EReal) (y : S512x1024.Idx) (r : Fin 4096) (s : Fin 2048)
    (h0 : ∀ k : Fin 2048, x0 (ix2 (y 0) k) = A (ix2 r k)) (h1 : ∀ k : Fin 2048, x1 (ix2 (y 1) k) = B (ix2 s k)) :
    out2_2 (F := Ideal) x0 x1 y = ∑ k : Fin 2048, A (ix2 r k) * B (ix2 s k) := by
  obtain ⟨p, j, rfl⟩ : ∃ (p : Fin 512) (j : Fin 1024), y = ix2 p j := ⟨y 0, y 1, eq_ix2 y⟩
  have h0' : ∀ k : Fin 2048, x0 (ix2 p k) = A (ix2 r k) := h0
  have h1' : ∀ k : Fin 2048, x1 (ix2 j k) = B (ix2 s k) := h1
  rw [out2_2_apply]
  exact Finset.sum_congr rfl fun k _ => by rw [h0' k, h1' k]

/-- What grid point `t` writes back is block `t` of the product of the two operand arrays. -/
theorem flushed2_eq (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  obtain ⟨e0, e1, e2, e3, e4, e5⟩ := index_facts2 t
  funext y
  refine block_entry2 _ _ (V c main_v10) (V c main_v4) y _ _ (fun k => ?_) (fun k => ?_)
  · show V c main_v10 (((cfg2.win 0).blk t).view.emb (ix2 (y 0) k)) = V c main_v10 (ix2 ((((cfg2.win 2).blk t).view.emb y) 0) k)
    refine congrArg _ (funext fun a => Fin.ext ?_)
    match a with
    | ⟨0, _⟩ => show win2_0.index t (0 : Fin 2) * 512 + 1 * (y 0).val = win2_2.index t (0 : Fin 2) * 512 + 1 * (y 0).val; omega
    | ⟨1, _⟩ => show win2_0.index t (1 : Fin 2) * 2048 + 1 * k.val = k.val; omega
  · show V c main_v4 (((cfg2.win 1).blk t).view.emb (ix2 (y 1) k)) = V c main_v4 (ix2 ((((cfg2.win 2).blk t).view.emb y) 1) k)
    refine congrArg _ (funext fun a => Fin.ext ?_)
    match a with
    | ⟨0, _⟩ => show win2_1.index t (0 : Fin 2) * 1024 + 1 * (y 1).val = win2_2.index t (1 : Fin 2) * 1024 + 1 * (y 1).val; omega
    | ⟨1, _⟩ => show win2_1.index t (1 : Fin 2) * 2048 + 1 * k.val = k.val; omega

/-- An index of the output array lies in point `t`'s block iff each coordinate lies in the block's range. -/
theorem mem_block2 (t : Fin cfg2.N) (i : S4096x2048.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v11).slice (win2_2.rect t)).set ↔ _
  rw [View.set_slice_whole, Rect.mem_set_unit]
  exact Iff.rfl

/-- The blocks tile the output array: entry (r, s) lies in the block of row-block r / 512 and column-block s / 1024. -/
theorem covered2 (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  obtain ⟨t, ht⟩ := index_onto2 ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_block2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output array after the region: the product of the two operand arrays as the region found them. -/
theorem arrAt2_2 (c : Dev nD) : (dat2 V c).arrAt 2 cfg2.N = prod2 V c :=
  (dat2 V c).arrAt_eq_of_cover 2 (prod2 V c) (fun t _ => flushed2_eq V c t) (covered2)

end Blocks2

end Cert.KernelIdeal.Hand

end
-- ==== Proof.AttnBlocks.lean ====
/- The attention region at the extended reals, from blocks to the whole array: every grid point writes back the
   tile of the attention output that its batch entry, query tile and head pair address, and the tiles cover the
   output array; so after the region the output array is the attention output, as one function of the fused
   projection and the two rotary tables the region found. -/
import proofs.«150253_j62079457296484_2_alg».proof.Proof.Region1
import proofs.«150253_j62079457296484_2_alg».proof.Proof.SpecStages
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open Idealize.SL.Sem
open Idealize.ShloMosaic.TcCoe
open Idealize.ShloMosaic.Pipeline (Dat Cfg Window)

/-- The attention output as one function of the fused projection `Q` (batch × position × column) and the two rotary
    tables: entry (b, n, c) is channel c of position n of batch entry b. -/
def attnArr (Q : S2x2048x6144.Idx → EReal) (C S : S2048x64.Idx → EReal) : S2x2048x2048.Idx → EReal := fun i =>
  Cert.AttnSpec.Stage.o (fun b n f => Q (ix3 b n f)) (fun n d => C (ix2 n d)) (fun n d => S (ix2 n d)) (i 0) (i 1) (i 2)

/-- One entry of a point's output tile, given that the rows its blocks hold are rows of one fused projection and of
    two tables: the attention output at the entry's position and channel. The scratch's rotated keys are formed from
    tables of their own (those of the group's first point). -/
def BlockEntry : Prop :=
  ∀ (i : grid1.Coords) (x0 : Vec Ideal S1x512x128 .f32) (x1 x2 : Vec Ideal S1x2048x128 .f32) (x3 x4 x3k x4k : Vec Ideal S2048x64 .f32)
    (qkvf : Fin 2 → Fin 2048 → Fin 6144 → EReal) (cs sn : Fin 2048 → Fin 64 → EReal)
    (b : Fin 2) (qi : Fin 4) (pr : Fin 16) (y : S1x512x128.Idx) (n : Fin 2048) (cc : Fin 2048),
    k1_off1 i = ![qi.val * 512, 0] →
    n.val = qi.val * 512 + (y 1).val → cc.val = pr.val * 128 + (y 2).val →
    (∀ (r : Fin 512) (col : Fin 128) (nn : Fin 2048) (f : Fin 6144), nn.val = qi.val * 512 + r.val → f.val = pr.val * 128 + col.val → x0 (ix3 0 r col) = qkvf b nn f) →
    (∀ (j : Fin 2048) (col : Fin 128) (f : Fin 6144), f.val = 2048 + pr.val * 128 + col.val → x1 (ix3 0 j col) = qkvf b j f) →
    (∀ (j : Fin 2048) (col : Fin 128) (f : Fin 6144), f.val = 4096 + pr.val * 128 + col.val → x2 (ix3 0 j col) = qkvf b j f) →
    (∀ j d, x3 (ix2 j d) = cs j d) → (∀ j d, x4 (ix2 j d) = sn j d) →
    (∀ j d, x3k (ix2 j d) = cs j d) → (∀ j d, x4k (ix2 j d) = sn j d) →
    attnOut (F := Ideal) i x0 x2 x3 x4 (kRope x1 x3k x4k) y = Cert.AttnSpec.Stage.o qkvf cs sn b n cc

section Blocks1

variable (V : (c : Dev nD) → (b : Ref sig .tc) → Buf (Elt Ideal) ((c : Thread nD τ).loc b))

/-- The attention output of the arrays as the region finds them. -/
abbrev attn1 (c : Dev nD) : S2x2048x2048.Idx → EReal := attnArr (V c main_v7) (V c main_v0) (V c main_v1)

/-- The block index maps over the grid, against the output window's (batch entry, query tile, head pair): the query
    window has the same index; the key and value windows address all positions of the same batch entry at the head
    pair's columns in the second and third thirds of the fused projection (the keys read at the group's first point);
    the tables are whole; the row offset of the tables' query rows is 512 times the query tile. -/
theorem index_facts1 : ∀ t : Fin cfg1.N,
    win1_0.index t (0 : Fin 3) = win1_5.index t (0 : Fin 3) ∧ win1_0.index t (1 : Fin 3) = win1_5.index t (1 : Fin 3)
    ∧ win1_0.index t (2 : Fin 3) = win1_5.index t (2 : Fin 3)
    ∧ win1_1.index (grp (t.val / 4) (grp_lt t)) (0 : Fin 3) = win1_5.index t (0 : Fin 3) ∧ win1_1.index (grp (t.val / 4) (grp_lt t)) (1 : Fin 3) = 0
    ∧ win1_1.index (grp (t.val / 4) (grp_lt t)) (2 : Fin 3) = 16 + win1_5.index t (2 : Fin 3)
    ∧ win1_2.index t (0 : Fin 3) = win1_5.index t (0 : Fin 3) ∧ win1_2.index t (1 : Fin 3) = 0
    ∧ win1_2.index t (2 : Fin 3) = 32 + win1_5.index t (2 : Fin 3)
    ∧ win1_3.index t (0 : Fin 2) = 0 ∧ win1_3.index t (1 : Fin 2) = 0 ∧ win1_4.index t (0 : Fin 2) = 0 ∧ win1_4.index t (1 : Fin 2) = 0
    ∧ win1_3.index (grp (t.val / 4) (grp_lt t)) (0 : Fin 2) = 0 ∧ win1_3.index (grp (t.val / 4) (grp_lt t)) (1 : Fin 2) = 0
    ∧ win1_4.index (grp (t.val / 4) (grp_lt t)) (0 : Fin 2) = 0 ∧ win1_4.index (grp (t.val / 4) (grp_lt t)) (1 : Fin 2) = 0
    ∧ k1_off1 (grid1.coords t) = ![win1_5.index t (1 : Fin 3) * 512, 0]
    ∧ win1_5.index t (0 : Fin 3) ≤ 1 ∧ win1_5.index t (1 : Fin 3) ≤ 3 ∧ win1_5.index t (2 : Fin 3) ≤ 15 :=
  (by decide +kernel : ∀ t : Fin grid1.N, _)

/-- Every output tile is some grid point's. -/
theorem index_onto1 : ∀ (q0 : Fin 2) (q1 : Fin 4) (q2 : Fin 16), ∃ t : Fin cfg1.N, win1_5.index t = ![q0.val, q1.val, q2.val] :=
  (by decide +kernel : ∀ (q0 : Fin 2) (q1 : Fin 4) (q2 : Fin 16), ∃ t : Fin grid1.N, win1_5.index t = ![q0.val, q1.val, q2.val])

/-- What grid point `t` writes back is tile `t` of the attention output of the arrays the region found. -/
theorem flushed1_eq (hentry : BlockEntry) (c : Dev nD) (t : Fin cfg1.N) :
    (dat1 V c).flushed 5 t = ((cfg1.win 5).blk t).view.read (Elt Ideal) (attn1 V c) := by
  show (cfg1.win 5).cut (grid1.coords t) ((dat1 V c).after 5 t) = _
  rw [after1_5]
  obtain ⟨a0, a1, a2, k0, k1, k2, v0, v1, v2, c0, c1, s0, s1, gc0, gc1, gs0, gs1, hoff, b0, b1, b2⟩ := index_facts1 t
  funext y
  have hy0 : (y 0).val < 1 := (y 0).isLt
  unfold scrG
  refine hentry (grid1.coords t) _ _ _ _ _ _ _ (fun b n f => V c main_v7 (ix3 b n f)) (fun n d => V c main_v0 (ix2 n d)) (fun n d => V c main_v1 (ix2 n d))
    ((((cfg1.win 5).blk t).view.emb y) 0) ⟨win1_5.index t (1 : Fin 3), by omega⟩ ⟨win1_5.index t (2 : Fin 3), by omega⟩ y
    ((((cfg1.win 5).blk t).view.emb y) 1) ((((cfg1.win 5).blk t).view.emb y) 2) hoff ?_ ?_ ?_ ?_ ?_ ?_ ?_ ?_ ?_
  · show win1_5.index t (1 : Fin 3) * 512 + 1 * (y 1).val = win1_5.index t (1 : Fin 3) * 512 + (y 1).val; omega
  · show win1_5.index t (2 : Fin 3) * 128 + 1 * (y 2).val = win1_5.index t (2 : Fin 3) * 128 + (y 2).val; omega
  · intro r col nn f hnn hf
    have hnn' : nn.val = win1_5.index t (1 : Fin 3) * 512 + r.val := hnn
    have hf' : f.val = win1_5.index t (2 : Fin 3) * 128 + col.val := hf
    show V c main_v7 (((cfg1.win 0).blk t).view.emb (ix3 0 r col)) = V c main_v7 (ix3 ((((cfg1.win 5).blk t).view.emb y) 0) nn f)
    refine congrArg _ (funext fun a => Fin.ext ?_)
    match a with
    | ⟨0, _⟩ => show win1_0.index t (0 : Fin 3) * 1 + 1 * 0 = win1_5.index t (0 : Fin 3) * 1 + 1 * (y 0).val; omega
    | ⟨1, _⟩ => show win1_0.index t (1 : Fin 3) * 512 + 1 * r.val = nn.val; omega
    | ⟨2, _⟩ => show win1_0.index t (2 : Fin 3) * 128 + 1 * col.val = f.val; omega
  · intro j col f hf
    have hf' : f.val = 2048 + win1_5.index t (2 : Fin 3) * 128 + col.val := hf
    show V c main_v7 (((cfg1.win 1).blk (grp (t.val / 4) (grp_lt t))).view.emb (ix3 0 j col)) = V c main_v7 (ix3 ((((cfg1.win 5).blk t).view.emb y) 0) j f)
    refine congrArg _ (funext fun a => Fin.ext ?_)
    match a with
    | ⟨0, _⟩ => show win1_1.index (grp (t.val / 4) (grp_lt t)) (0 : Fin 3) * 1 + 1 * 0 = win1_5.index t (0 : Fin 3) * 1 + 1 * (y 0).val; omega
    | ⟨1, _⟩ => show win1_1.index (grp (t.val / 4) (grp_lt t)) (1 : Fin 3) * 2048 + 1 * j.val = j.val; omega
    | ⟨2, _⟩ => show win1_1.index (grp (t.val / 4) (grp_lt t)) (2 : Fin 3) * 128 + 1 * col.val = f.val; omega
  · intro j col f hf
    have hf' : f.val = 4096 + win1_5.index t (2 : Fin 3) * 128 + col.val := hf
    show V c main_v7 (((cfg1.win 2).blk t).view.emb (ix3 0 j col)) = V c main_v7 (ix3 ((((cfg1.win 5).blk t).view.emb y) 0) j f)
    refine congrArg _ (funext fun a => Fin.ext ?_)
    match a with
    | ⟨0, _⟩ => show win1_2.index t (0 : Fin 3) * 1 + 1 * 0 = win1_5.index t (0 : Fin 3) * 1 + 1 * (y 0).val; omega
    | ⟨1, _⟩ => show win1_2.index t (1 : Fin 3) * 2048 + 1 * j.val = j.val; omega
    | ⟨2, _⟩ => show win1_2.index t (2 : Fin 3) * 128 + 1 * col.val = f.val; omega
  · intro j d
    show V c main_v0 (((cfg1.win 3).blk t).view.emb (ix2 j d)) = V c main_v0 (ix2 j d)
    refine congrArg _ (funext fun a => Fin.ext ?_)
    match a with
    | ⟨0, _⟩ => show win1_3.index t (0 : Fin 2) * 2048 + 1 * j.val = j.val; omega
    | ⟨1, _⟩ => show win1_3.index t (1 : Fin 2) * 64 + 1 * d.val = d.val; omega
  · intro j d
    show V c main_v1 (((cfg1.win 4).blk t).view.emb (ix2 j d)) = V c main_v1 (ix2 j d)
    refine congrArg _ (funext fun a => Fin.ext ?_)
    match a with
    | ⟨0, _⟩ => show win1_4.index t (0 : Fin 2) * 2048 + 1 * j.val = j.val; omega
    | ⟨1, _⟩ => show win1_4.index t (1 : Fin 2) * 64 + 1 * d.val = d.val; omega
  · intro j d
    show V c main_v0 (((cfg1.win 3).blk (grp (t.val / 4) (grp_lt t))).view.emb (ix2 j d)) = V c main_v0 (ix2 j d)
    refine congrArg _ (funext fun a => Fin.ext ?_)
    match a with
    | ⟨0, _⟩ => show win1_3.index (grp (t.val / 4) (grp_lt t)) (0 : Fin 2) * 2048 + 1 * j.val = j.val; omega
    | ⟨1, _⟩ => show win1_3.index (grp (t.val / 4) (grp_lt t)) (1 : Fin 2) * 64 + 1 * d.val = d.val; omega
  · intro j d
    show V c main_v1 (((cfg1.win 4).blk (grp (t.val / 4) (grp_lt t))).view.emb (ix2 j d)) = V c main_v1 (ix2 j d)
    refine congrArg _ (funext fun a => Fin.ext ?_)
    match a with
    | ⟨0, _⟩ => show win1_4.index (grp (t.val / 4) (grp_lt t)) (0 : Fin 2) * 2048 + 1 * j.val = j.val; omega
    | ⟨1, _⟩ => show win1_4.index (grp (t.val / 4) (grp_lt t)) (1 : Fin 2) * 64 + 1 * d.val = d.val; omega

/-- An index of the output array lies in point `t`'s tile iff each coordinate lies in the tile's range. -/
theorem mem_block1 (t : Fin cfg1.N) (i : S2x2048x2048.Idx) :
    i ∈ ((cfg1.win 5).blk t).view.set ↔ ∀ a : Fin 3, win1_5.index t a * S1x512x128.size a ≤ (i a).val ∧ (i a).val < win1_5.index t a * S1x512x128.size a + S1x512x128.size a := by
  show i ∈ ((View.whole main_v8).slice (win1_5.rect t)).set ↔ _
  rw [View.set_slice_whole, Rect.mem_set_unit]
  exact Iff.rfl

/-- The tiles cover the output array: entry (b, n, c) lies in the tile of batch entry b, query tile n / 512 and
    head pair c / 128. -/
theorem covered1 (i : S2x2048x2048.Idx) :
    ∃ t : Fin cfg1.N, (cfg1.win 5).flush t = true ∧ i ∈ ((cfg1.win 5).blk t).view.set := by
  have hi0 : (i 0).val < 2 := (i 0).isLt
  have hi1 : (i 1).val < 2048 := (i 1).isLt
  have hi2 : (i 2).val < 2048 := (i 2).isLt
  obtain ⟨t, ht⟩ := index_onto1 ⟨(i 0).val, by omega⟩ ⟨(i 1).val / 512, by omega⟩ ⟨(i 2).val / 128, by omega⟩
  have q0 : win1_5.index t (0 : Fin 3) = (i 0).val := congrFun ht 0
  have q1 : win1_5.index t (1 : Fin 3) = (i 1).val / 512 := congrFun ht 1
  have q2 : win1_5.index t (2 : Fin 3) = (i 2).val / 128 := congrFun ht 2
  refine ⟨t, flush1_5 t, ?_⟩
  rw [mem_block1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 128 ≤ (i 2).val ∧ (i 2).val < win1_5.index t (2 : Fin 3) * 128 + 128; omega

/-- The output array after the region: the attention output of the arrays as the region found them. -/
theorem arrAt1_5_of (hentry : BlockEntry) (c : Dev nD) : (dat1 V c).arrAt 5 cfg1.N = attn1 V c :=
  (dat1 V c).arrAt_eq_of_cover 5 (attn1 V c) (fun t _ => flushed1_eq V hentry c t) (covered1)

end Blocks1

end Cert.KernelIdeal.Hand

end
-- ==== Proof.Bridge1.lean ====
/-
  The kernel program's result as the specification. The buffers are followed through the program's boundaries:
  the fused projection's rows (row b·2048 + n against weight row f) are the specification's `qkv`; the attention
  region's output is the attention stage of that projection and of the tables cos(freqs), sin(freqs); the output
  projection's rows are the specification's result. Changes of float format are the identity on the extended reals,
  and the reshapes only rename (b, n) ↔ b·2048 + n.
-/
import proofs.«150253_j62079457296484_2_alg».proof.Proof.Bridge0
import proofs.«150253_j62079457296484_2_alg».proof.Proof.MatmulValue
import proofs.«150253_j62079457296484_2_alg».proof.Proof.SpecStages
import proofs.«150253_j62079457296484_2_alg».proof.Proof.AttnBlocks

noncomputable section

open scoped BigOperators
open Cert.KernelIdeal Cert.KernelIdeal.Gen
open Idealize.ShloMosaic Idealize.ShloMosaic.ValueIdx Idealize.ShloMosaic.TcCoe
open Idealize.SL.Sem

namespace Cert.KernelIdeal.Hand

open Cert.AttnSpec

theorem rowLt (b : Fin 2) (n : Fin 2048) : b.val * 2048 + n.val < 4096 := by
  have := b.isLt; have := n.isLt; omega

variable (m : (ℓ : Loc nD τ sig) → Buf (Elt Ideal) ℓ) (c : Dev nD)

/-- The launch arrays as curried functions of their coordinates. -/
abbrev xA : Fin 2 → Fin 2048 → Fin 2048 → EReal :=
  fun b n k => (m ((c : Thread nD τ).loc main_arg0) : S2x2048x2048.Idx → EReal) (ix3 b n k)
abbrev frA : Fin 2048 → Fin 64 → EReal :=
  fun n d => (m ((c : Thread nD τ).loc main_arg1) : S2048x64.Idx → EReal) (ix2 n d)
abbrev wqA : Fin 6144 → Fin 2048 → EReal :=
  fun f k => (m ((c : Thread nD τ).loc main_arg2) : S6144x2048.Idx → EReal) (ix2 f k)
abbrev woA : Fin 2048 → Fin 2048 → EReal :=
  fun e k => (m ((c : Thread nD τ).loc main_arg3) : S2048x2048.Idx → EReal) (ix2 e k)

/-! ## The fused projection -/

/-- Region 0's output at row b·2048 + n, column f. -/
theorem W2_v6_at (b : Fin 2) (n : Fin 2048) (f : Fin 6144) :
    (W2 m c main_v6 : S4096x6144.Idx → EReal) (ix2 (⟨b.val * 2048 + n.val, rowLt b n⟩ : Fin 4096) f)
      = qkv (xA m c) (wqA m c) b n f := by
  rw [W2_self, arrAt0_2 (T1 m) c]
  refine (rowDots0_apply _ _ _).trans ?_
  show _ = ∑ k : Fin 2048, xA m c b n k * wqA m c f k
  refine Finset.sum_congr rfl fun k _ => ?_
  exact congrArg₂ (· * ·) (after0_v5_at (W0 m c) b n k (rowLt b n)) (congrFun (after0_v3 (W0 m c)) (ix2 f k))

/-- The projection as the attention region finds it. -/
theorem W3_v7_at (b : Fin 2) (n : Fin 2048) (f : Fin 6144) :
    (W3 m c main_v7 : S2x2048x6144.Idx → EReal) (ix3 b n f) = qkv (xA m c) (wqA m c) b n f :=
  (after1_v7_at (W2 m c) b n f (rowLt b n)).trans (W2_v6_at m c b n f)

/-- The cosine table as the attention region finds it. -/
theorem W3_v0 : (W3 m c main_v0 : S2048x64.Idx → EReal)
    = fun i => Ideal.cos ((m ((c : Thread nD τ).loc main_arg1) : S2048x64.Idx → EReal) i) :=
  (StableHlo.after_of_writes_sub hostOps1 _ hostOps1_writes (by decide : main_v0 ∉ hostOps1_W)).trans <|
  (W2_ne m c main_v0 (by decide)).trans (after0_v0 (W0 m c))

/-- The sine table as the attention region finds it. -/
theorem W3_v1 : (W3 m c main_v1 : S2048x64.Idx → EReal)
    = fun i => Ideal.sin ((m ((c : Thread nD τ).loc main_arg1) : S2048x64.Idx → EReal) i) :=
  (StableHlo.after_of_writes_sub hostOps1 _ hostOps1_writes (by decide : main_v1 ∉ hostOps1_W)).trans <|
  (W2_ne m c main_v1 (by decide)).trans (after0_v1 (W0 m c))

/-- The output weights as region 2 finds them. -/
theorem W5_v4 : (W5 m c main_v4 : S2048x2048.Idx → EReal) = (m ((c : Thread nD τ).loc main_arg3) : S2048x2048.Idx → EReal) :=
  (StableHlo.after_of_writes_sub hostOps2 _ hostOps2_writes (by decide : main_v4 ∉ hostOps2_W)).trans <|
  (W4_ne m c main_v4 (by decide)).trans <|
  (StableHlo.after_of_writes_sub hostOps1 _ hostOps1_writes (by decide : main_v4 ∉ hostOps1_W)).trans <|
  (W2_ne m c main_v4 (by decide)).trans (after0_v4 (W0 m c))

section Attention

/- The attention region's per-tile entry statement, from which its whole output array is the attention stage of the
   projection and the two tables as the region finds them. -/
variable (hentry : BlockEntry)

include hentry

/-- The attention output at (b, n, k). -/
theorem W4_v8_at (b : Fin 2) (n k : Fin 2048) :
    (W4 m c main_v8 : S2x2048x2048.Idx → EReal) (ix3 b n k) = o (xA m c) (frA m c) (wqA m c) b n k := by
  rw [W4_self, arrAt1_5_of (T3 m) hentry c]
  have e7 : (fun b n f => (T3 m c main_v7 : S2x2048x6144.Idx → EReal) (ix3 b n f)) = qkv (xA m c) (wqA m c) :=
    funext fun b => funext fun n => funext fun f => W3_v7_at m c b n f
  have e0 : (fun n d => (T3 m c main_v0 : S2048x64.Idx → EReal) (ix2 n d)) = cosT (frA m c) :=
    funext fun n => funext fun d => congrFun (W3_v0 m c) (ix2 n d)
  have e1 : (fun n d => (T3 m c main_v1 : S2048x64.Idx → EReal) (ix2 n d)) = sinT (frA m c) :=
    funext fun n => funext fun d => congrFun (W3_v1 m c) (ix2 n d)
  show Stage.o (fun b n f => (T3 m c main_v7 : S2x2048x6144.Idx → EReal) (ix3 b n f))
      (fun n d => (T3 m c main_v0 : S2048x64.Idx → EReal) (ix2 n d))
      (fun n d => (T3 m c main_v1 : S2048x64.Idx → EReal) (ix2 n d)) b n k = _
  rw [e7, e0, e1, Stage.o_eq]

/-- The attention output flattened, at row b·2048 + n. -/
theorem W5_v10_at (b : Fin 2) (n k : Fin 2048) :
    (W5 m c main_v10 : S4096x2048.Idx → EReal) (ix2 (⟨b.val * 2048 + n.val, rowLt b n⟩ : Fin 4096) k)
      = o (xA m c) (frA m c) (wqA m c) b n k :=
  (after2_v10_at (W4 m c) b n k (rowLt b n)).trans (W4_v8_at m c hentry b n k)

/-! ## The output projection -/

/-- Region 2's output at row b·2048 + n, column e. -/
theorem W6_v11_at (b : Fin 2) (n e : Fin 2048) :
    (W6 m c main_v11 : S4096x2048.Idx → EReal) (ix2 (⟨b.val * 2048 + n.val, rowLt b n⟩ : Fin 4096) e)
      = G (xA m c) (frA m c) (wqA m c) (woA m c) b n e := by
  rw [W6_self, arrAt2_2 (T5 m) c]
  refine (rowDots2_apply _ _ _).trans ?_
  show _ = ∑ k : Fin 2048, o (xA m c) (frA m c) (wqA m c) b n k * woA m c e k
  refine Finset.sum_congr rfl fun k _ => ?_
  exact congrArg₂ (· * ·) (W5_v10_at m c hentry b n k) (congrFun (W5_v4 m c) (ix2 e k))

/-- The result buffer at the end, entry by entry. -/
theorem W7_v12_at (b : Fin 2) (n e : Fin 2048) :
    (W7 m c main_v12 : S2x2048x2048.Idx → EReal) (ix3 b n e) = G (xA m c) (frA m c) (wqA m c) (woA m c) b n e :=
  (after3_v12_at (W6 m c) b n e (rowLt b n)).trans (W6_v11_at m c hentry b n e)

/-- The kernel program's result array is the specification of its argument arrays. -/
theorem result_eq_at :
    (W7 m c main_v12 : S2x2048x2048.Idx → EReal)
      = fun i => G (fun b n k => (m ((c : Thread nD τ).loc main_arg0) : S2x2048x2048.Idx → EReal) (ix3 b n k))
          (fun n d => (m ((c : Thread nD τ).loc main_arg1) : S2048x64.Idx → EReal) (ix2 n d))
          (fun f k => (m ((c : Thread nD τ).loc main_arg2) : S6144x2048.Idx → EReal) (ix2 f k))
          (fun e k => (m ((c : Thread nD τ).loc main_arg3) : S2048x2048.Idx → EReal) (ix2 e k)) (i 0) (i 1) (i 2) := by
  funext i
  obtain ⟨b, n, e, rfl⟩ : ∃ (b : Fin 2) (n e : Fin 2048), i = ix3 b n e := ⟨i 0, i 1, i 2, eq_ix3 i⟩
  exact W7_v12_at m c hentry b n e

end Attention

/-- The kernel program's result array is the specification of its argument arrays, given the attention region's
    per-tile entry statement. -/
theorem result_eq (hentry : BlockEntry) (m : (ℓ : Loc nD τ sig) → Buf (Elt Ideal) ℓ) (c : Dev nD) :
    (W7 (F := Ideal) m c main_v12 : S2x2048x2048.Idx → EReal)
      = fun i => G (fun b n k => (m ((c : Thread nD τ).loc main_arg0) : S2x2048x2048.Idx → EReal) (ix3 b n k))
          (fun n d => (m ((c : Thread nD τ).loc main_arg1) : S2048x64.Idx → EReal) (ix2 n d))
          (fun f k => (m ((c : Thread nD τ).loc main_arg2) : S6144x2048.Idx → EReal) (ix2 f k))
          (fun e k => (m ((c : Thread nD τ).loc main_arg3) : S2048x2048.Idx → EReal) (ix2 e k)) (i 0) (i 1) (i 2) :=
  result_eq_at m c hentry

end Cert.KernelIdeal.Hand

end
-- ==== Proof.Algebraic.lean ====
/-
  The two programs end with equal results on the extended reals: the kernel program's result buffer ends at the
  specification of its argument arrays (the run through its three regions, then the bridge from the buffers' contents
  at the last boundary), and the reference's result is the same specification of arrays that agree with them.
-/
import proofs.«150253_j62079457296484_2_alg».proof.Defs
import proofs.«150253_j62079457296484_2_alg».proof.Proof.Frames
import proofs.«150253_j62079457296484_2_alg».proof.Proof.Bridge1
import proofs.«150253_j62079457296484_2_alg».proof.Proof.RefValue

noncomputable section

open Idealize.ShloMosaic Idealize.ShloMosaic.ValueIdx Idealize.ShloMosaic.TcCoe
open Idealize.SL.Sem

namespace Cert.Proof.Parts

/-- Given the attention region's per-tile entry statement, the kernel program and the reference, run from memories
    agreeing on the arguments, end with equal results and unchanged arguments. -/
theorem algebraic_of (hentry : Cert.KernelIdeal.Hand.BlockEntry) : Cert.algebraic_KernelIdeal_ReferenceIdeal := by
  intro m ρ m' ρ' _ hagree
  refine ⟨fun c => fun i : Cert.KernelIdeal.S2x2048x2048.Idx => Cert.AttnSpec.G
      (fun b n k => (m ((c.tc : Thread Cert.KernelIdeal.nD Cert.KernelIdeal.τ).loc Cert.KernelIdeal.main_arg0) : Cert.KernelIdeal.S2x2048x2048.Idx → EReal) (ix3 b n k))
      (fun n d => (m ((c.tc : Thread Cert.KernelIdeal.nD Cert.KernelIdeal.τ).loc Cert.KernelIdeal.main_arg1) : Cert.KernelIdeal.S2048x64.Idx → EReal) (ix2 n d))
      (fun f k => (m ((c.tc : Thread Cert.KernelIdeal.nD Cert.KernelIdeal.τ).loc Cert.KernelIdeal.main_arg2) : Cert.KernelIdeal.S6144x2048.Idx → EReal) (ix2 f k))
      (fun e k => (m ((c.tc : Thread Cert.KernelIdeal.nD Cert.KernelIdeal.τ).loc Cert.KernelIdeal.main_arg3) : Cert.KernelIdeal.S2048x2048.Idx → EReal) (ix2 e k))
      (i 0) (i 1) (i 2), ?_, ?_⟩
  · exact (θ_run _ _ _).mono
      (fun r h c => ⟨(h c).1.trans (Cert.KernelIdeal.Hand.result_eq hentry m c), (h c).2⟩)
      (Cert.KernelIdeal.Hand.result_run (F := Ideal) m ρ)
  · exact Cert.ReferenceIdeal.RefValue.run_G_of_agree m' ρ'
      (fun c => m ((c.tc : Thread Cert.KernelIdeal.nD Cert.KernelIdeal.τ).loc Cert.KernelIdeal.main_arg0))
      (fun c => m ((c.tc : Thread Cert.KernelIdeal.nD Cert.KernelIdeal.τ).loc Cert.KernelIdeal.main_arg1))
      (fun c => m ((c.tc : Thread Cert.KernelIdeal.nD Cert.KernelIdeal.τ).loc Cert.KernelIdeal.main_arg2))
      (fun c => m ((c.tc : Thread Cert.KernelIdeal.nD Cert.KernelIdeal.τ).loc Cert.KernelIdeal.main_arg3))
      hagree

end Cert.Proof.Parts

end
-- ==== Proof.lean ====
/-
  A transformer attention block: the fused projection of the activations onto queries, keys and values, the rotary
  embedding of queries and keys, softmax attention per head, and the output projection.

  The kernel program computes it in three tiled regions. The first is a matrix product of the flattened
  activations with the fused weights, tile by tile. The second runs over (batch entry, pair of heads, query
  tile): at the first query tile of a pair it rotates the pair's keys once into a scratch buffer, which the later
  query tiles of the pair read back; every point rotates its query tile, forms the scaled scores against all keys,
  normalises their exponentials by the row sums after subtracting the row maxima, and takes the weighted sum of
  the values. The third region is the output projection, again a tiled matrix product. Between the regions the
  host only reshapes and changes the float format, which at the extended reals is the identity.

  The reference computes the same function with whole-array operations: one contraction for the projection,
  heads split off by reshapes and transposes, the rotary embedding with broadcast tables, a softmax along the key
  axis, a batched contraction with the values and a final contraction with the output weights.

  Both are the one function `Cert.AttnSpec.G` of the four argument arrays, index by index, on the extended reals:
  every sum is the same finite sum up to the order and the tiling of its terms; multiplying by the constant one and
  subtracting from zero are the identity and the negation; the scale 1/8 is the same dyadic literal on both sides.
  No finiteness of the inputs is used.

  The frames: every region's body is run symbolically at a generic grid point against the staging buffers' contents;
  the attention region's invariant holds the scratch at the pair's rotated keys from the pair's first point on;
  the regions and the host stretches between them chain from the launch memory to the end, where no argument's
  buffer has been written. The same argument is carried out for the word-level program and for its idealization.
-/
import proofs.«150253_j62079457296484_2_alg».proof.Defs
import proofs.«150253_j62079457296484_2_alg».proof.Proof.Gen.Kernel
import proofs.«150253_j62079457296484_2_alg».proof.Proof.Gen.KernelIdeal
import proofs.«150253_j62079457296484_2_alg».proof.Proof.Gen.ReferenceIdeal
import proofs.«150253_j62079457296484_2_alg».proof.Proof.Gen.Pre_finite_inputs
import proofs.«150253_j62079457296484_2_alg».proof.Proof.KFrames
import proofs.«150253_j62079457296484_2_alg».proof.Proof.Frames
import proofs.«150253_j62079457296484_2_alg».proof.Proof.RefValue
import proofs.«150253_j62079457296484_2_alg».proof.Proof.AttnEntry
import proofs.«150253_j62079457296484_2_alg».proof.Proof.Algebraic
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Hand.frame_run m ρ

/-- So does its idealization. -/
theorem frame_ki : Cert.frame_KernelIdeal := fun m ρ _ => Cert.KernelIdeal.Hand.frame_run m ρ

/-- The reference is a straight line of host operations. -/
theorem frame_ri : Cert.frame_ReferenceIdeal := Cert.ReferenceIdeal.RefValue.frame

/-- The idealization rewrote no operation. -/
theorem preserves : Cert.preserves_Kernel_KernelIdeal := trivial

/-- At the extended reals the two programs end with the same result array: the attention block `Cert.AttnSpec.G` of
    the arguments. -/
theorem algebraic : Cert.algebraic_KernelIdeal_ReferenceIdeal :=
  Cert.Proof.Parts.algebraic_of Cert.KernelIdeal.Hand.block_entry1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
